-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg8 : FVec F S128x16 .f32) (main_arg9 : FVec F S16 .f32) (main_v33 : IVec S_ 1) : IVec S_ 1 :=
  let main_v34 : FVec F S128x16 .f32 := Host.absf main_arg8
  let main_cst_12 : FVec F S_ .f32 := constant S_ .f32 0x7F800000#32
  let main_v35 : FVec F S128x16 .f32 := broadcastInDim S128x16 ![] bcast_S_S128x16 main_cst_12
  let main_v36 : IVec S128x16 1 := cmpf .olt main_v34 main_v35
  let main_c_13 : IVec S_ 1 := constantI S_ 1 1#1
  let main_v37 : IVec S_ 1 := (fun x v => Host.reduce IntOp.andi x v reducesTo_S128x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x16 .f32) (main_arg9 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x16 .f32) (main_arg9 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S4000x128 : Shape := ⟨2, ![4000, 128]⟩
abbrev S4000x1 : Shape := ⟨2, ![4000, 1]⟩
abbrev S1700000x128 : Shape := ⟨2, ![1700000, 128]⟩
abbrev S1x128 : Shape := ⟨2, ![1, 128]⟩
abbrev S1x16 : Shape := ⟨2, ![1, 16]⟩
abbrev S100000x16 : Shape := ⟨2, ![100000, 16]⟩
abbrev S4000x16 : Shape := ⟨2, ![4000, 16]⟩
abbrev S4000 : Shape := ⟨1, ![4000]⟩

abbrev nBuf : Space → Nat
  | .hbm => 75
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x16, .f32⟩
  | .hbm, ⟨9, _⟩ => ⟨S16, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x128, .bf16⟩
  | .hbm, ⟨35, _⟩ => ⟨S1700000x128, .f32⟩
  | .hbm, ⟨36, _⟩ => ⟨S_, .f32⟩
  | .hbm, ⟨37, _⟩ => ⟨S100000x128, .f32⟩
  | .hbm, ⟨38, _⟩ => ⟨S1700000x1, .i32⟩
  | .hbm, ⟨39, _⟩ => ⟨S100000x128, .f32⟩
  | .hbm, ⟨40, _⟩ => ⟨S1x128, .f32⟩
  | .hbm, ⟨41, _⟩ => ⟨S100000x128, .bf16⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x128, .bf16⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .bf16⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x128, .bf16⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S1x16, .f32⟩
  | .hbm, ⟨74, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x128, .f32⟩
  | .local _ .vmem, ⟨13, _⟩ => ⟨S4000x128, .bf16⟩
  | .local _ .vmem, ⟨14, _⟩ => ⟨S4000x128, .bf16⟩
  | .local _ .vmem, ⟨15, _⟩ => ⟨S4000x128, .f32⟩
  | .local _ .vmem, ⟨16, _⟩ => ⟨S4000x128, .f32⟩
  | .local _ .vmem, ⟨17, _⟩ => ⟨S4000x1, .f32⟩
  | .local _ .vmem, ⟨18, _⟩ => ⟨S4000x1, .f32⟩
  | .local _ .vmem, ⟨19, _⟩ => ⟨S1x128, .f32⟩
  | .local _ .vmem, ⟨20, _⟩ => ⟨S128x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S1x128, .f32⟩
  | .local _ .vmem, ⟨28, _⟩ => ⟨S128x16, .f32⟩
  | .local _ .vmem, ⟨29, _⟩ => ⟨S1x16, .f32⟩
  | .local _ .vmem, ⟨30, _⟩ => ⟨S4000x16, .f32⟩
  | .local _ .vmem, ⟨31, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S4000x16 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  reduces_S4000x16_S4000 : S4000x16.Reduces [1] S4000
  shapeCasts_S4000_S4000x1 : S4000.ShapeCasts S4000x1
  broadcasts_S4000x1_S4000x16 : S4000x1.Broadcasts S4000x16
  inb_S4000x16_S4000x16_0_0 : ∀ a, (![0, 0] : Fin 2 → Nat) a + S4000x16.size a ≤ S4000x16.size a
  h_S4000x16 : 0 < S4000x16.numel
  scatter_S100000_S1700000x1_S1700000_n_0_0_1_wf : ScatterDims.WF S100000 S1700000x1 S1700000 [] [0] [0] 1
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .bf16 = 32 ∨ (Rect.block (s := S100000x128) S4000x128.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x16.size a ≤ S128x16.size a
  hwx3_3 : ∀ i : grid3.Coords, EltTy.bits .f32 = 32 ∨ (Rect.block (s := S128x16) S128x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x16.size a ≤ S1x16.size a
  hwx3_4 : ∀ i : grid3.Coords, EltTy.bits .f32 = 32 ∨ (Rect.block (s := S1x16) S1x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S4000x16.size a ≤ S100000x16.size a
  hwx3_5 : ∀ i : grid3.Coords, EltTy.bits .f32 = 32 ∨ (Rect.block (s := S100000x16) S4000x16.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S128x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v53) S4000x16.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x16 : Shape := ⟨2, ![100000, 16]⟩
abbrev S1x16 : Shape := ⟨2, ![1, 16]⟩
abbrev S100000x1 : Shape := ⟨2, ![100000, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x16, .f32⟩
  | 9 => ⟨S16, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S100000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S100000x128, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000x128, .f32⟩
  | 53 => ⟨S1700000x1, .f32⟩
  | 54 => ⟨S1700000x128, .f32⟩
  | 55 => ⟨S1700000x128, .f32⟩
  | 56 => ⟨S_, .f32⟩
  | 57 => ⟨S100000x128, .f32⟩
  | 58 => ⟨S1700000x1, .i32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .i1⟩
  | 66 => ⟨S_, .f32⟩
  | 67 => ⟨S100000x128, .f32⟩
  | 68 => ⟨S100000x128, .i1⟩
  | 69 => ⟨S_, .f32⟩
  | 70 => ⟨S_, .f32⟩
  | 71 => ⟨S100000x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x1, .f32⟩
  | 89 => ⟨S1700000x128, .f32⟩
  | 90 => ⟨S1700000x128, .f32⟩
  | 91 => ⟨S_, .f32⟩
  | 92 => ⟨S100000x128, .f32⟩
  | 93 => ⟨S1700000x1, .i32⟩
  | 94 => ⟨S100000x128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .i1⟩
  | 104 => ⟨S_, .f32⟩
  | 105 => ⟨S_, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S100000x128, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x1, .f32⟩
  | 124 => ⟨S1700000x128, .f32⟩
  | 125 => ⟨S1700000x128, .f32⟩
  | 126 => ⟨S_, .f32⟩
  | 127 => ⟨S100000x128, .f32⟩
  | _ => ⟨S100000x128, .f32⟩

abbrev hbmTy0_1 (i : Nat) : BufTy := match i % 128 with
  | 0 => ⟨S1700000x1, .i32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S100000x128, .f32⟩
  | 7 => ⟨S100000x128, .i1⟩
  | 8 => ⟨S_, .f32⟩
  | 9 => ⟨S100000x128, .f32⟩
  | 10 => ⟨S100000x128, .i1⟩
  | 11 => ⟨S_, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S100000x16, .f32⟩
  | 21 => ⟨S1x16, .f32⟩
  | 22 => ⟨S100000x16, .f32⟩
  | 23 => ⟨S100000x16, .f32⟩
  | 24 => ⟨S_, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x16, .f32⟩
  | 31 => ⟨S100000x16, .f32⟩
  | 32 => ⟨S100000x16, .f32⟩
  | 33 => ⟨S_, .f32⟩
  | 34 => ⟨S100000, .f32⟩
  | 35 => ⟨S100000x1, .f32⟩
  | 36 => ⟨S100000x1, .f32⟩
  | 37 => ⟨S100000x16, .f32⟩
  | 38 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_call0_v1 : Ref sig .tc := ⟨.hbm, 65, rfl⟩
abbrev main_call0_cst_0 : Ref sig .tc := ⟨.hbm, 66, rfl⟩
abbrev main_call0_v2 : Ref sig .tc := ⟨.hbm, 67, rfl⟩
abbrev main_call0_v3 : Ref sig .tc := ⟨.hbm, 68, rfl⟩
abbrev main_call0_cst_1 : Ref sig .tc := ⟨.hbm, 69, rfl⟩
abbrev main_call0_call0_v0 : Ref sig .tc := ⟨.hbm, 70, rfl⟩
abbrev main_call0_call0_v1 : Ref sig .tc := ⟨.hbm, 71, rfl⟩
abbrev main_call0_v4 : Ref sig .tc := ⟨.hbm, 72, rfl⟩
abbrev main_call0_v5 : Ref sig .tc := ⟨.hbm, 73, rfl⟩
abbrev main_call0_cst_2 : Ref sig .tc := ⟨.hbm, 74, rfl⟩
abbrev main_call0_v6 : Ref sig .tc := ⟨.hbm, 75, rfl⟩
abbrev main_call0_v7 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_v46 : Ref sig .tc := ⟨.hbm, 80, rfl⟩
abbrev main_v47 : Ref sig .tc := ⟨.hbm, 81, rfl⟩
abbrev main_c_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v62 : Ref sig .tc := ⟨.hbm, 112, rfl⟩
abbrev main_v63 : Ref sig .tc := ⟨.hbm, 113, rfl⟩
abbrev main_c_10 : Ref sig .tc := ⟨.hbm, 114, rfl⟩
abbrev main_v64 : Ref sig .tc := ⟨.hbm, 115, rfl⟩
abbrev main_v65 : Ref sig .tc := ⟨.hbm, 116, rfl⟩
abbrev main_c_11 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_12 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_call2_cst : Ref sig .tc := ⟨.hbm, 133, rfl⟩
abbrev main_call2_v0 : Ref sig .tc := ⟨.hbm, 134, rfl⟩
abbrev main_call2_v1 : Ref sig .tc := ⟨.hbm, 135, rfl⟩
abbrev main_call2_cst_0 : Ref sig .tc := ⟨.hbm, 136, rfl⟩
abbrev main_call2_v2 : Ref sig .tc := ⟨.hbm, 137, rfl⟩
abbrev main_call2_v3 : Ref sig .tc := ⟨.hbm, 138, rfl⟩
abbrev main_call2_cst_1 : Ref sig .tc := ⟨.hbm, 139, rfl⟩
abbrev main_call2_call0_v0 : Ref sig .tc := ⟨.hbm, 140, rfl⟩
abbrev main_call2_call0_v1 : Ref sig .tc := ⟨.hbm, 141, rfl⟩
abbrev main_call2_v4 : Ref sig .tc := ⟨.hbm, 142, rfl⟩
abbrev main_call2_v5 : Ref sig .tc := ⟨.hbm, 143, rfl⟩
abbrev main_call2_cst_2 : Ref sig .tc := ⟨.hbm, 144, rfl⟩
abbrev main_call2_v6 : Ref sig .tc := ⟨.hbm, 145, rfl⟩
abbrev main_call2_v7 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_call3_cst : Ref sig .tc := ⟨.hbm, 152, rfl⟩
abbrev main_call3_v0 : Ref sig .tc := ⟨.hbm, 153, rfl⟩
abbrev main_call3_cst_0 : Ref sig .tc := ⟨.hbm, 154, rfl⟩
abbrev main_call3_v1 : Ref sig .tc := ⟨.hbm, 155, rfl⟩
abbrev main_call3_v2 : Ref sig .tc := ⟨.hbm, 156, rfl⟩
abbrev main_call3_v3 : Ref sig .tc := ⟨.hbm, 157, rfl⟩
abbrev main_call3_v4 : Ref sig .tc := ⟨.hbm, 158, rfl⟩
abbrev main_call3_v5 : Ref sig .tc := ⟨.hbm, 159, rfl⟩
abbrev main_call3_v6 : Ref sig .tc := ⟨.hbm, 160, rfl⟩
abbrev main_call3_cst_1 : Ref sig .tc := ⟨.hbm, 161, rfl⟩
abbrev main_call3_v7 : Ref sig .tc := ⟨.hbm, 162, rfl⟩
abbrev main_call3_v8 : Ref sig .tc := ⟨.hbm, 163, rfl⟩
abbrev main_call3_v9 : Ref sig .tc := ⟨.hbm, 164, rfl⟩
abbrev main_call3_v10 : Ref sig .tc := ⟨.hbm, 165, rfl⟩
abbrev main_v85 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.KRun.lean ====
/-
  The idealized kernel program's run, with its result named.

  The program is four kernel launches among stretches of host operations. Every weakly fair execution from a memory with
  zero counters terminates without a fault; at the end the result buffer holds what the last launch's write-backs leave in its
  output array — the last boundary's contents `W8` of the fold through the program, read at the result buffer — and every
  argument array is as launched.
-/
import proofs.«161114_j30794915512600_2_alg».proof.Proof.KernelIdealFrameP

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents and the arguments
    as launched. -/
theorem run : θ_run defs (onTc (τ := τ) (main (F := F))) ⟨m, fun _ => 0, ρ⟩ (fun r => ∀ c : Dev nD,
      r.2.mem ((c.tc : Thread nD τ).loc main_v53) = W8 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v53 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.KKeep.lean ====
/-
  Which buffers survive which segment of the kernel program.

  The program is host stretch 0, launch 0, host stretch 1, launch 1, host stretch 2, launch 2, host stretch 3, launch 3; the
  contents of every buffer at the eight boundaries are a fold through these segments. A host stretch changes only the buffers
  its operations write; a launch changes only its output array (its input arrays are read through windows and left as they
  were). So a buffer written once and never again — the edge arrays, the node factor, an argument — holds at every later
  boundary what it held when it was written.
-/
import proofs.«161114_j30794915512600_2_alg».proof.Proof.KernelIdealFrameP

set_option maxRecDepth 16384

noncomputable section

namespace Cert.KernelIdeal.KKeep

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A buffer that no operation of host stretch 0 writes holds after the stretch what it held before. -/
theorem W1_keep (c : Dev nD) (b : Ref sig .tc)
    (hb : ∀ x ∈ ([main_v0, main_v1, main_v2, main_v3, main_v4, main_v5, main_v6, main_cst, main_v7, main_cst_0, main_v8, main_v9, main_v10, main_v11, main_v12] : List (Ref sig .tc)), b ≠ x) :
    W1 m ρ c (Proc.devRef .tc b) = W0 m ρ c (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- Kernel launch 0 writes its output array only: every other buffer holds at its exit what it held at its entry. -/
theorem W2_keep (c : Dev nD) (b : Ref sig .tc) (hb : b ≠ main_v13) :
    W2 m ρ c (Proc.devRef .tc b) = W1 m ρ c (Proc.devRef .tc b) := by
  by_cases h0 : Pipeline.arrRef spec0 0 = b
  · subst h0
    exact (W2_arr m ρ c 0).trans (((dat0 (V1 m ρ) c).arrAt_in 0 rfl _).trans (A_eq0 (V1 m ρ) c 0))
  by_cases h1 : Pipeline.arrRef spec0 1 = b
  · subst h1
    exact (W2_arr m ρ c 1).trans (((dat0 (V1 m ρ) c).arrAt_in 1 rfl _).trans (A_eq0 (V1 m ρ) c 1))
  by_cases h2 : Pipeline.arrRef spec0 2 = b
  · subst h2
    exact (W2_arr m ρ c 2).trans (((dat0 (V1 m ρ) c).arrAt_in 2 rfl _).trans (A_eq0 (V1 m ρ) c 2))
  exact W2_of_ne m ρ c b (fun | 0 => h0 | 1 => h1 | 2 => h2 | 3 => fun h => hb (h.symm.trans rfl) | ⟨_ + 4, h⟩ => absurd h (Nat.not_lt.2 (Nat.le_add_left _ _)))

/-- A buffer that no operation of host stretch 1 writes holds after the stretch what it held before. -/
theorem W3_keep (c : Dev nD) (b : Ref sig .tc)
    (hb : ∀ x ∈ ([main_c, main_v14, main_v15, main_c_1, main_v16, main_v17, main_v18, main_v19, main_v20, main_v21, main_cst_2, main_v22, main_v23, main_v24, main_v25] : List (Ref sig .tc)), b ≠ x) :
    W3 m ρ c (Proc.devRef .tc b) = W2 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- Kernel launch 1 writes its output array only: every other buffer holds at its exit what it held at its entry. -/
theorem W4_keep (c : Dev nD) (b : Ref sig .tc) (hb : b ≠ main_v26) :
    W4 m ρ c (Proc.devRef .tc b) = W3 m ρ c (Proc.devRef .tc b) := by
  by_cases h0 : Pipeline.arrRef spec1 0 = b
  · subst h0
    exact (W4_arr m ρ c 0).trans (((dat1 (V3 m ρ) c).arrAt_in 0 rfl _).trans (A_eq1 (V3 m ρ) c 0))
  by_cases h1 : Pipeline.arrRef spec1 1 = b
  · subst h1
    exact (W4_arr m ρ c 1).trans (((dat1 (V3 m ρ) c).arrAt_in 1 rfl _).trans (A_eq1 (V3 m ρ) c 1))
  by_cases h2 : Pipeline.arrRef spec1 2 = b
  · subst h2
    exact (W4_arr m ρ c 2).trans (((dat1 (V3 m ρ) c).arrAt_in 2 rfl _).trans (A_eq1 (V3 m ρ) c 2))
  by_cases h3 : Pipeline.arrRef spec1 3 = b
  · subst h3
    exact (W4_arr m ρ c 3).trans (((dat1 (V3 m ρ) c).arrAt_in 3 rfl _).trans (A_eq1 (V3 m ρ) c 3))
  exact W4_of_ne m ρ c b (fun | 0 => h0 | 1 => h1 | 2 => h2 | 3 => h3 | 4 => fun h => hb (h.symm.trans rfl) | ⟨_ + 5, h⟩ => absurd h (Nat.not_lt.2 (Nat.le_add_left _ _)))

/-- A buffer that no operation of host stretch 2 writes holds after the stretch what it held before. -/
theorem W5_keep (c : Dev nD) (b : Ref sig .tc)
    (hb : ∀ x ∈ ([main_c_3, main_v27, main_v28, main_c_4, main_v29, main_v30, main_v31, main_v32, main_v33, main_v34, main_cst_5, main_v35, main_v36, main_v37, main_v38] : List (Ref sig .tc)), b ≠ x) :
    W5 m ρ c (Proc.devRef .tc b) = W4 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- Kernel launch 2 writes its output array only: every other buffer holds at its exit what it held at its entry. -/
theorem W6_keep (c : Dev nD) (b : Ref sig .tc) (hb : b ≠ main_v39) :
    W6 m ρ c (Proc.devRef .tc b) = W5 m ρ c (Proc.devRef .tc b) := by
  by_cases h0 : Pipeline.arrRef spec2 0 = b
  · subst h0
    exact (W6_arr m ρ c 0).trans (((dat2 (V5 m ρ) c).arrAt_in 0 rfl _).trans (A_eq2 (V5 m ρ) c 0))
  by_cases h1 : Pipeline.arrRef spec2 1 = b
  · subst h1
    exact (W6_arr m ρ c 1).trans (((dat2 (V5 m ρ) c).arrAt_in 1 rfl _).trans (A_eq2 (V5 m ρ) c 1))
  by_cases h2 : Pipeline.arrRef spec2 2 = b
  · subst h2
    exact (W6_arr m ρ c 2).trans (((dat2 (V5 m ρ) c).arrAt_in 2 rfl _).trans (A_eq2 (V5 m ρ) c 2))
  by_cases h3 : Pipeline.arrRef spec2 3 = b
  · subst h3
    exact (W6_arr m ρ c 3).trans (((dat2 (V5 m ρ) c).arrAt_in 3 rfl _).trans (A_eq2 (V5 m ρ) c 3))
  exact W6_of_ne m ρ c b (fun | 0 => h0 | 1 => h1 | 2 => h2 | 3 => h3 | 4 => fun h => hb (h.symm.trans rfl) | ⟨_ + 5, h⟩ => absurd h (Nat.not_lt.2 (Nat.le_add_left _ _)))

/-- A buffer that no operation of host stretch 3 writes holds after the stretch what it held before. -/
theorem W7_keep (c : Dev nD) (b : Ref sig .tc)
    (hb : ∀ x ∈ ([main_c_6, main_v40, main_v41, main_c_7, main_v42, main_v43, main_v44, main_v45, main_v46, main_v47, main_cst_8, main_v48, main_v49, main_v50, main_v51, main_v52] : List (Ref sig .tc)), b ≠ x) :
    W7 m ρ c (Proc.devRef .tc b) = W6 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

end Cert.KernelIdeal.KKeep

end
-- ==== Proof.KHost.lean ====
/-
  The host stretches of the kernel program, as functions of the arguments.

  Host stretch 0 builds, from the edge list, the source and destination arrays (the given numbers followed by the node
  counter), the degree (ones scattered by destination, from zero), the node factor dinv = rsqrt(degree) and its column form.
  Each later stretch wraps negative source numbers, gathers the rows of the previous launch's output at the sources, adds
  them up by destination from the zero table, and reshapes a bias vector to a row. The lemmas below say what each buffer
  holds at the boundary after its stretch, in terms of the buffers at the boundary before it.
-/
import Idealize.ShloMosaic.PureOps.Ideal
import proofs.«161114_j30794915512600_2_alg».proof.Proof.KKeep

set_option maxRecDepth 16384

noncomputable section

namespace Cert.KernelIdeal.KHost

open Idealize.ShloMosaic Idealize.ShloMosaic.TcCoe Idealize.ShloMosaic.StableHlo
open Idealize.SL Idealize.SL.Sem
open Cert.KernelIdeal Cert.KernelIdeal.Gen Cert.KernelIdeal.KKeep

/-! ## The arrays -/

/-- The given numbers of row `r` of the edge list, followed by the node counter. -/
def endsV (r : Fin 2 → ℕ) (hs : S2x1600000.Slices r S1x1600000) (ei : IVec S2x1600000 32) : IVec S1700000 32 :=
  concatenate S1700000 0 [⟨S1600000, shapeCast S1600000 (extractStridedSlice S1x1600000 r ei hs) shapeCasts_S1x1600000_S1600000⟩,
    ⟨S100000, iotaInDim S100000 32 0⟩] concatenates_S1600000_S100000_S1700000_d0

/-- The sources. -/
def srcV (ei : IVec S2x1600000 32) : IVec S1700000 32 := endsV ![0, 0] slices_S2x1600000_S1x1600000_0_0 ei
/-- The destinations. -/
def dstV (ei : IVec S2x1600000 32) : IVec S1700000 32 := endsV ![1, 0] slices_S2x1600000_S1x1600000_1_0 ei

/-- Row numbers as the column a scatter reads. -/
def colI (v : IVec S1700000 32) : IVec S1700000x1 32 := broadcastInDim S1700000x1 ![0] bcast_S1700000_S1700000x1_0 v

/-- Row numbers, negative ones wrapped, as the column a gather reads. -/
def wrapI (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The degree: ones added up by destination, from zero. -/
def degV (dst : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32)) (colI dst)
    (broadcastInDim S1700000 ![] bcast_S_S1700000 (constant (F := Ideal) S_ .f32 0x3F800000#32))

/-- The node factor, as a column. -/
def dcolV (dst : IVec S1700000 32) : FVec Ideal S100000x1 .f32 :=
  shapeCast S100000x1 (Host.rsqrt (F := Ideal) (degV dst)) shapeCasts_S100000_S100000x1

/-- Rows of a table gathered at the sources and added up by destination, from the zero table. -/
def aggV (src dst : IVec S1700000 32) (hs : FVec Ideal S100000x128 .bf16) : FVec Ideal S100000x128 .f32 :=
  Host.scatterAdd (F := Ideal) scatter_S100000x128_S1700000x1_S1700000x128_1_0_0_1
    (broadcastInDim S100000x128 ![] bcast_S_S100000x128 (constant (F := Ideal) S_ .f32 0x00000000#32)) (colI dst)
    (extf .f32 (Host.gather gather_S100000x128_S1700000x1_S1700000x128_1_0_n_n_0_1_1128 hs (wrapI src)) bitsLt_bf16_f32)

variable (m : (ℓ : Loc nD τ sig) → Buf (Elt Ideal) ℓ) (ρ : Dev nD → PrngReg) (c : Dev nD)

/-! ## After host stretch 0 -/

theorem W1_v3 : W1 m ρ c (Proc.devRef .tc main_v3) = srcV (m ((c : Thread nD τ).loc main_arg1)) := by
  show StableHlo.after hostOps0 (W0 m ρ c) (Proc.devRef .tc main_v3) = _
  after_results
  rfl

theorem W1_v6 : W1 m ρ c (Proc.devRef .tc main_v6) = dstV (m ((c : Thread nD τ).loc main_arg1)) := by
  show StableHlo.after hostOps0 (W0 m ρ c) (Proc.devRef .tc main_v6) = _
  after_results
  rfl

theorem W1_v12 : W1 m ρ c (Proc.devRef .tc main_v12) = dcolV (dstV (m ((c : Thread nD τ).loc main_arg1))) := by
  show StableHlo.after hostOps0 (W0 m ρ c) (Proc.devRef .tc main_v12) = _
  after_results
  rfl

/-! ## After host stretches 1, 2, 3 -/

theorem W3_v24 : W3 m ρ c (Proc.devRef .tc main_v24)
    = aggV (W2 m ρ c (Proc.devRef .tc main_v3)) (W2 m ρ c (Proc.devRef .tc main_v6)) (W2 m ρ c (Proc.devRef .tc main_v13)) := by
  show StableHlo.after hostOps1 (W2 m ρ c) (Proc.devRef .tc main_v24) = _
  after_results
  rfl

theorem W3_v25 : W3 m ρ c (Proc.devRef .tc main_v25)
    = shapeCast S1x128 (W2 m ρ c (Proc.devRef .tc main_arg3)) shapeCasts_S128_S1x128 := by
  show StableHlo.after hostOps1 (W2 m ρ c) (Proc.devRef .tc main_v25) = _
  after_results
  rfl

theorem W5_v37 : W5 m ρ c (Proc.devRef .tc main_v37)
    = aggV (W4 m ρ c (Proc.devRef .tc main_v3)) (W4 m ρ c (Proc.devRef .tc main_v6)) (W4 m ρ c (Proc.devRef .tc main_v26)) := by
  show StableHlo.after hostOps2 (W4 m ρ c) (Proc.devRef .tc main_v37) = _
  after_results
  rfl

theorem W5_v38 : W5 m ρ c (Proc.devRef .tc main_v38)
    = shapeCast S1x128 (W4 m ρ c (Proc.devRef .tc main_arg5)) shapeCasts_S128_S1x128 := by
  show StableHlo.after hostOps2 (W4 m ρ c) (Proc.devRef .tc main_v38) = _
  after_results
  rfl

theorem W7_v50 : W7 m ρ c (Proc.devRef .tc main_v50)
    = aggV (W6 m ρ c (Proc.devRef .tc main_v3)) (W6 m ρ c (Proc.devRef .tc main_v6)) (W6 m ρ c (Proc.devRef .tc main_v39)) := by
  show StableHlo.after hostOps3 (W6 m ρ c) (Proc.devRef .tc main_v50) = _
  after_results
  rfl

theorem W7_v51 : W7 m ρ c (Proc.devRef .tc main_v51)
    = shapeCast S1x128 (W6 m ρ c (Proc.devRef .tc main_arg7)) shapeCasts_S128_S1x128 := by
  show StableHlo.after hostOps3 (W6 m ρ c) (Proc.devRef .tc main_v51) = _
  after_results
  rfl

theorem W7_v52 : W7 m ρ c (Proc.devRef .tc main_v52)
    = shapeCast S1x16 (W6 m ρ c (Proc.devRef .tc main_arg9)) shapeCasts_S16_S1x16 := by
  show StableHlo.after hostOps3 (W6 m ρ c) (Proc.devRef .tc main_v52) = _
  after_results
  rfl

end Cert.KernelIdeal.KHost

end
-- ==== Proof.KStable.lean ====
/-
  Buffers that are written once: what they hold at every later boundary of the kernel program.

  The edge arrays and the node factor are written by host stretch 0 and never again; an argument is never written. No launch
  has one of them as its output array. So at every later boundary they hold what they held after stretch 0 (an argument: at
  the launch).
-/
import proofs.«161114_j30794915512600_2_alg».proof.Proof.KHost

set_option maxRecDepth 16384

noncomputable section

namespace Cert.KernelIdeal.KStable

open Idealize.ShloMosaic Idealize.ShloMosaic.TcCoe
open Idealize.SL Idealize.SL.Sem
open Cert.KernelIdeal Cert.KernelIdeal.Gen Cert.KernelIdeal.KKeep Cert.KernelIdeal.KHost

variable {F : FTy → Type} [FloatOps F]
variable (m : (ℓ : Loc nD τ sig) → Buf (Elt F) ℓ) (ρ : Dev nD → PrngReg) (c : Dev nD)

/-- A buffer that host stretches 1, 2, 3 do not write and that is no launch's output holds at every boundary after stretch 0
    what it held there. -/
theorem mid_const (b : Ref sig .tc)
    (h1 : ∀ x ∈ ([main_c, main_v14, main_v15, main_c_1, main_v16, main_v17, main_v18, main_v19, main_v20, main_v21, main_cst_2, main_v22, main_v23, main_v24, main_v25] : List (Ref sig .tc)), b ≠ x)
    (h2 : ∀ x ∈ ([main_c_3, main_v27, main_v28, main_c_4, main_v29, main_v30, main_v31, main_v32, main_v33, main_v34, main_cst_5, main_v35, main_v36, main_v37, main_v38] : List (Ref sig .tc)), b ≠ x)
    (h3 : ∀ x ∈ ([main_c_6, main_v40, main_v41, main_c_7, main_v42, main_v43, main_v44, main_v45, main_v46, main_v47, main_cst_8, main_v48, main_v49, main_v50, main_v51, main_v52] : List (Ref sig .tc)), b ≠ x)
    (o0 : b ≠ main_v13) (o1 : b ≠ main_v26) (o2 : b ≠ main_v39) :
    W2 m ρ c (Proc.devRef .tc b) = W1 m ρ c (Proc.devRef .tc b)
    ∧ W3 m ρ c (Proc.devRef .tc b) = W1 m ρ c (Proc.devRef .tc b)
    ∧ W4 m ρ c (Proc.devRef .tc b) = W1 m ρ c (Proc.devRef .tc b)
    ∧ W5 m ρ c (Proc.devRef .tc b) = W1 m ρ c (Proc.devRef .tc b)
    ∧ W6 m ρ c (Proc.devRef .tc b) = W1 m ρ c (Proc.devRef .tc b)
    ∧ W7 m ρ c (Proc.devRef .tc b) = W1 m ρ c (Proc.devRef .tc b) := by
  have e2 := W2_keep m ρ c b o0
  have e3 := (W3_keep m ρ c b h1).trans e2
  have e4 := (W4_keep m ρ c b o1).trans e3
  have e5 := (W5_keep m ρ c b h2).trans e4
  have e6 := (W6_keep m ρ c b o2).trans e5
  have e7 := (W7_keep m ρ c b h3).trans e6
  exact ⟨e2, e3, e4, e5, e6, e7⟩

/-- The same for a buffer that host stretch 0 does not write either: it holds the launch contents throughout. -/
theorem arg_const (b : Ref sig .tc)
    (h0 : ∀ x ∈ ([main_v0, main_v1, main_v2, main_v3, main_v4, main_v5, main_v6, main_cst, main_v7, main_cst_0, main_v8, main_v9, main_v10, main_v11, main_v12] : List (Ref sig .tc)), b ≠ x)
    (h1 : ∀ x ∈ ([main_c, main_v14, main_v15, main_c_1, main_v16, main_v17, main_v18, main_v19, main_v20, main_v21, main_cst_2, main_v22, main_v23, main_v24, main_v25] : List (Ref sig .tc)), b ≠ x)
    (h2 : ∀ x ∈ ([main_c_3, main_v27, main_v28, main_c_4, main_v29, main_v30, main_v31, main_v32, main_v33, main_v34, main_cst_5, main_v35, main_v36, main_v37, main_v38] : List (Ref sig .tc)), b ≠ x)
    (h3 : ∀ x ∈ ([main_c_6, main_v40, main_v41, main_c_7, main_v42, main_v43, main_v44, main_v45, main_v46, main_v47, main_cst_8, main_v48, main_v49, main_v50, main_v51, main_v52] : List (Ref sig .tc)), b ≠ x)
    (o0 : b ≠ main_v13) (o1 : b ≠ main_v26) (o2 : b ≠ main_v39) :
    W1 m ρ c (Proc.devRef .tc b) = W0 m ρ c (Proc.devRef .tc b)
    ∧ W2 m ρ c (Proc.devRef .tc b) = W0 m ρ c (Proc.devRef .tc b)
    ∧ W3 m ρ c (Proc.devRef .tc b) = W0 m ρ c (Proc.devRef .tc b)
    ∧ W4 m ρ c (Proc.devRef .tc b) = W0 m ρ c (Proc.devRef .tc b)
    ∧ W5 m ρ c (Proc.devRef .tc b) = W0 m ρ c (Proc.devRef .tc b)
    ∧ W6 m ρ c (Proc.devRef .tc b) = W0 m ρ c (Proc.devRef .tc b)
    ∧ W7 m ρ c (Proc.devRef .tc b) = W0 m ρ c (Proc.devRef .tc b) := by
  have e1 := W1_keep m ρ c b h0
  obtain ⟨e2, e3, e4, e5, e6, e7⟩ := mid_const m ρ c b h1 h2 h3 o0 o1 o2
  exact ⟨e1, e2.trans e1, e3.trans e1, e4.trans e1, e5.trans e1, e6.trans e1, e7.trans e1⟩

def v3_const := mid_const m ρ c main_v3 (by decide) (by decide) (by decide) (by decide) (by decide) (by decide)
def v6_const := mid_const m ρ c main_v6 (by decide) (by decide) (by decide) (by decide) (by decide) (by decide)
def v12_const := mid_const m ρ c main_v12 (by decide) (by decide) (by decide) (by decide) (by decide) (by decide)
def arg0_const := arg_const m ρ c main_arg0 (by decide) (by decide) (by decide) (by decide) (by decide) (by decide) (by decide)
def arg2_const := arg_const m ρ c main_arg2 (by decide) (by decide) (by decide) (by decide) (by decide) (by decide) (by decide)
def arg3_const := arg_const m ρ c main_arg3 (by decide) (by decide) (by decide) (by decide) (by decide) (by decide) (by decide)
def arg4_const := arg_const m ρ c main_arg4 (by decide) (by decide) (by decide) (by decide) (by decide) (by decide) (by decide)
def arg5_const := arg_const m ρ c main_arg5 (by decide) (by decide) (by decide) (by decide) (by decide) (by decide) (by decide)
def arg6_const := arg_const m ρ c main_arg6 (by decide) (by decide) (by decide) (by decide) (by decide) (by decide) (by decide)
def arg7_const := arg_const m ρ c main_arg7 (by decide) (by decide) (by decide) (by decide) (by decide) (by decide) (by decide)
def arg8_const := arg_const m ρ c main_arg8 (by decide) (by decide) (by decide) (by decide) (by decide) (by decide) (by decide)
def arg9_const := arg_const m ρ c main_arg9 (by decide) (by decide) (by decide) (by decide) (by decide) (by decide) (by decide)

end Cert.KernelIdeal.KStable

end
-- ==== Proof.LibGatherRows.lean ====
/-
  A gather of whole rows, read at an index written by coordinates.

  Taking rows of an [N, C] table at an [R, 1] array of row numbers gives an [R, C] array. Its element (p, q) is the table's
  element (ρ p, q): the row ρ p is the row number stored for p, read as a signed integer and clamped into [0, N − 1]; the lane q
  is kept. The row ρ p depends on the row numbers alone — not on the table, nor on the lane — so taking rows commutes with
  anything done to each row of the table separately.
-/
import Idealize.ShloMosaic.Lib.ValueIdx
import Idealize.ShloMosaic.Lib.Pipeline.Value

namespace Cert.LibGatherRows

open Idealize.ShloMosaic Idealize.ShloMosaic.ValueIdx

variable {α : Type}

/-- The dimension numbers of taking rows: the table's row axis is collapsed and indexed by the one component of each start index,
    its lane axis is the result's second axis, taken whole. Their conditions `wf` are decided on a program's literal shapes. -/
abbrev rowDims (N R C : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Of a table's two axes, the one that is not the collapsed row axis is the lane axis. -/
private theorem kept_lanes :
    (List.finRange 2).filter (fun a : Fin 2 => a ∉ ([0] ++ [] : List (Fin 2))) = [1] := by decide

/-- The row of an `N`-row table that result row `p` reads: the stored row number, signed, clamped into `[0, N − 1]`. -/
def rowOf {N R w : ℕ} (hN : 0 < N) (idx : IVec ⟨2, ![R, 1]⟩ w) (p : Fin R) : Fin N :=
  ⟨min (idx (ix2 p (0 : Fin 1))).toInt.toNat (N - 1), by omega⟩

/-- Rows of an `[N, C]` table taken at an `[R, 1]` array of row numbers: element `(p, q)` is the table's `(rowOf p, q)`. -/
theorem gather_rows_apply {N R C w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N R C wf) x idx (ix2 p q) = x (ix2 (rowOf hN idx p) q) := by
  unfold Host.gather
  congr 1
  funext a
  refine Fin.ext ?_
  show (rowDims N R C wf).start (ix2 p q) idx a + (rowDims N R C wf).batchCoord (ix2 p q) a
    + (rowDims N R C wf).offCoord (ix2 p q) a = _
  rw [GatherDims.batchCoord_eq_zero _ _ _ List.not_mem_nil]
  match a with
  | ⟨0, _⟩ =>
    show (rowDims N R C wf).start (ix2 p q) idx (0 : Fin 2) + 0 + (rowDims N R C wf).offCoord (ix2 p q) (0 : Fin 2)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 p q) ⟨List.idxOf (0 : Fin 2) (rowDims N R C wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowDims N R C wf).start (ix2 p q) idx (1 : Fin 2) + 0 + (rowDims N R C wf).offCoord (ix2 p q) (1 : Fin 2) = q.val
    have hs : (rowDims N R C wf).start (ix2 p q) idx (1 : Fin 2) = 0 := by
      unfold GatherDims.start
      rw [dif_neg (show (1 : Fin 2) ∉ ([0] : List (Fin 2)) by decide)]
    have hkept : (rowDims N R C wf).sKept = [(1 : Fin 2)] := kept_lanes
    have hk : (1 : Fin 2) ∈ (rowDims N R C wf).sKept := by rw [hkept]; exact List.mem_singleton.mpr rfl
    rw [hs]
    unfold GatherDims.offCoord
    rw [dif_pos hk]
    simp only [List.getElem_singleton, Nat.add_zero, Nat.zero_add]
    rfl

end Cert.LibGatherRows
-- ==== Proof.LibRowIndex.lean ====
/-
  Rows named by an array of row numbers: a flat gather, and where an accumulating scatter of rows lands.

  Taking entries of a length-N vector at an [R, 1] array of row numbers gives a length-R vector whose entry p is the vector's
  entry ρ p, the SAME row ρ p (the stored number read signed and clamped into [0, N − 1]) that taking whole rows of an [N, C]
  table at those numbers reads. A scatter of the rows of an [R, C] array of updates into an [N, C] array at an [R, 1] array
  of row numbers lands update (e, f) — when it lands at all — on row "the stored number of e, read signed, not clamped", so an
  update that lands on row n has stored number exactly n. jnp's indexing first wraps a negative number by adding the extent:
  on a number that is already a valid row the wrap does nothing, so a scatter target n is also the row a gather at the wrapped
  numbers reads.
-/
import Idealize.ShloMosaic.Lib.ValueIdx
import Idealize.ShloMosaic.Lib.Pipeline.Value
import proofs.«161114_j30794915512600_2_alg».proof.Proof.LibGatherRows

namespace Cert.LibRowIndex

open Idealize.ShloMosaic Idealize.ShloMosaic.ValueIdx Cert.LibGatherRows

variable {α : Type}

/-- The dimension numbers of taking entries of a vector: its one axis is collapsed and indexed by the one component of each
    start index; the result has no offset axis. -/
abbrev vecDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entries of a length-`N` vector taken at an `[R, 1]` array of row numbers: entry `p` is the vector's entry `rowOf p`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (p : Fin R) :
    Host.gather (vecDims N R wf) x idx (ix1 p) = x (ix1 (rowOf hN idx p)) := by
  unfold Host.gather
  congr 1
  funext a
  refine Fin.ext ?_
  show (vecDims N R wf).start (ix1 p) idx a + (vecDims N R wf).batchCoord (ix1 p) a
    + (vecDims N R wf).offCoord (ix1 p) a = _
  rw [GatherDims.batchCoord_eq_zero _ _ _ List.not_mem_nil]
  match a with
  | ⟨0, _⟩ =>
    show (vecDims N R wf).start (ix1 p) idx (0 : Fin 1) + 0 + (vecDims N R wf).offCoord (ix1 p) (0 : Fin 1)
      = (rowOf hN idx p).val
    rw [GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N R wf).startIndexMap from List.mem_singleton.mpr rfl)]
    have hsi : (vecDims N R wf).siIdx (ix1 p) ⟨List.idxOf (0 : Fin 1) (vecDims N R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The dimension numbers of scattering rows: the update's lane axis is its window axis, the operand's row axis is inserted
    and indexed by the one component of each scatter index. -/
abbrev rowScatterDims (N R C : ℕ) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Of an operand's two axes, the inserted row axis is not a kept one. -/
private theorem row_not_kept : (0 : Fin 2) ∉ (List.finRange 2).filter (fun a : Fin 2 => a ∉ ([0] : List (Fin 2))) := by decide

/-- An update `(e, f)` of a scatter of rows that lands on element `i` has stored row number exactly `i`'s row. -/
theorem scatter_rows_target {N R C w : ℕ} (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowScatterDims N R C wf).resultIdx? (ix2 e f) idx = some i) :
    (idx (ix2 e (0 : Fin 1))).toInt = ((i 0).val : ℤ) := by
  have hst : (rowScatterDims N R C wf).start (ix2 e f) idx (0 : Fin 2) = (idx (ix2 e (0 : Fin 1))).toInt := by
    unfold ScatterDims.start
    rw [dif_pos (show (0 : Fin 2) ∈ (rowScatterDims N R C wf).scatterDimsToOperandDims from List.mem_singleton.mpr rfl)]
    have hsi : (rowScatterDims N R C wf).siIdx (ix2 e f) ⟨List.idxOf (0 : Fin 2) (rowScatterDims N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N R C wf).window (ix2 e f) (0 : Fin 2) = 0 := by
    unfold ScatterDims.window
    rw [dif_neg (show (0 : Fin 2) ∉ (rowScatterDims N R C wf).sKept from row_not_kept)]
  unfold ScatterDims.resultIdx? at h
  split at h
  · rename_i hin
    have h0 := congrArg Fin.val (congrFun (Option.some.inj h) (0 : Fin 2))
    have hpos := (hin (0 : Fin 2)).1
    rw [hst, hw] at hpos
    simp only [hst, hw] at h0
    omega
  · exact absurd h (by simp)

/-- jnp's wrap of a negative row number, `select(v < 0, v + k, v)`, leaves a non-negative number alone. -/
theorem wrap_of_nonneg (v k : BitVec 32) (hv : 0 ≤ v.toInt) :
    Scalar.select (IntOp.cmpi .slt v 0#32) (IntOp.addi v k) v = v := by
  have : IntOp.cmpi .slt v 0#32 ≠ 1 := by
    simp only [IntOp.cmpi, BitVec.slt]
    have h0 : (0#32 : BitVec 32).toInt = 0 := by decide
    rw [h0, decide_eq_false (by omega)]
    decide
  rw [Scalar.select, if_neg this]

/-- The row a gather reads at a row number that is stored as a valid row `n`: that row. -/
theorem rowOf_of_toInt {N R : ℕ} (hN : 0 < N) (idx : IVec ⟨2, ![R, 1]⟩ 32) (p : Fin R) (n : Fin N)
    (h : (idx (ix2 p (0 : Fin 1))).toInt = (n.val : ℤ)) : rowOf hN idx p = n := by
  refine Fin.ext ?_
  show min (idx (ix2 p (0 : Fin 1))).toInt.toNat (N - 1) = n.val
  rw [h]
  have := n.isLt
  simp only [Int.toNat_natCast]
  omega

end Cert.LibRowIndex
-- ==== Proof.LibRowAggLinear.lean ====
/-
  Summing rows into rows, and a matrix product applied after the sum.

  A graph layer adds, into row p of an [N, C] table, every row of an [R, C] array of updates whose stored row number is p
  (an accumulating scatter of rows, started from the zero table); the updates are themselves rows of the table taken at
  another array of row numbers (a gather of rows). A matrix product with a [C, D] matrix acts on each row separately, so it
  commutes with taking rows and — being additive in the row — with the accumulation: multiplying the aggregated table is the
  same as aggregating the multiplied one. Over the extended reals the distributive law a·w + b·w = (a + b)·w fails at
  infinities, so the statements ask every entry to be a real number.
-/
import Idealize.ShloMosaic.PureOps.Ideal
import Idealize.ShloMosaic.Lib.ValueIdx
import Idealize.ShloMosaic.Lib.Pipeline.Value
import proofs.«161114_j30794915512600_2_alg».proof.Proof.LibGatherRows
import proofs.«161114_j30794915512600_2_alg».proof.Proof.LibRowIndex

namespace Cert.LibRowAggLinear

open Idealize.ShloMosaic Idealize.ShloMosaic.ValueIdx Cert.LibGatherRows Cert.LibRowIndex
open scoped BigOperators

/-! ## Real numbers inside the extended reals -/

/-- The inclusion of the reals in the extended reals carries a finite sum to the finite sum. -/
@[norm_cast]
theorem coe_sum {κ : Type} (S : Finset κ) (f : κ → ℝ) : ((∑ e ∈ S, f e : ℝ) : EReal) = ∑ e ∈ S, (f e : EReal) := by
  classical
  induction S using Finset.induction_on with
  | empty => simp
  | insert a s ha ih => rw [Finset.sum_insert ha, Finset.sum_insert ha, EReal.coe_add, ih]

/-- A sum of two real numbers is a real number. -/
theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

/-- A product of two real numbers is a real number. -/
theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

/-- The larger of two real numbers is a real number. -/
theorem real_max {a b : EReal} (ha : ∃ r : ℝ, a = r) (hb : ∃ r : ℝ, b = r) : ∃ r : ℝ, max a b = r := by
  obtain ⟨x, rfl⟩ := ha
  obtain ⟨y, rfl⟩ := hb
  exact ⟨max x y, (EReal.coe_strictMono.monotone.map_max (a := x) (b := y)).symm⟩

/-- A finite sum of real numbers is a real number. -/
theorem real_sum {κ : Type} (S : Finset κ) (f : κ → EReal) (hf : ∀ e ∈ S, ∃ r : ℝ, f e = r) :
    ∃ r : ℝ, ∑ e ∈ S, f e = r := by
  classical
  induction S using Finset.induction_on with
  | empty => exact ⟨0, by simp⟩
  | insert a s ha ih =>
    obtain ⟨x, hx⟩ := hf a (Finset.mem_insert_self a s)
    obtain ⟨y, hy⟩ := ih (fun e he => hf e (Finset.mem_insert_of_mem he))
    exact ⟨x + y, by rw [Finset.sum_insert ha, hx, hy, EReal.coe_add]⟩

/-- A finite sum of products of real numbers — one entry of a matrix product — is a real number. -/
theorem real_sum_mul {ι : Type} [Fintype ι] (a b : ι → EReal) (ha : ∀ c, ∃ r : ℝ, a c = r) (hb : ∀ c, ∃ r : ℝ, b c = r) :
    ∃ r : ℝ, ∑ c, a c * b c = r :=
  real_sum Finset.univ _ (fun c _ => real_mul (ha c) (hb c))

/-- Multiplying after aggregating is aggregating after multiplying, for real entries: with a row `a`, a finite family of
    rows `g e` and a column `wt`, the product of the row `a + ∑ e, g e` with the column is the product of `a` with the column
    plus the sum over `e` of the products of the rows `g e` with the column. -/
theorem sum_add_sum_mul {ι κ : Type} [Fintype ι] (S : Finset κ) (a : ι → EReal) (g : κ → ι → EReal) (wt : ι → EReal)
    (ha : ∀ c, ∃ r : ℝ, a c = r) (hg : ∀ e c, ∃ r : ℝ, g e c = r) (hw : ∀ c, ∃ r : ℝ, wt c = r) :
    ∑ c, (a c + ∑ e ∈ S, g e c) * wt c = (∑ c, a c * wt c) + ∑ e ∈ S, ∑ c, g e c * wt c := by
  choose a' ha' using ha
  choose g' hg' using hg
  choose w' hw' using hw
  obtain rfl : a = fun c => (a' c : EReal) := funext ha'
  obtain rfl : g = fun e c => (g' e c : EReal) := funext fun e => funext (hg' e)
  obtain rfl : wt = fun c => (w' c : EReal) := funext hw'
  have key : ∑ c, (a' c + ∑ e ∈ S, g' e c) * w' c = (∑ c, a' c * w' c) + ∑ e ∈ S, ∑ c, g' e c * w' c := by
    simp only [add_mul, Finset.sum_add_distrib, Finset.sum_mul]
    rw [Finset.sum_comm]
  simp only [← coe_sum, ← EReal.coe_add, ← EReal.coe_mul]
  exact congrArg Real.toEReal key

/-! ## The accumulating scatter of rows, read at an index -/

section Scatter

variable {N R C w : ℕ}

/-- Of an operand's two axes, the one that is not the inserted row axis is the lane axis. -/
private theorem kept_lanes :
    (List.finRange 2).filter (fun a : Fin 2 => a ∉ ([0] : List (Fin 2))) = [1] := by decide

/-- Of an operand's two axes, the inserted row axis is not a kept one. -/
private theorem row_not_kept : (0 : Fin 2) ∉ (List.finRange 2).filter (fun a : Fin 2 => a ∉ ([0] : List (Fin 2))) := by decide

/-- On the row axis the window of update `(e, f)` starts at the stored row number of `e`, read signed. -/
private theorem start_row (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (0 : Fin 2) = (idx (ix2 e (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 e f) ⟨List.idxOf (0 : Fin 2) (rowScatterDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the row axis an update has no window coordinate. -/
private theorem window_row (wf : ScatterDims.WF ⟨2, ![N, C]⟩ ⟨2, ![R, 1]⟩ ⟨2, ![R, C]⟩ [1] [0] [0] 1)
    (e : Fin R) (f : Fin C) : (rowScatterDims N R C wf).window (ix2 e f) (0 : Fin 2) = 0 := by
  unfold ScatterDims.window
  rw [dif_neg (show (0 : Fin 2) ∉ (rowScatterDims N R C wf).sKept from row_not_kept)]

/-- On the lane axis the window starts at zero. -/
private theorem start_lane (wf : ScatterDims.WF ⟨2, ![N, C]⟩ ⟨2, ![R, 1]⟩ ⟨2, ![R, C]⟩ [1] [0] [0] 1)
    (idx : IVec ⟨2, ![R, 1]⟩ w) (e : Fin R) (f : Fin C) :
    (rowScatterDims N R C wf).start (ix2 e f) idx (1 : Fin 2) = 0 := by
  unfold ScatterDims.start
  rw [dif_neg (show (1 : Fin 2) ∉ ([0] : List (Fin 2)) by decide)]

/-- On the lane axis the window coordinate of update `(e, f)` is its lane `f`. -/
private theorem window_lane (wf : ScatterDims.WF ⟨2, ![N, C]⟩ ⟨2, ![R, 1]⟩ ⟨2, ![R, C]⟩ [1] [0] [0] 1)
    (e : Fin R) (f : Fin C) : (rowScatterDims N R C wf).window (ix2 e f) (1 : Fin 2) = f.val := by
  have hkept : (rowScatterDims N R C wf).sKept = [(1 : Fin 2)] := kept_lanes
  have hk : (1 : Fin 2) ∈ (rowScatterDims N R C wf).sKept := by rw [hkept]; exact List.mem_singleton.mpr rfl
  unfold ScatterDims.window
  rw [dif_pos hk]
  simp only [List.getElem_singleton]
  rfl

/-- Where an update of a scatter of rows lands: update `(e, f)` lands on element `(p, q)` exactly when the stored row number
    of `e`, read signed, is `p`, and the lane `f` is `q`. -/
theorem scatter_rows_lands_iff (wf : ScatterDims.WF ⟨2, ![N, C]⟩ ⟨2, ![R, 1]⟩ ⟨2, ![R, C]⟩ [1] [0] [0] 1)
    (idx : IVec ⟨2, ![R, 1]⟩ w) (e : Fin R) (f : Fin C) (p : Fin N) (q : Fin C) :
    (rowScatterDims N R C wf).resultIdx? (ix2 e f) idx = some (ix2 p q)
      ↔ (idx (ix2 e (0 : Fin 1))).toInt = (p.val : ℤ) ∧ f = q := by
  constructor
  · intro h
    refine ⟨scatter_rows_target wf idx e f (ix2 p q) h, ?_⟩
    unfold ScatterDims.resultIdx? at h
    split at h
    · have h1 := congrArg Fin.val (congrFun (Option.some.inj h) (1 : Fin 2))
      simp only [start_lane, window_lane] at h1
      have h2 : ((ix2 p q) (1 : Fin 2)).val = q.val := rfl
      refine Fin.ext ?_
      omega
    · exact absurd h (by simp)
  · rintro ⟨hp, rfl⟩
    have hin : ∀ a, 0 ≤ (rowScatterDims N R C wf).start (ix2 e f) idx a + (rowScatterDims N R C wf).window (ix2 e f) a
        ∧ (rowScatterDims N R C wf).start (ix2 e f) idx a + (rowScatterDims N R C wf).window (ix2 e f) a
          < (⟨2, ![N, C]⟩ : Shape).size a := by
      intro a
      match a with
      | ⟨0, _⟩ =>
        show 0 ≤ (rowScatterDims N R C wf).start (ix2 e f) idx (0 : Fin 2) + (rowScatterDims N R C wf).window (ix2 e f) (0 : Fin 2)
          ∧ (rowScatterDims N R C wf).start (ix2 e f) idx (0 : Fin 2) + (rowScatterDims N R C wf).window (ix2 e f) (0 : Fin 2) < (N : ℤ)
        rw [start_row, window_row, hp]
        have := p.isLt
        omega
      | ⟨1, _⟩ =>
        show 0 ≤ (rowScatterDims N R C wf).start (ix2 e f) idx (1 : Fin 2) + (rowScatterDims N R C wf).window (ix2 e f) (1 : Fin 2)
          ∧ (rowScatterDims N R C wf).start (ix2 e f) idx (1 : Fin 2) + (rowScatterDims N R C wf).window (ix2 e f) (1 : Fin 2) < (C : ℤ)
        rw [start_lane, window_lane]
        have := f.isLt
        omega
    unfold ScatterDims.resultIdx?
    rw [dif_pos hin]
    refine congrArg some ?_
    funext a
    refine Fin.ext ?_
    match a with
    | ⟨0, _⟩ =>
      show ((rowScatterDims N R C wf).start (ix2 e f) idx (0 : Fin 2)
        + (rowScatterDims N R C wf).window (ix2 e f) (0 : Fin 2)).toNat = p.val
      rw [start_row, window_row, hp]
      omega
    | ⟨1, _⟩ =>
      show ((rowScatterDims N R C wf).start (ix2 e f) idx (1 : Fin 2)
        + (rowScatterDims N R C wf).window (ix2 e f) (1 : Fin 2)).toNat = f.val
      rw [start_lane, window_lane]
      omega

/-- The updates that land on row `p` of an `N`-row table: those whose stored row number, read signed, is `p`. -/
def landsOn (idx : IVec ⟨2, ![R, 1]⟩ w) (p : Fin N) : Finset (Fin R) :=
  Finset.univ.filter (fun e => (idx (ix2 e (0 : Fin 1))).toInt = (p.val : ℤ))

/-- An accumulating scatter of rows into the zero table, read at `(p, q)`: the sum, over the updates `e` whose stored row
    number is `p`, of lane `q` of update `e`. -/
theorem scatter_rows_zero_apply (wf : ScatterDims.WF ⟨2, ![N, C]⟩ ⟨2, ![R, 1]⟩ ⟨2, ![R, C]⟩ [1] [0] [0] 1)
    (idx : IVec ⟨2, ![R, 1]⟩ w) (upd : (⟨2, ![R, C]⟩ : Shape).Idx → EReal) (p : Fin N) (q : Fin C) :
    Ideal.hostScatterAdd (rowScatterDims N R C wf) (fun _ => 0) idx upd (ix2 p q) = ∑ e ∈ landsOn idx p, upd (ix2 e q) := by
  show (0 : EReal) + ∑ j ∈ Finset.univ.filter (fun j => (rowScatterDims N R C wf).resultIdx? j idx = some (ix2 p q)), upd j = _
  rw [zero_add, Finset.sum_filter, sum_idx2]
  unfold landsOn
  rw [Finset.sum_filter]
  refine Finset.sum_congr rfl (fun e _ => ?_)
  simp only [scatter_rows_lands_iff]
  by_cases h : (idx (ix2 e (0 : Fin 1))).toInt = (p.val : ℤ)
  · simp only [h, true_and, if_true]
    exact Finset.sum_ite_eq' Finset.univ q (fun f => upd (ix2 e f)) |>.trans (if_pos (Finset.mem_univ q))
  · simp only [h, false_and, if_false, Finset.sum_const_zero]

/-- The same for the host operation: an accumulating float scatter of rows into a table of zeros, at the ideal reading, read at
    `(p, q)`, is the sum of lane `q` of the updates whose stored row number is `p`. -/
theorem host_scatterAdd_rows_zero_apply {φ : FTy} (wf : ScatterDims.WF ⟨2, ![N, C]⟩ ⟨2, ![R, 1]⟩ ⟨2, ![R, C]⟩ [1] [0] [0] 1)
    (z : FVec Ideal ⟨2, ![N, C]⟩ φ) (hz : z = fun _ => 0) (idx : IVec ⟨2, ![R, 1]⟩ w) (upd : FVec Ideal ⟨2, ![R, C]⟩ φ)
    (p : Fin N) (q : Fin C) :
    Host.scatterAdd (F := Ideal) (φ := φ) (rowScatterDims N R C wf) z idx upd (ix2 p q)
      = ∑ e ∈ landsOn idx p, upd (ix2 e q) := by
  subst hz
  exact scatter_rows_zero_apply wf idx upd p q

end Scatter

/-- Membership in the set of updates that land on row `p`: the stored row number, read signed, is `p`. -/
theorem mem_landsOn {N R w : ℕ} (idx : IVec ⟨2, ![R, 1]⟩ w) (p : Fin N) (e : Fin R) :
    e ∈ landsOn idx p ↔ (idx (ix2 e (0 : Fin 1))).toInt = (p.val : ℤ) := by
  unfold landsOn
  rw [Finset.mem_filter]
  exact ⟨fun h => h.2, fun h => ⟨Finset.mem_univ e, h⟩⟩

/-! ## A matrix product after summing gathered rows into rows -/

/-- Aggregate, then multiply = multiply, then aggregate. `A` is an `[N, C]` table and `Wt` a `[C, D]` matrix, all entries real;
    `Y` is their product. Adding to row `p` of `A` the rows of `A` taken at the row numbers `idxG` and summed into the rows named
    by `idxS`, and then multiplying by `Wt`, gives at `(p, q)` what the same aggregation of the rows of `Y` gives: the matrix
    product acts on each row separately, so it commutes with taking rows, and it is additive in the row, so — all entries
    being real — it commutes with the sum. -/
theorem agg_matmul {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (Y : (⟨2, ![N, D]⟩ : Shape).Idx → EReal)
    (hA : ∀ i, ∃ r : ℝ, A i = r) (hW : ∀ i, ∃ r : ℝ, Wt i = r)
    (hY : ∀ (p : Fin N) (q : Fin D), Y (ix2 p q) = ∑ c : Fin C, A (ix2 p c) * Wt (ix2 c q))
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = Y (ix2 p q) + Ideal.hostScatterAdd (rowScatterDims N R D wfS') (fun _ => 0) idxS
        (Host.gather (rowDims N R D wfG') Y idxG) (ix2 p q) := by
  simp only [scatter_rows_zero_apply, gather_rows_apply hN, hY]
  exact sum_add_sum_mul (landsOn idxS p) (fun c => A (ix2 p c)) (fun e c => A (ix2 (rowOf hN idxG e) c))
    (fun c => Wt (ix2 c q)) (fun _ => hA _) (fun _ _ => hA _) (fun _ => hW _)

/-- The same with the product table written out: `Y` is the function taking an index `i` to the product of row `i 0` of `A`
    with column `i 1` of `Wt`. -/
theorem agg_matmul_fun {N R C D w : ℕ} (hN : 0 < N)
    (wfG : GatherDims.WF ⟨2, ![N, C]⟩ ⟨2, ![R, 1]⟩ ⟨2, ![R, C]⟩ [1] [0] [] [0] [] 1 ![1, C])
    (wfS : ScatterDims.WF ⟨2, ![N, C]⟩ ⟨2, ![R, 1]⟩ ⟨2, ![R, C]⟩ [1] [0] [0] 1)
    (wfG' : GatherDims.WF ⟨2, ![N, D]⟩ ⟨2, ![R, 1]⟩ ⟨2, ![R, D]⟩ [1] [0] [] [0] [] 1 ![1, D])
    (wfS' : ScatterDims.WF ⟨2, ![N, D]⟩ ⟨2, ![R, 1]⟩ ⟨2, ![R, D]⟩ [1] [0] [0] 1)
    (A : (⟨2, ![N, C]⟩ : Shape).Idx → EReal) (Wt : (⟨2, ![C, D]⟩ : Shape).Idx → EReal)
    (hA : ∀ i, ∃ r : ℝ, A i = r) (hW : ∀ i, ∃ r : ℝ, Wt i = r)
    (idxG idxS : IVec ⟨2, ![R, 1]⟩ w) (p : Fin N) (q : Fin D) :
    ∑ c : Fin C, (A (ix2 p c) + Ideal.hostScatterAdd (rowScatterDims N R C wfS) (fun _ => 0) idxS
        (Host.gather (rowDims N R C wfG) A idxG) (ix2 p c)) * Wt (ix2 c q)
      = (∑ c : Fin C, A (ix2 p c) * Wt (ix2 c q)) + Ideal.hostScatterAdd (rowScatterDims N R D wfS') (fun _ => 0) idxS
        (Host.gather (rowDims N R D wfG')
          (fun i : (⟨2, ![N, D]⟩ : Shape).Idx => ∑ c : Fin C, A (ix2 (n0 := N) (i 0) c) * Wt (ix2 (n1 := D) c (i 1))) idxG) (ix2 p q) :=
  agg_matmul hN wfG wfS wfG' wfS' A Wt
    (fun i : (⟨2, ![N, D]⟩ : Shape).Idx => ∑ c : Fin C, A (ix2 (n0 := N) (i 0) c) * Wt (ix2 (n1 := D) c (i 1)))
    hA hW (fun _ _ => rfl) idxG idxS p q

end Cert.LibRowAggLinear
-- ==== Proof.GcnDefs.lean ====
/-
  A three-layer graph convolution network with a log-softmax head, written index by index over the extended reals.

  Nodes are numbered 0 … 99999, edge slots 0 … 1699999 (the given edges followed by one self-loop per node); every slot e
  stores a source row and a destination row. A layer multiplies the node features by a weight matrix, sends along every edge
  slot the source node's row scaled by  dinv(source) · dinv(destination),  adds up at each node the rows of the slots that
  land on it, adds a bias and applies ELU. The head is one more matrix product plus a bias, then log-softmax along the 16
  classes.

  Two arrangements of the same arithmetic are written out. In the first (`netR`) each message is scaled on its edge slot by
  the product of the two factors. In the second (`netK`) the factor of the source is applied to the node's row before it is
  sent, and the factor of the destination to the sum after it has been collected; its log-softmax subtracts  m + log Σ exp(z − m)
  from the logits in one step where the first subtracts m and then the logarithm.

  Where a slot lands (`landsOn`) and which row a slot reads (`rowOf`) are the notions of LibRowAggLinear and LibGatherRows.
-/
import Idealize.ShloMosaic.PureOps.Ideal
import Idealize.ShloMosaic.Lib.ValueIdx
import proofs.«161114_j30794915512600_2_alg».proof.Proof.LibGatherRows
import proofs.«161114_j30794915512600_2_alg».proof.Proof.LibRowAggLinear

noncomputable section

namespace Cert.Gcn

open Idealize.ShloMosaic Idealize.ShloMosaic.ValueIdx Cert.LibGatherRows Cert.LibRowAggLinear
open scoped BigOperators

/-- ELU on the extended reals: the identity on positive numbers, exp − 1 elsewhere (−1 at −∞). -/
def elu (v : EReal) : EReal := if 0 < v then v else Ideal.exp v - 1

/-- The largest of finitely many extended reals, −∞ for none. -/
def rowMax {n : ℕ} (z : Fin n → EReal) : EReal := (Finset.univ : Finset (Fin n)).fold max ⊥ z

/-- log-softmax, subtracting  m + log Σ exp(z − m)  at once. -/
def lsmK {n : ℕ} (z : Fin n → EReal) (q : Fin n) : EReal :=
  z q - (rowMax z + Ideal.log (∑ k, Ideal.exp (z k - rowMax z)))

/-- log-softmax, subtracting m first and the logarithm of Σ exp(z − m) after. -/
def lsmR {n : ℕ} (z : Fin n → EReal) (q : Fin n) : EReal :=
  (z q - rowMax z) - Ideal.log (∑ k, Ideal.exp (z k - rowMax z))

theorem n_pos : 0 < 100000 := by decide

section Net

/- `sI`: per edge slot the stored source row (after jnp's wrap of negative numbers); `dI`: the stored destination row as the
    scatter reads it; `dwI`: the stored destination row after the wrap, as a gather reads it; `dinv`: the per-node factor. -/
variable (sI dI dwI : IVec ⟨2, ![1700000, 1]⟩ 32) (dinv : Fin 100000 → EReal)

/-- The source row that edge slot `e` reads. -/
abbrev srcRow (e : Fin 1700000) : Fin 100000 := rowOf n_pos sI e

/-- Messages scaled on the edge slot: one layer before its activation. -/
def convR {C : ℕ} (Y : Fin 100000 → Fin 128 → EReal) (W : Fin 128 → Fin C → EReal) (b : Fin C → EReal) :
    Fin 100000 → Fin C → EReal :=
  fun p q => (∑ e ∈ landsOn dI p,
    (∑ j, Y (srcRow sI e) j * W j q) * (dinv (srcRow sI e) * dinv (rowOf n_pos dwI e))) + b q

/-- The whole network with messages scaled on the edge slots. -/
def netR (x : Fin 100000 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (Wfc : Fin 128 → Fin 16 → EReal) (bfc : Fin 16 → EReal) : Fin 100000 → Fin 16 → EReal :=
  fun p q => lsmR (fun k => (∑ c, elu (convR sI dI dwI dinv
      (fun p c => elu (convR sI dI dwI dinv
        (fun p c => elu (convR sI dI dwI dinv x W1 b1 p c)) W2 b2 p c)) W3 b3 p c) * Wfc c k) + bfc k) q

/-- A node's row times a weight matrix, scaled by the node's factor: what is sent. -/
def sendK {C : ℕ} (Y : Fin 100000 → Fin 128 → EReal) (W : Fin 128 → Fin C → EReal) : Fin 100000 → Fin C → EReal :=
  fun p q => (∑ c, Y p c * W c q) * dinv p

/-- What a node collects: the sum of the rows sent along the edge slots that land on it. -/
def aggK {C : ℕ} (hs : Fin 100000 → Fin C → EReal) : Fin 100000 → Fin C → EReal :=
  fun p q => ∑ e ∈ landsOn dI p, hs (srcRow sI e) q

/-- The next layer's input: the collected sum scaled by the node's factor, plus the bias, through ELU. -/
def actK {C : ℕ} (agg : Fin 100000 → Fin C → EReal) (b : Fin C → EReal) : Fin 100000 → Fin C → EReal :=
  fun p c => elu (agg p c * dinv p + b c)

/-- The whole network with the factors applied at the nodes. -/
def netK (x : Fin 100000 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (Wfc : Fin 128 → Fin 16 → EReal) (bfc : Fin 16 → EReal) : Fin 100000 → Fin 16 → EReal :=
  fun p q => lsmK (fun k => (∑ c,
      actK dinv (aggK sI dI (sendK dinv
        (actK dinv (aggK sI dI (sendK dinv
          (actK dinv (aggK sI dI (sendK dinv x W1)) b1) W2)) b2) W3)) b3 p c * Wfc c k) + bfc k) q

end Net

end Cert.Gcn

end
-- ==== Proof.LibColRow.lean ====
/-
  Columns and rows of a rank-2 array on the host: the layouts a per-row scale and a per-column bias pass through.

  A vector of a entries becomes an [a, 1] column, either by a reshape or by a broadcast along a new unit axis, and the column
  is then repeated across b lanes; a vector of b entries becomes a [1, b] row and is repeated down a rows. Read at an index
  written by its coordinates, each of these is the operand at the row coordinate alone (for a column) or at the lane
  coordinate alone (for a row).
-/
import Idealize.ShloMosaic.Lib.ValueIdx
import Idealize.ShloMosaic.Lib.Pipeline.Value

namespace Cert.LibColRow

open Idealize.ShloMosaic Idealize.ShloMosaic.ValueIdx

variable {α : Type}

/-- A vector broadcast to an `[a, 1]` column reads, at `(p, u)`, the vector at `p`. -/
theorem bcast_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A vector reshaped to an `[a, 1]` column reads, at `(p, u)`, the vector at `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- An `[a, 1]` column broadcast (along both axes in place) to `[a, b]` reads, at `(p, q)`, the column at row `p`. -/
theorem bcast_a1_ab_apply {a b : ℕ} (col : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h col (ix2 p q) = col (ix2 p (0 : Fin 1)) := by
  refine broadcastInDim_apply _ h col (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- A vector broadcast to a `[1, b]` row reads, at `(u, q)`, the vector at `q`. -/
theorem bcast_b_1b_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) := by
  refine broadcastInDim_apply _ h v (ix2 u q) (ix1 q) fun ax => ?_
  match ax with
  | ⟨0, _⟩ =>
    show q.val = if b = 1 then 0 else q.val
    split
    · have := q.isLt; omega
    · rfl

/-- A `[1, b]` row broadcast (along both axes in place) to `[a, b]` reads, at `(p, q)`, the row at lane `q`. -/
theorem bcast_1b_ab_apply {a b : ℕ} (row : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h row (ix2 p q) = row (ix2 (0 : Fin 1) q) := by
  refine broadcastInDim_apply _ h row (ix2 p q) (ix2 (0 : Fin 1) q) fun ax => ?_
  match ax with
  | ⟨0, _⟩ => exact (if_pos rfl).symm
  | ⟨1, _⟩ =>
    show q.val = if b = 1 then 0 else q.val
    split
    · have := q.isLt; omega
    · rfl

end Cert.LibColRow
-- ==== Proof.LibF32Literals.lean ====
/-
  Binary32 literals as extended reals. At the exact (extended-real) reading of floats a literal is the value its
  IEEE-754 pattern denotes: sign bit, eight exponent bits with bias 127, twenty-three fraction bits. The patterns
  here are those of 0, 1, 2, 16, 256 and 16384.
-/
import Idealize.ShloMosaic.PureOps.Ideal

noncomputable section

namespace Cert.LibF32Literals

open Idealize.ShloMosaic

/-- The pattern of +0.0 denotes 0. -/
theorem ofBits_zero : Ideal.ofBits .f32 0x00000000#32 = 0 := by
  simp [Ideal.ofBits, Ideal.ieee]

/-- The pattern 0x3F800000 denotes 1. -/
theorem ofBits_one : Ideal.ofBits .f32 0x3F800000#32 = 1 := by
  simp [Ideal.ofBits, Ideal.ieee, -EReal.coe_mul]; norm_num

/-- The pattern 0x3F800000 denotes the real 1. -/
theorem ofBits_one_coe : Ideal.ofBits .f32 0x3F800000#32 = ((1 : ℝ) : EReal) := by
  rw [ofBits_one]; norm_cast

/-- The pattern 0x40000000 denotes the real 2. -/
theorem ofBits_two : Ideal.ofBits .f32 0x40000000#32 = ((2 : ℝ) : EReal) := by
  simp [Ideal.ofBits, Ideal.ieee, -EReal.coe_mul]; norm_num

/-- The pattern 0x41800000 denotes the real 16. -/
theorem ofBits_16 : Ideal.ofBits .f32 0x41800000#32 = ((16 : ℝ) : EReal) := by
  simp [Ideal.ofBits, Ideal.ieee, -EReal.coe_mul]; norm_num

/-- The pattern 0x43800000 denotes the real 256. -/
theorem ofBits_256 : Ideal.ofBits .f32 0x43800000#32 = ((256 : ℝ) : EReal) := by
  simp [Ideal.ofBits, Ideal.ieee, -EReal.coe_mul]; norm_num

/-- The pattern 0x46800000 denotes the real 16384. -/
theorem ofBits_16384 : Ideal.ofBits .f32 0x46800000#32 = ((16384 : ℝ) : EReal) := by
  simp [Ideal.ofBits, Ideal.ieee, -EReal.coe_mul]; norm_num

end Cert.LibF32Literals

end
-- ==== Proof.KLayer.lean ====
/-
  The host stretches between the kernel launches, read index by index.

  Gathering the rows of a table at the wrapped sources and adding them up by destination, from the zero table, gives at
  (p, q) the sum over the edge slots landing on p of entry q of the source row of the slot. The node factor's column at
  row r is rsqrt(deg r). A bias vector reshaped to a one-row table reads, in lane k of its row, entry k.
-/
import proofs.«161114_j30794915512600_2_alg».proof.Proof.KHost
import proofs.«161114_j30794915512600_2_alg».proof.Proof.GcnDefs
import proofs.«161114_j30794915512600_2_alg».proof.Proof.LibColRow
import proofs.«161114_j30794915512600_2_alg».proof.Proof.LibF32Literals
import Idealize.ShloMosaic.Lib.Pipeline.Value

noncomputable section

namespace Cert.KernelIdeal.KLayer

open Idealize.ShloMosaic Idealize.ShloMosaic.ValueIdx
open Cert.KernelIdeal Cert.KernelIdeal.Gen Cert.KernelIdeal.KHost Cert.LibGatherRows Cert.LibRowIndex Cert.LibRowAggLinear
open scoped BigOperators

/-- The printed row-gather record is the one of "rows of a table taken at a column of row numbers". -/
theorem gather_eq : gather_S100000x128_S1700000x1_S1700000x128_1_0_n_n_0_1_1128
    = rowDims 100000 1700000 128 Facts₀.gather_S100000x128_S1700000x1_S1700000x128_1_0_n_n_0_1_1128_wf := rfl

/-- The printed row-scatter record is the one of "rows added into the rows named by a column of row numbers". -/
theorem scatter_eq : scatter_S100000x128_S1700000x1_S1700000x128_1_0_0_1
    = rowScatterDims 100000 1700000 128 Facts₀.scatter_S100000x128_S1700000x1_S1700000x128_1_0_0_1_wf := rfl

/-- Gather at the sources, add up by destination: entry (p, q) is the sum over the slots landing on p of the source row's entry q. -/
theorem aggV_apply (src dst : IVec S1700000 32) (hs : FVec Ideal S100000x128 .bf16) (p : Fin 100000) (q : Fin 128) :
    aggV src dst hs (ix2 p q) = Cert.Gcn.aggK (wrapI src) (colI dst) (fun r k => hs (ix2 r k)) p q := by
  unfold aggV Cert.Gcn.aggK
  rw [scatter_eq, gather_eq]
  rw [host_scatterAdd_rows_zero_apply _ _ (funext fun i => (show broadcastInDim S100000x128 ![] bcast_S_S100000x128 (constant (F := Ideal) S_ .f32 0x00000000#32) i = 0 from Cert.LibF32Literals.ofBits_zero))]
  refine Finset.sum_congr rfl (fun e _ => ?_)
  show Host.gather _ hs (wrapI src) (ix2 e q) = _
  exact gather_rows_apply Cert.Gcn.n_pos _ hs (wrapI src) e q

/-- The host's inverse square root acts entry by entry. -/
theorem host_rsqrt_apply {s : Shape} (x : FVec Ideal s .f32) (i : s.Idx) : Host.rsqrt (F := Ideal) x i = Ideal.rsqrt (x i) := rfl

/-- The node factor's column at row r. -/
theorem dcolV_apply (dst : IVec S1700000 32) (r : Fin 100000) (u : Fin 1) :
    dcolV dst (ix2 r u) = Ideal.rsqrt (degV dst (ix1 r)) := by
  unfold dcolV
  generalize degV dst = d
  exact (Cert.LibColRow.shapeCast_a_a1_apply (Host.rsqrt (F := Ideal) d) shapeCasts_S100000_S100000x1 r u).trans (host_rsqrt_apply d (ix1 r))

/-- A vector reshaped to a one-row table reads, in lane k, entry k. -/
theorem shapeCast_b_1b_apply {α : Type} {b : ℕ} (v : (⟨1, ![b]⟩ : Shape).Idx → α)
    (h : (⟨1, ![b]⟩ : Shape).ShapeCasts ⟨2, ![1, b]⟩) (u : Fin 1) (k : Fin b) :
    shapeCast ⟨2, ![1, b]⟩ v h (ix2 u k) = v (ix1 k) :=
  shapeCast_apply v h _ _ (by
    have hu : u.val = 0 := by omega
    rw [Shape.rowMajor_val_two, Shape.rowMajor_val_one]
    show k.val = u.val * b + k.val
    rw [hu]; omega)

end Cert.KernelIdeal.KLayer

end
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibRowStat.lean ====
/-
  Rows of a rank-2 array: the keepdims layouts of a row statistic, read at an index written by coordinates.

  A statistic of each row of an [a, b] array (a sum over the b lanes) is an [a] vector; to be combined with the array again it
  is cast to an [a, 1] column and the column is broadcast back over the b lanes. Each of these reads its operand at the row
  coordinate alone; the lane sum ranges over the lane coordinate.
-/
import Idealize.ShloMosaic.PureOps.Ideal.Laws
import Idealize.ShloMosaic.Lib.ValueIdx
import Idealize.ShloMosaic.Lib.Pipeline.Value

namespace Cert.LibRowStat

open Idealize.ShloMosaic Idealize.ShloMosaic.ValueIdx

variable {α : Type}

/-- An `[a, 1]` column broadcast to `[a, b]` reads, at `(p, q)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => exact (if_pos rfl).symm

/-- The sum of an `[a, b]` array over its lanes reads, at row `p`, the sum over `k` of the array at `(p, k)`. At the ideal
    values. -/
theorem sum_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext
      (match ax with | ⟨0, _⟩ => rfl | ⟨1, _⟩ => rfl)))

end Cert.LibRowStat
-- ==== Proof.KRegion0.lean ====
/-
  The first kernel region: what it leaves in its output array, index by index.

  Grid point t reads rows 4000t … 4000t + 3999 of the feature matrix X, the whole weight matrix W and the same rows of
  the per-node factor d, and writes to the same rows of the output the product X·W with row r scaled by d(r). The 25
  row blocks tile the 100000 rows, so the output array ends holding (∑ k, X(p, k) · W(k, q)) · d(p) at (p, q),
  whatever the arrays hold when the region is entered.
-/
import proofs.«161114_j30794915512600_2_alg».proof.Proof.KernelIdealFrameP
import proofs.«161114_j30794915512600_2_alg».proof.Proof.GcnDefs
import proofs.«161114_j30794915512600_2_alg».proof.Proof.LibMatmulPlain
import proofs.«161114_j30794915512600_2_alg».proof.Proof.LibRowStat
import Idealize.ShloMosaic.Lib.Pipeline.Value

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The product scaled by rows, as a function of three arrays -/

/-- Rows of X times W, row r scaled by d(r): at (r, q) the entry (∑ k, X(r, k) · W(k, q)) · d(r). -/
def scaledProduct {a : ℕ} (X : (⟨2, ![a, 128]⟩ : Shape).Idx → EReal) (W : (⟨2, ![128, 128]⟩ : Shape).Idx → EReal)
    (d : (⟨2, ![a, 1]⟩ : Shape).Idx → EReal) : (⟨2, ![a, 128]⟩ : Shape).Idx → EReal :=
  fun i => (∑ k : Fin 128, X (ix2 (i 0) k) * W (ix2 k (i 1))) * d (ix2 (i 0) (0 : Fin 1))

/-- Row j 0 of a block and row i 0 of an array give the same entry of the scaled product when the block's row is the
    array's row, the weights agree on the column and the factors agree on the row. -/
theorem scaledProduct_congr {a b : ℕ} (X' : (⟨2, ![a, 128]⟩ : Shape).Idx → EReal) (W' : (⟨2, ![128, 128]⟩ : Shape).Idx → EReal)
    (d' : (⟨2, ![a, 1]⟩ : Shape).Idx → EReal) (X : (⟨2, ![b, 128]⟩ : Shape).Idx → EReal)
    (W : (⟨2, ![128, 128]⟩ : Shape).Idx → EReal) (d : (⟨2, ![b, 1]⟩ : Shape).Idx → EReal)
    (j : (⟨2, ![a, 128]⟩ : Shape).Idx) (i : (⟨2, ![b, 128]⟩ : Shape).Idx)
    (hX : ∀ k : Fin 128, X' (ix2 (j 0) k) = X (ix2 (i 0) k)) (hW : ∀ k : Fin 128, W' (ix2 k (j 1)) = W (ix2 k (i 1)))
    (hd : d' (ix2 (j 0) (0 : Fin 1)) = d (ix2 (i 0) (0 : Fin 1))) :
    scaledProduct X' W' d' j = scaledProduct X W d i := by
  unfold scaledProduct
  rw [hd]
  exact congrArg (· * d (ix2 (i 0) (0 : Fin 1))) (Finset.sum_congr rfl fun k _ => by rw [hX k, hW k])

/-! ## The body's arithmetic at an index -/

/-- The 4000×128 by 128×128 product into the zero accumulator, at (p, q). -/
theorem matmul_4000_128_128_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) :=
  Cert.LibMatmulPlain.matmul_plain_zero_apply (m := 4000) (k := 128) (n := 128) none A B p q

/-- The body's result at (p, q): row p of the feature block times column q of the weights, scaled by the factor of row p. -/
theorem pay0_apply (x0 : Vec Ideal S4000x128 .f32) (x1 : Vec Ideal S128x128 .f32) (x2 : Vec Ideal S4000x1 .f32)
    (p : Fin 4000) (q : Fin 128) :
    k0_pay1 (F := Ideal) x0 x1 x2 (ix2 p q)
      = (∑ k : Fin 128, x0 (ix2 p k) * x1 (ix2 k q)) * x2 (ix2 p (0 : Fin 1)) := by
  unfold k0_pay1
  exact congrArg₂ (· * ·) (matmul_4000_128_128_apply _ _ p q)
    ((Cert.LibRowStat.broadcastTo_a1_ab_apply _ broadcasts_S4000x1_S4000x128 p q).trans
      (congrFun (shapeCast_self x2 shapeCasts_S4000x1_S4000x1) _))

/-- The body's result is the scaled product of its three blocks. -/
theorem pay0_eq (x0 : Vec Ideal S4000x128 .f32) (x1 : Vec Ideal S128x128 .f32) (x2 : Vec Ideal S4000x1 .f32) :
    k0_pay1 (F := Ideal) x0 x1 x2 = scaledProduct x0 x1 x2 := by
  funext j
  obtain ⟨p, q, rfl⟩ : ∃ (p : Fin 4000) (q : Fin 128), j = ix2 p q := ⟨j 0, j 1, eq_ix2 j⟩
  exact pay0_apply x0 x1 x2 p q

/-! ## The windows' blocks as rows of the arrays -/

theorem hz2 : (![0, 0] : Fin 2 → Nat) = fun _ => 0 := funext fun a => by fin_cases a <;> rfl

/-- The printed index maps over the grid: the three row-blocked windows are at block (t, 0), the weights at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- The feature window's block at point t holds rows 4000t … of the feature array. -/
theorem iblk0_0_apply (c : Dev nD) (t : Fin cfg0.N) (x : S4000x128.Idx) (i : S100000x128.Idx)
    (h0 : (i 0).val = 4000 * t.val + (x 0).val) (h1 : (i 1).val = (x 1).val) :
    (iblk0 V c 0 t : Vec Ideal S4000x128 .f32) x = (V c main_arg0 : S100000x128.Idx → EReal) i := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 4000 + 1 * (x 0).val = (i 0).val; rw [e0, h0]; omega
  | ⟨1, _⟩ => show win0_0.index t (1 : Fin 2) * 128 + 1 * (x 1).val = (i 1).val; rw [e1, h1]; omega

/-- The weight window's block is the weight array at every point. -/
theorem iblk0_1_apply (c : Dev nD) (t : Fin cfg0.N) (x i : S128x128.Idx)
    (h0 : (i 0).val = (x 0).val) (h1 : (i 1).val = (x 1).val) :
    (iblk0 V c 1 t : Vec Ideal S128x128 .f32) x = (V c main_arg2 : S128x128.Idx → EReal) i := by
  obtain ⟨-, -, e0, e1, -⟩ := idx_facts0 t
  unfold iblk0
  rw [View.read_apply]
  show V c main_arg2 _ = V c main_arg2 _
  congr 1
  funext a
  apply Fin.ext
  match a with
  | ⟨0, _⟩ => show win0_1.index t (0 : Fin 2) * 128 + 1 * (x 0).val = (i 0).val; rw [e0, h0]; omega
  | ⟨1, _⟩ => show win0_1.index t (1 : Fin 2) * 128 + 1 * (x 1).val = (i 1).val; rw [e1, h1]; omega

/-- The factor window's block at point t holds rows 4000t … of the factor column. -/
theorem iblk0_2_apply (c : Dev nD) (t : Fin cfg0.N) (x : S4000x1.Idx) (i : S100000x1.Idx)
    (h0 : (i 0).val = 4000 * t.val + (x 0).val) (h1 : (i 1).val = (x 1).val) :
    (iblk0 V c 2 t : Vec Ideal S4000x1 .f32) x = (V c main_v12 : S100000x1.Idx → EReal) i := by
  obtain ⟨-, -, -, -, e0, e1, -⟩ := idx_facts0 t
  unfold iblk0
  rw [View.read_apply]
  show V c main_v12 _ = V c main_v12 _
  congr 1
  funext a
  apply Fin.ext
  match a with
  | ⟨0, _⟩ => show win0_2.index t (0 : Fin 2) * 4000 + 1 * (x 0).val = (i 0).val; rw [e0, h0]; omega
  | ⟨1, _⟩ => show win0_2.index t (1 : Fin 2) * 1 + 1 * (x 1).val = (i 1).val; rw [e1, h1]; omega

/-! ## From blocks to the array -/

/-- What point t writes back is block t of the scaled product of the three arrays the region finds. -/
theorem flushed0_eq (c : Dev nD) (t : Fin cfg0.N) :
    (dat0 (F := Ideal) V c).flushed 3 t
      = ((cfg0.win 3).blk t).view.read (Elt Ideal) (scaledProduct (a := 100000) (V c main_arg0) (V c main_arg2) (V c main_v12)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S128x128) hz2, View.ld_unit_zero (S := S4000x1) hz2]
  refine (congrArg ((cfg0.win 3).cut (grid0.coords t)) (pay0_eq (iblk0 V c 0 t) (iblk0 V c 1 t) (iblk0 V c 2 t))).trans ?_
  obtain ⟨-, -, -, -, -, -, e0, e1⟩ := idx_facts0 t
  funext j
  have hj0 : (j 0).val < 4000 := (j 0).isLt
  have hj1 : (j 1).val < 128 := (j 1).isLt
  have E0 : ((((cfg0.win 3).blk t).view.emb j) 0).val = 4000 * t.val + (j 0).val := by
    show win0_3.index t (0 : Fin 2) * 4000 + 1 * (j 0).val = _; rw [e0]; omega
  have E1 : ((((cfg0.win 3).blk t).view.emb j) 1).val = (j 1).val := by
    show win0_3.index t (1 : Fin 2) * 128 + 1 * (j 1).val = _; rw [e1]; omega
  show scaledProduct (a := 4000) (iblk0 V c 0 t) (iblk0 V c 1 t) (iblk0 V c 2 t) j
    = scaledProduct (a := 100000) (V c main_arg0) (V c main_arg2) (V c main_v12) (((cfg0.win 3).blk t).view.emb j)
  exact scaledProduct_congr (a := 4000) (b := 100000) (iblk0 V c 0 t) (iblk0 V c 1 t) (iblk0 V c 2 t)
    (V c main_arg0) (V c main_arg2) (V c main_v12) j (((cfg0.win 3).blk t).view.emb j)
    (fun k => iblk0_0_apply V c t _ _ E0 rfl) (fun k => iblk0_1_apply V c t _ _ rfl E1) (iblk0_2_apply V c t _ _ E0 rfl)

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v13).slice (win0_3.rect t)).set ↔ _
  rw [View.set_slice_whole, Rect.mem_set_unit]
  exact Iff.rfl

/-- Row r of the output array is written by point r / 4000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e0, e1⟩ := idx_facts0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 128 ≤ (i 1).val ∧ (i 1).val < win0_3.index t (1 : Fin 2) * 128 + 128; rw [e1]; omega

/-- The output array after the region is the scaled product of the three arrays the region finds. -/
theorem final0 (c : Dev nD) :
    (dat0 (F := Ideal) V c).arrAt 3 cfg0.N = scaledProduct (a := 100000) (V c main_arg0) (V c main_arg2) (V c main_v12) :=
  (dat0 (F := Ideal) V c).arrAt_eq_of_cover 3 _ (fun t _ => flushed0_eq V c t) cover0

/-- The first region's output array, index by index: the features X times the weights W, row p scaled by the factor d(p);
    X, W, d are the three arrays the region finds. -/
theorem region0 (c : Dev nD) (X : S100000x128.Idx → EReal) (W : S128x128.Idx → EReal) (d : S100000x1.Idx → EReal)
    (hX : (V c main_arg0 : S100000x128.Idx → EReal) = X) (hW : (V c main_arg2 : S128x128.Idx → EReal) = W)
    (hd : (V c main_v12 : S100000x1.Idx → EReal) = d) (p : Fin 100000) (q : Fin 128) :
    ((dat0 (F := Ideal) V c).arrAt 3 cfg0.N : S100000x128.Idx → EReal) (ix2 p q)
      = (∑ k : Fin 128, X (ix2 p k) * W (ix2 k q)) * d (ix2 p (0 : Fin 1)) := by
  subst hX hW hd
  exact congrFun (final0 V c) (ix2 p q)

end Blocks

end Cert.KernelIdeal.KVal

end
-- ==== Proof.KRegionConv.lean ====
/-
  The arithmetic the two convolution bodies share, read at an index.

  Both bodies take a 4000-row block x of collected sums, the same rows of the per-node factor d, a bias row b and a
  128×128 weight matrix W. They form ELU(x · d + b) entry by entry (the factor along the row, the bias along the column),
  multiply the result by W and scale row r of the product by d(r) again. ELU is written select(v > 0, v, exp(min(v, 0)) − 1):
  for v > 0 the first branch is v; otherwise min(v, 0) = v and the second branch is exp(v) − 1.
-/
import proofs.«161114_j30794915512600_2_alg».proof.Proof.KernelIdealFrameP
import proofs.«161114_j30794915512600_2_alg».proof.Proof.GcnDefs
import proofs.«161114_j30794915512600_2_alg».proof.Proof.LibMatmulPlain
import proofs.«161114_j30794915512600_2_alg».proof.Proof.LibRowStat
import proofs.«161114_j30794915512600_2_alg».proof.Proof.LibF32Literals
import Idealize.ShloMosaic.Lib.ValueLayout
import Idealize.ShloMosaic.Lib.Pipeline.Value

noncomputable section

namespace Cert.KernelIdeal.KVal

open Cert.KernelIdeal Cert.KernelIdeal.Gen Idealize.ShloMosaic Idealize.ShloMosaic.TcCoe Idealize.SL.Sem
open Idealize.ShloMosaic.ValueIdx
open scoped BigOperators

/-! ## ELU as the bodies write it -/

/-- select(v > 0, v, exp(min(v, 0)) − 1), with the words of 0 and 1, is ELU of v. -/
theorem elu_word (v : EReal) :
    Scalar.select (Ideal.cmp .ogt v (Ideal.ofBits .f32 0x00000000#32)) v
      (Ideal.exp (min v (Ideal.ofBits .f32 0x00000000#32)) - Ideal.ofBits .f32 0x3F800000#32) = Cert.Gcn.elu v := by
  rw [Ideal.ofBits_zero_f32, Cert.LibF32Literals.ofBits_one]
  unfold Cert.Gcn.elu Ideal.cmp Scalar.select
  by_cases h : 0 < v
  · simp [h]
  · have hm : min v 0 = v := min_eq_left (not_lt.mp h)
    simp [h, hm]

/-- ELU of the scaled, shifted block: what the bodies hand to the matrix unit. -/
def actBlock (v0 : Vec Ideal S4000x128 .f32) (v2 : Vec Ideal S4000x1 .f32) (v6 : Vec Ideal S1x128 .f32) : FVec Ideal S4000x128 .f32 :=
  have v1 : FVec Ideal S4000x128 .f32 := shapeCast S4000x128 v0 shapeCasts_S4000x128_S4000x128
  have v3 : FVec Ideal S4000x1 .f32 := shapeCast S4000x1 v2 shapeCasts_S4000x1_S4000x1
  have v4 : FVec Ideal S4000x128 .f32 := broadcastTo S4000x128 v3 broadcasts_S4000x1_S4000x128
  have v5 : FVec Ideal S4000x128 .f32 := mulf v1 v4
  have v7 : FVec Ideal S1x128 .f32 := shapeCast S1x128 v6 shapeCasts_S1x128_S1x128
  have v8 : FVec Ideal S4000x128 .f32 := broadcastTo S4000x128 v7 broadcasts_S1x128_S4000x128
  have v9 : FVec Ideal S4000x128 .f32 := addf v5 v8
  have cst : Ideal .f32 := Scalar.ofBits .f32 0x00000000#32
  have v10 : FVec Ideal S4000x128 .f32 := broadcast S4000x128 cst
  have v11 : IVec S4000x128 1 := cmpf .ogt v9 v10
  have cst_5 : Ideal .f32 := Scalar.ofBits .f32 0x00000000#32
  have v12 : FVec Ideal S4000x128 .f32 := broadcast S4000x128 cst_5
  have v13 : FVec Ideal S4000x128 .f32 := minimumf v9 v12
  have v14 : FVec Ideal S4000x128 .f32 := exp v13
  have cst_6 : Ideal .f32 := Scalar.ofBits .f32 0x3F800000#32
  have v15 : FVec Ideal S4000x128 .f32 := broadcast S4000x128 cst_6
  have v16 : FVec Ideal S4000x128 .f32 := subf v14 v15
  have v17 : FVec Ideal S4000x128 .f32 := select v11 v9 v16
  v17

/-- At (p, k) it is ELU of the block's entry times the factor of row p plus the bias of column k. -/
theorem actBlock_apply (v0 : Vec Ideal S4000x128 .f32) (v2 : Vec Ideal S4000x1 .f32) (v6 : Vec Ideal S1x128 .f32)
    (p : Fin 4000) (k : Fin 128) :
    actBlock v0 v2 v6 (ix2 p k) = Cert.Gcn.elu (v0 (ix2 p k) * v2 (ix2 p (0 : Fin 1)) + v6 (ix2 (0 : Fin 1) k)) := by
  unfold actBlock
  refine (elu_word _).trans (congrArg Cert.Gcn.elu (congrArg₂ (· + ·) (congrArg₂ (· * ·) ?_ ?_) ?_))
  · exact congrFun (shapeCast_self v0 shapeCasts_S4000x128_S4000x128) _
  · exact (Cert.LibRowStat.broadcastTo_a1_ab_apply _ broadcasts_S4000x1_S4000x128 p k).trans
      (congrFun (shapeCast_self v2 shapeCasts_S4000x1_S4000x1) _)
  · exact (broadcastTo_1b_ab_apply _ broadcasts_S1x128_S4000x128 p k).trans
      (congrFun (shapeCast_self v6 shapeCasts_S1x128_S1x128) _)

/-! ## A convolution body's arithmetic -/

/-- The 4000×128 by 128×128 product into the zero accumulator, at (p, q). -/
theorem matmul_conv_apply (A : FVec Ideal S4000x128 .bf16) (B : FVec Ideal S128x128 .bf16) (p : Fin 4000) (q : Fin 128) :
    matmul dot_S4000x128_S128x128_S4000x128_1_0_0_1_n_n none A B (constant (F := Ideal) S4000x128 .f32 0x00000000#32) (ix2 p q)
      = ∑ k : Fin 128, A (ix2 p k) * B (ix2 k q) :=
  Cert.LibMatmulPlain.matmul_plain_zero_apply (m := 4000) (k := 128) (n := 128) none A B p q

/-- A convolution body's result from the values it loads: the activated block times the weights, scaled by rows. -/
def convBody (v0 : Vec Ideal S4000x128 .f32) (v2 : Vec Ideal S4000x1 .f32) (v6 : Vec Ideal S1x128 .f32)
    (v19 : Vec Ideal S128x128 .f32) (v22 : Vec Ideal S4000x1 .f32) : FVec Ideal S4000x128 .bf16 :=
  have v17 : FVec Ideal S4000x128 .f32 := actBlock v0 v2 v6
  have v18 : FVec Ideal S4000x128 .bf16 := truncf .bf16 v17 bitsLt_bf16_f32
  have v20 : FVec Ideal S128x128 .bf16 := truncf .bf16 v19 bitsLt_bf16_f32
  have cst_9 : FVec Ideal S4000x128 .f32 := constant S4000x128 .f32 0x00000000#32
  have v21 : FVec Ideal S4000x128 .f32 := matmul dot_S4000x128_S128x128_S4000x128_1_0_0_1_n_n none v18 v20 cst_9
  have v23 : FVec Ideal S4000x1 .f32 := shapeCast S4000x1 v22 shapeCasts_S4000x1_S4000x1
  have v24 : FVec Ideal S4000x128 .f32 := broadcastTo S4000x128 v23 broadcasts_S4000x1_S4000x128
  have v25 : FVec Ideal S4000x128 .f32 := mulf v21 v24
  have v26 : FVec Ideal S4000x128 .bf16 := truncf .bf16 v25 bitsLt_bf16_f32
  v26

/-- The two printed convolution bodies are this arithmetic. -/
theorem k1_pay1_eq (v0 : Vec Ideal S4000x128 .f32) (v2 : Vec Ideal S4000x1 .f32) (v6 : Vec Ideal S1x128 .f32)
    (v19 : Vec Ideal S128x128 .f32) (v22 : Vec Ideal S4000x1 .f32) :
    k1_pay1 (F := Ideal) v0 v2 v6 v19 v22 = convBody v0 v2 v6 v19 v22 := rfl

theorem k2_pay1_eq (v0 : Vec Ideal S4000x128 .f32) (v2 : Vec Ideal S4000x1 .f32) (v6 : Vec Ideal S1x128 .f32)
    (v19 : Vec Ideal S128x128 .f32) (v22 : Vec Ideal S4000x1 .f32) :
    k2_pay1 (F := Ideal) v0 v2 v6 v19 v22 = convBody v0 v2 v6 v19 v22 := rfl

/-- A convolution body's result at (p, q). -/
theorem convBody_apply (v0 : Vec Ideal S4000x128 .f32) (v2 : Vec Ideal S4000x1 .f32) (v6 : Vec Ideal S1x128 .f32)
    (v19 : Vec Ideal S128x128 .f32) (v22 : Vec Ideal S4000x1 .f32) (p : Fin 4000) (q : Fin 128) :
    convBody v0 v2 v6 v19 v22 (ix2 p q)
      = (∑ k : Fin 128, Cert.Gcn.elu (v0 (ix2 p k) * v2 (ix2 p (0 : Fin 1)) + v6 (ix2 (0 : Fin 1) k)) * v19 (ix2 k q))
        * v22 (ix2 p (0 : Fin 1)) := by
  unfold convBody
  exact congrArg₂ (· * ·)
    ((matmul_conv_apply _ _ p q).trans (Finset.sum_congr rfl fun k _ =>
      congrArg (· * v19 (ix2 k q)) (actBlock_apply v0 v2 v6 p k)))
    ((Cert.LibRowStat.broadcastTo_a1_ab_apply _ broadcasts_S4000x1_S4000x128 p q).trans
      (congrFun (shapeCast_self v22 shapeCasts_S4000x1_S4000x1) _))

/-! ## The layer step as a function of four arrays -/

/-- ELU(X · d + b) times W, row r scaled by d(r): at (r, q) the entry (∑ k, ELU(X(r, k) · d(r) + b(k)) · W(k, q)) · d(r). -/
def convStep {a : ℕ} (X : (⟨2, ![a, 128]⟩ : Shape).Idx → EReal) (d : (⟨2, ![a, 1]⟩ : Shape).Idx → EReal)
    (b : (⟨2, ![1, 128]⟩ : Shape).Idx → EReal) (W : (⟨2, ![128, 128]⟩ : Shape).Idx → EReal) :
    (⟨2, ![a, 128]⟩ : Shape).Idx → EReal :=
  fun i => (∑ k : Fin 128, Cert.Gcn.elu (X (ix2 (i 0) k) * d (ix2 (i 0) (0 : Fin 1)) + b (ix2 (0 : Fin 1) k)) * W (ix2 k (i 1)))
    * d (ix2 (i 0) (0 : Fin 1))

/-- A block's row and an array's row give the same entry of the layer step when the rows agree entry by entry, the factors
    agree on the row, the biases agree and the weights agree on the column. -/
theorem convStep_congr {a a' : ℕ} (X' : (⟨2, ![a, 128]⟩ : Shape).Idx → EReal) (d' : (⟨2, ![a, 1]⟩ : Shape).Idx → EReal)
    (b' : (⟨2, ![1, 128]⟩ : Shape).Idx → EReal) (W' : (⟨2, ![128, 128]⟩ : Shape).Idx → EReal)
    (X : (⟨2, ![a', 128]⟩ : Shape).Idx → EReal) (d : (⟨2, ![a', 1]⟩ : Shape).Idx → EReal)
    (b : (⟨2, ![1, 128]⟩ : Shape).Idx → EReal) (W : (⟨2, ![128, 128]⟩ : Shape).Idx → EReal)
    (j : (⟨2, ![a, 128]⟩ : Shape).Idx) (i : (⟨2, ![a', 128]⟩ : Shape).Idx)
    (hX : ∀ k : Fin 128, X' (ix2 (j 0) k) = X (ix2 (i 0) k)) (hd : d' (ix2 (j 0) (0 : Fin 1)) = d (ix2 (i 0) (0 : Fin 1)))
    (hb : ∀ k : Fin 128, b' (ix2 (0 : Fin 1) k) = b (ix2 (0 : Fin 1) k)) (hW : ∀ k : Fin 128, W' (ix2 k (j 1)) = W (ix2 k (i 1))) :
    convStep X' d' b' W' j = convStep X d b W i := by
  unfold convStep
  rw [hd]
  exact congrArg (· * d (ix2 (i 0) (0 : Fin 1))) (Finset.sum_congr rfl fun k _ => by rw [hX k, hb k, hW k])

/-- A convolution body's result is the layer step of the blocks it loads. -/
theorem convBody_eq (v0 : Vec Ideal S4000x128 .f32) (v2 : Vec Ideal S4000x1 .f32) (v6 : Vec Ideal S1x128 .f32)
    (v19 : Vec Ideal S128x128 .f32) : convBody v0 v2 v6 v19 v2 = convStep (a := 4000) v0 v2 v6 v19 := by
  funext j
  obtain ⟨p, q, rfl⟩ : ∃ (p : Fin 4000) (q : Fin 128), j = ix2 p q := ⟨j 0, j 1, eq_ix2 j⟩
  exact convBody_apply v0 v2 v6 v19 v2 p q

/-- The zero offsets of a whole-buffer access, spelt as a function. -/
theorem zero_offsets2 : (![0, 0] : Fin 2 → Nat) = fun _ => 0 := funext fun a => by fin_cases a <;> rfl

end Cert.KernelIdeal.KVal

end
-- ==== Proof.KRegion1.lean ====
/-
  The first convolution region: what it leaves in its output array, index by index.

  Grid point t reads rows 4000t … 4000t + 3999 of the collected sums X and of the per-node factor d, the whole bias row b and
  the whole weight matrix W, and writes to the same rows of the output ELU(X · d + b) times W with row r scaled by d(r). The
  25 row blocks tile the 100000 rows, so the output array ends holding
  (∑ k, ELU(X(p, k) · d(p) + b(k)) · W(k, q)) · d(p) at (p, q), whatever the arrays hold when the region is entered.
-/
import proofs.«161114_j30794915512600_2_alg».proof.Proof.KRegionConv

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The windows' blocks as rows of the arrays -/

/-- The printed index maps over the grid: the three row-blocked windows are at block (t, 0), the bias and the weights at
    block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks

variable (V : (c : Dev nD) → (b : Ref sig .tc) → Buf (Elt Ideal) ((c : Thread nD τ).loc b))

/-- The first window's block at point t holds rows 4000t … of the collected sums. -/
theorem iblk1_0_apply (c : Dev nD) (t : Fin cfg1.N) (x : S4000x128.Idx) (i : S100000x128.Idx)
    (h0 : (i 0).val = 4000 * t.val + (x 0).val) (h1 : (i 1).val = (x 1).val) :
    (iblk1 V c 0 t : Vec Ideal S4000x128 .f32) x = (V c main_v24 : S100000x128.Idx → EReal) i := by
  obtain ⟨e0, e1, -⟩ := idx_facts1 t
  unfold iblk1
  rw [View.read_apply]
  show V c main_v24 _ = V c main_v24 _
  congr 1
  funext a
  apply Fin.ext
  match a with
  | ⟨0, _⟩ => show win1_0.index t (0 : Fin 2) * 4000 + 1 * (x 0).val = (i 0).val; rw [e0, h0]; omega
  | ⟨1, _⟩ => show win1_0.index t (1 : Fin 2) * 128 + 1 * (x 1).val = (i 1).val; rw [e1, h1]; omega

/-- The factor window's block at point t holds rows 4000t … of the factor column. -/
theorem iblk1_1_apply (c : Dev nD) (t : Fin cfg1.N) (x : S4000x1.Idx) (i : S100000x1.Idx)
    (h0 : (i 0).val = 4000 * t.val + (x 0).val) (h1 : (i 1).val = (x 1).val) :
    (iblk1 V c 1 t : Vec Ideal S4000x1 .f32) x = (V c main_v12 : S100000x1.Idx → EReal) i := by
  obtain ⟨-, -, e0, e1, -⟩ := idx_facts1 t
  unfold iblk1
  rw [View.read_apply]
  show V c main_v12 _ = V c main_v12 _
  congr 1
  funext a
  apply Fin.ext
  match a with
  | ⟨0, _⟩ => show win1_1.index t (0 : Fin 2) * 4000 + 1 * (x 0).val = (i 0).val; rw [e0, h0]; omega
  | ⟨1, _⟩ => show win1_1.index t (1 : Fin 2) * 1 + 1 * (x 1).val = (i 1).val; rw [e1, h1]; omega

/-- The bias window's block is the bias row at every point. -/
theorem iblk1_2_apply (c : Dev nD) (t : Fin cfg1.N) (x i : S1x128.Idx)
    (h0 : (i 0).val = (x 0).val) (h1 : (i 1).val = (x 1).val) :
    (iblk1 V c 2 t : Vec Ideal S1x128 .f32) x = (V c main_v25 : S1x128.Idx → EReal) i := by
  obtain ⟨-, -, -, -, e0, e1, -⟩ := idx_facts1 t
  unfold iblk1
  rw [View.read_apply]
  show V c main_v25 _ = V c main_v25 _
  congr 1
  funext a
  apply Fin.ext
  match a with
  | ⟨0, _⟩ => show win1_2.index t (0 : Fin 2) * 1 + 1 * (x 0).val = (i 0).val; rw [e0, h0]; omega
  | ⟨1, _⟩ => show win1_2.index t (1 : Fin 2) * 128 + 1 * (x 1).val = (i 1).val; rw [e1, h1]; omega

/-- The weight window's block is the weight array at every point. -/
theorem iblk1_3_apply (c : Dev nD) (t : Fin cfg1.N) (x i : S128x128.Idx)
    (h0 : (i 0).val = (x 0).val) (h1 : (i 1).val = (x 1).val) :
    (iblk1 V c 3 t : Vec Ideal S128x128 .f32) x = (V c main_arg4 : S128x128.Idx → EReal) i := by
  obtain ⟨-, -, -, -, -, -, e0, e1, -⟩ := idx_facts1 t
  unfold iblk1
  rw [View.read_apply]
  show V c main_arg4 _ = V c main_arg4 _
  congr 1
  funext a
  apply Fin.ext
  match a with
  | ⟨0, _⟩ => show win1_3.index t (0 : Fin 2) * 128 + 1 * (x 0).val = (i 0).val; rw [e0, h0]; omega
  | ⟨1, _⟩ => show win1_3.index t (1 : Fin 2) * 128 + 1 * (x 1).val = (i 1).val; rw [e1, h1]; omega

/-! ## From blocks to the array -/

/-- What point t writes back is block t of the layer step of the four arrays the region finds. -/
theorem flushed1_eq (c : Dev nD) (t : Fin cfg1.N) :
    (dat1 (F := Ideal) V c).flushed 4 t
      = ((cfg1.win 4).blk t).view.read (Elt Ideal)
          (convStep (a := 100000) (V c main_v24) (V c main_v12) (V c main_v25) (V c main_arg4)) := by
  show (cfg1.win 4).cut (grid1.coords t) ((dat1 V c).after 4 t) = _
  rw [after1_4]
  unfold out1_4
  rw [View.canon_unit_zero zero_offsets2]
  simp only [View.ld_unit_zero (S := S4000x128) zero_offsets2, View.ld_unit_zero (S := S4000x1) zero_offsets2,
    View.ld_unit_zero (S := S1x128) zero_offsets2, View.ld_unit_zero (S := S128x128) zero_offsets2]
  refine (congrArg ((cfg1.win 4).cut (grid1.coords t))
    ((k1_pay1_eq (iblk1 V c 0 t) (iblk1 V c 1 t) (iblk1 V c 2 t) (iblk1 V c 3 t) (iblk1 V c 1 t)).trans
      (convBody_eq (iblk1 V c 0 t) (iblk1 V c 1 t) (iblk1 V c 2 t) (iblk1 V c 3 t)))).trans ?_
  obtain ⟨-, -, -, -, -, -, -, -, e0, e1⟩ := idx_facts1 t
  funext j
  have hj0 : (j 0).val < 4000 := (j 0).isLt
  have hj1 : (j 1).val < 128 := (j 1).isLt
  have E0 : ((((cfg1.win 4).blk t).view.emb j) 0).val = 4000 * t.val + (j 0).val := by
    show win1_4.index t (0 : Fin 2) * 4000 + 1 * (j 0).val = _; rw [e0]; omega
  have E1 : ((((cfg1.win 4).blk t).view.emb j) 1).val = (j 1).val := by
    show win1_4.index t (1 : Fin 2) * 128 + 1 * (j 1).val = _; rw [e1]; omega
  show convStep (a := 4000) (iblk1 V c 0 t) (iblk1 V c 1 t) (iblk1 V c 2 t) (iblk1 V c 3 t) j
    = convStep (a := 100000) (V c main_v24) (V c main_v12) (V c main_v25) (V c main_arg4) (((cfg1.win 4).blk t).view.emb j)
  exact convStep_congr (a := 4000) (a' := 100000) (iblk1 V c 0 t) (iblk1 V c 1 t) (iblk1 V c 2 t) (iblk1 V c 3 t)
    (V c main_v24) (V c main_v12) (V c main_v25) (V c main_arg4) j (((cfg1.win 4).blk t).view.emb j)
    (fun k => iblk1_0_apply V c t _ _ E0 rfl) (iblk1_1_apply V c t _ _ E0 rfl)
    (fun k => iblk1_2_apply V c t _ _ rfl rfl) (fun k => iblk1_3_apply V c t _ _ rfl E1)

/-- An index of the output array is in point t's block iff each coordinate is in the block's range on its axis. -/
theorem mem_blk1 (t : Fin cfg1.N) (i : S100000x128.Idx) :
    i ∈ ((cfg1.win 4).blk t).view.set ↔ ∀ a : Fin 2, win1_4.index t a * S4000x128.size a ≤ (i a).val
      ∧ (i a).val < win1_4.index t a * S4000x128.size a + S4000x128.size a := by
  show i ∈ ((View.whole main_v26).slice (win1_4.rect t)).set ↔ _
  rw [View.set_slice_whole, Rect.mem_set_unit]
  exact Iff.rfl

/-- Row r of the output array is written by point r / 4000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, e0, e1⟩ := idx_facts1 t
  refine ⟨t, flush1_4 t, ?_⟩
  rw [mem_blk1]
  intro a
  match a with
  | ⟨0, _⟩ => show win1_4.index t (0 : Fin 2) * 4000 ≤ (i 0).val ∧ (i 0).val < win1_4.index t (0 : Fin 2) * 4000 + 4000; rw [e0, ht]; omega
  | ⟨1, _⟩ => show win1_4.index t (1 : Fin 2) * 128 ≤ (i 1).val ∧ (i 1).val < win1_4.index t (1 : Fin 2) * 128 + 128; rw [e1]; omega

/-- The output array after the region is the layer step of the four arrays the region finds. -/
theorem final1 (c : Dev nD) :
    (dat1 (F := Ideal) V c).arrAt 4 cfg1.N
      = convStep (a := 100000) (V c main_v24) (V c main_v12) (V c main_v25) (V c main_arg4) :=
  (dat1 (F := Ideal) V c).arrAt_eq_of_cover 4 _ (fun t _ => flushed1_eq V c t) cover1

/-- The region's output array, index by index: ELU of the collected sums X scaled by the factor d plus the bias b, times the
    weights W, row p scaled by d(p) again; X, d, b, W are the four arrays the region finds. -/
theorem region1 (c : Dev nD) (X : S100000x128.Idx → EReal) (d : S100000x1.Idx → EReal) (b : S1x128.Idx → EReal)
    (W : S128x128.Idx → EReal)
    (hX : (V c main_v24 : S100000x128.Idx → EReal) = X) (hd : (V c main_v12 : S100000x1.Idx → EReal) = d)
    (hb : (V c main_v25 : S1x128.Idx → EReal) = b) (hW : (V c main_arg4 : S128x128.Idx → EReal) = W)
    (p : Fin 100000) (q : Fin 128) :
    ((dat1 (F := Ideal) V c).arrAt 4 cfg1.N : S100000x128.Idx → EReal) (ix2 p q)
      = (∑ k : Fin 128, Cert.Gcn.elu (X (ix2 p k) * d (ix2 p (0 : Fin 1)) + b (ix2 (0 : Fin 1) k)) * W (ix2 k q))
        * d (ix2 p (0 : Fin 1)) := by
  subst hX hd hb hW
  exact congrFun (final1 V c) (ix2 p q)

end Blocks

end Cert.KernelIdeal.KVal

end
-- ==== Proof.KRegion2.lean ====
/-
  The second convolution region: what it leaves in its output array, index by index.

  Grid point t reads rows 4000t … 4000t + 3999 of the collected sums X and of the per-node factor d, the whole bias row b and
  the whole weight matrix W, and writes to the same rows of the output ELU(X · d + b) times W with row r scaled by d(r). The
  25 row blocks tile the 100000 rows, so the output array ends holding
  (∑ k, ELU(X(p, k) · d(p) + b(k)) · W(k, q)) · d(p) at (p, q), whatever the arrays hold when the region is entered.
-/
import proofs.«161114_j30794915512600_2_alg».proof.Proof.KRegionConv

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The windows' blocks as rows of the arrays -/

/-- The printed index maps over the grid: the three row-blocked windows are at block (t, 0), the bias and the weights at
    block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

section Blocks

variable (V : (c : Dev nD) → (b : Ref sig .tc) → Buf (Elt Ideal) ((c : Thread nD τ).loc b))

/-- The first window's block at point t holds rows 4000t … of the collected sums. -/
theorem iblk2_0_apply (c : Dev nD) (t : Fin cfg2.N) (x : S4000x128.Idx) (i : S100000x128.Idx)
    (h0 : (i 0).val = 4000 * t.val + (x 0).val) (h1 : (i 1).val = (x 1).val) :
    (iblk2 V c 0 t : Vec Ideal S4000x128 .f32) x = (V c main_v37 : S100000x128.Idx → EReal) i := by
  obtain ⟨e0, e1, -⟩ := idx_facts2 t
  unfold iblk2
  rw [View.read_apply]
  show V c main_v37 _ = V c main_v37 _
  congr 1
  funext a
  apply Fin.ext
  match a with
  | ⟨0, _⟩ => show win2_0.index t (0 : Fin 2) * 4000 + 1 * (x 0).val = (i 0).val; rw [e0, h0]; omega
  | ⟨1, _⟩ => show win2_0.index t (1 : Fin 2) * 128 + 1 * (x 1).val = (i 1).val; rw [e1, h1]; omega

/-- The factor window's block at point t holds rows 4000t … of the factor column. -/
theorem iblk2_1_apply (c : Dev nD) (t : Fin cfg2.N) (x : S4000x1.Idx) (i : S100000x1.Idx)
    (h0 : (i 0).val = 4000 * t.val + (x 0).val) (h1 : (i 1).val = (x 1).val) :
    (iblk2 V c 1 t : Vec Ideal S4000x1 .f32) x = (V c main_v12 : S100000x1.Idx → EReal) i := by
  obtain ⟨-, -, e0, e1, -⟩ := idx_facts2 t
  unfold iblk2
  rw [View.read_apply]
  show V c main_v12 _ = V c main_v12 _
  congr 1
  funext a
  apply Fin.ext
  match a with
  | ⟨0, _⟩ => show win2_1.index t (0 : Fin 2) * 4000 + 1 * (x 0).val = (i 0).val; rw [e0, h0]; omega
  | ⟨1, _⟩ => show win2_1.index t (1 : Fin 2) * 1 + 1 * (x 1).val = (i 1).val; rw [e1, h1]; omega

/-- The bias window's block is the bias row at every point. -/
theorem iblk2_2_apply (c : Dev nD) (t : Fin cfg2.N) (x i : S1x128.Idx)
    (h0 : (i 0).val = (x 0).val) (h1 : (i 1).val = (x 1).val) :
    (iblk2 V c 2 t : Vec Ideal S1x128 .f32) x = (V c main_v38 : S1x128.Idx → EReal) i := by
  obtain ⟨-, -, -, -, e0, e1, -⟩ := idx_facts2 t
  unfold iblk2
  rw [View.read_apply]
  show V c main_v38 _ = V c main_v38 _
  congr 1
  funext a
  apply Fin.ext
  match a with
  | ⟨0, _⟩ => show win2_2.index t (0 : Fin 2) * 1 + 1 * (x 0).val = (i 0).val; rw [e0, h0]; omega
  | ⟨1, _⟩ => show win2_2.index t (1 : Fin 2) * 128 + 1 * (x 1).val = (i 1).val; rw [e1, h1]; omega

/-- The weight window's block is the weight array at every point. -/
theorem iblk2_3_apply (c : Dev nD) (t : Fin cfg2.N) (x i : S128x128.Idx)
    (h0 : (i 0).val = (x 0).val) (h1 : (i 1).val = (x 1).val) :
    (iblk2 V c 3 t : Vec Ideal S128x128 .f32) x = (V c main_arg6 : S128x128.Idx → EReal) i := by
  obtain ⟨-, -, -, -, -, -, e0, e1, -⟩ := idx_facts2 t
  unfold iblk2
  rw [View.read_apply]
  show V c main_arg6 _ = V c main_arg6 _
  congr 1
  funext a
  apply Fin.ext
  match a with
  | ⟨0, _⟩ => show win2_3.index t (0 : Fin 2) * 128 + 1 * (x 0).val = (i 0).val; rw [e0, h0]; omega
  | ⟨1, _⟩ => show win2_3.index t (1 : Fin 2) * 128 + 1 * (x 1).val = (i 1).val; rw [e1, h1]; omega

/-! ## From blocks to the array -/

/-- What point t writes back is block t of the layer step of the four arrays the region finds. -/
theorem flushed2_eq (c : Dev nD) (t : Fin cfg2.N) :
    (dat2 (F := Ideal) V c).flushed 4 t
      = ((cfg2.win 4).blk t).view.read (Elt Ideal)
          (convStep (a := 100000) (V c main_v37) (V c main_v12) (V c main_v38) (V c main_arg6)) := by
  show (cfg2.win 4).cut (grid2.coords t) ((dat2 V c).after 4 t) = _
  rw [after2_4]
  unfold out2_4
  rw [View.canon_unit_zero zero_offsets2]
  simp only [View.ld_unit_zero (S := S4000x128) zero_offsets2, View.ld_unit_zero (S := S4000x1) zero_offsets2,
    View.ld_unit_zero (S := S1x128) zero_offsets2, View.ld_unit_zero (S := S128x128) zero_offsets2]
  refine (congrArg ((cfg2.win 4).cut (grid2.coords t))
    ((k2_pay1_eq (iblk2 V c 0 t) (iblk2 V c 1 t) (iblk2 V c 2 t) (iblk2 V c 3 t) (iblk2 V c 1 t)).trans
      (convBody_eq (iblk2 V c 0 t) (iblk2 V c 1 t) (iblk2 V c 2 t) (iblk2 V c 3 t)))).trans ?_
  obtain ⟨-, -, -, -, -, -, -, -, e0, e1⟩ := idx_facts2 t
  funext j
  have hj0 : (j 0).val < 4000 := (j 0).isLt
  have hj1 : (j 1).val < 128 := (j 1).isLt
  have E0 : ((((cfg2.win 4).blk t).view.emb j) 0).val = 4000 * t.val + (j 0).val := by
    show win2_4.index t (0 : Fin 2) * 4000 + 1 * (j 0).val = _; rw [e0]; omega
  have E1 : ((((cfg2.win 4).blk t).view.emb j) 1).val = (j 1).val := by
    show win2_4.index t (1 : Fin 2) * 128 + 1 * (j 1).val = _; rw [e1]; omega
  show convStep (a := 4000) (iblk2 V c 0 t) (iblk2 V c 1 t) (iblk2 V c 2 t) (iblk2 V c 3 t) j
    = convStep (a := 100000) (V c main_v37) (V c main_v12) (V c main_v38) (V c main_arg6) (((cfg2.win 4).blk t).view.emb j)
  exact convStep_congr (a := 4000) (a' := 100000) (iblk2 V c 0 t) (iblk2 V c 1 t) (iblk2 V c 2 t) (iblk2 V c 3 t)
    (V c main_v37) (V c main_v12) (V c main_v38) (V c main_arg6) j (((cfg2.win 4).blk t).view.emb j)
    (fun k => iblk2_0_apply V c t _ _ E0 rfl) (iblk2_1_apply V c t _ _ E0 rfl)
    (fun k => iblk2_2_apply V c t _ _ rfl rfl) (fun k => iblk2_3_apply V c t _ _ rfl E1)

/-- An index of the output array is in point t's block iff each coordinate is in the block's range on its axis. -/
theorem mem_blk2 (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v39).slice (win2_4.rect t)).set ↔ _
  rw [View.set_slice_whole, Rect.mem_set_unit]
  exact Iff.rfl

/-- Row r of the output array is written by point r / 4000. -/
theorem cover2 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, e0, e1⟩ := idx_facts2 t
  refine ⟨t, flush2_4 t, ?_⟩
  rw [mem_blk2]
  intro a
  match a with
  | ⟨0, _⟩ => show win2_4.index t (0 : Fin 2) * 4000 ≤ (i 0).val ∧ (i 0).val < win2_4.index t (0 : Fin 2) * 4000 + 4000; rw [e0, ht]; omega
  | ⟨1, _⟩ => show win2_4.index t (1 : Fin 2) * 128 ≤ (i 1).val ∧ (i 1).val < win2_4.index t (1 : Fin 2) * 128 + 128; rw [e1]; omega

/-- The output array after the region is the layer step of the four arrays the region finds. -/
theorem final2 (c : Dev nD) :
    (dat2 (F := Ideal) V c).arrAt 4 cfg2.N
      = convStep (a := 100000) (V c main_v37) (V c main_v12) (V c main_v38) (V c main_arg6) :=
  (dat2 (F := Ideal) V c).arrAt_eq_of_cover 4 _ (fun t _ => flushed2_eq V c t) cover2

/-- The region's output array, index by index: ELU of the collected sums X scaled by the factor d plus the bias b, times the
    weights W, row p scaled by d(p) again; X, d, b, W are the four arrays the region finds. -/
theorem region2 (c : Dev nD) (X : S100000x128.Idx → EReal) (d : S100000x1.Idx → EReal) (b : S1x128.Idx → EReal)
    (W : S128x128.Idx → EReal)
    (hX : (V c main_v37 : S100000x128.Idx → EReal) = X) (hd : (V c main_v12 : S100000x1.Idx → EReal) = d)
    (hb : (V c main_v38 : S1x128.Idx → EReal) = b) (hW : (V c main_arg6 : S128x128.Idx → EReal) = W)
    (p : Fin 100000) (q : Fin 128) :
    ((dat2 (F := Ideal) V c).arrAt 4 cfg2.N : S100000x128.Idx → EReal) (ix2 p q)
      = (∑ k : Fin 128, Cert.Gcn.elu (X (ix2 p k) * d (ix2 p (0 : Fin 1)) + b (ix2 (0 : Fin 1) k)) * W (ix2 k q))
        * d (ix2 p (0 : Fin 1)) := by
  subst hX hd hb hW
  exact congrFun (final2 V c) (ix2 p q)

end Blocks

end Cert.KernelIdeal.KVal

end
-- ==== Proof.LibKeepdims.lean ====
/-
  Keepdims layouts and single-axis sums of rank-3 arrays, read at an index written by coordinates.

  A sum over one axis that keeps the axis as a unit axis is, in a kernel, a lane or sublane reduction followed by a
  shape cast that appends or inserts the unit axis, and its consumer broadcasts the unit axis back. Each of these
  operations reads its operand at an index whose coordinates are those of the result index with the unit coordinate
  dropped, added or set to zero; the sums range over the coordinates of the reduced axis.
-/
import Idealize.ShloMosaic.PureOps.Ideal.Laws
import Idealize.ShloMosaic.Lib.ValueIdx
import Idealize.ShloMosaic.Lib.ValueLayout
import Idealize.ShloMosaic.Lib.Pipeline.Value

namespace Cert.LibKeepdims

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => exact (if_pos rfl).symm

/-- A `[1, 1, b]` array broadcast to `[1, a, b]` reads, at `(u, i, r)`, the operand's one row at `r`. -/
theorem broadcastTo_11b_1ab_apply {a b : ℕ} (v : (⟨3, ![1, 1, b]⟩ : Shape).Idx → α)
    (h : (⟨3, ![1, 1, b]⟩ : Shape).Broadcasts ⟨3, ![1, a, b]⟩) (u : Fin 1) (i : Fin a) (r : Fin b) :
    broadcastTo ⟨3, ![1, a, b]⟩ v h (ix3 u i r) = v (ix3 (0 : Fin 1) (0 : Fin 1) r) := by
  refine broadcastTo_apply v h (ix3 u i r) (ix3 (0 : Fin 1) (0 : Fin 1) r) fun ax => ?_
  match ax with
  | ⟨0, _⟩ => exact (if_pos rfl).symm
  | ⟨1, _⟩ => exact (if_pos rfl).symm
  | ⟨2, _⟩ =>
    show r.val = if b = 1 then 0 else r.val
    split
    · have := r.isLt; omega
    · rfl

/-- The sum of an `[a, b, c]` array over its last axis reads, at `(i, j)`, the sum over `k` of the operand at
    `(i, j, k)`. At the ideal values. -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (funext fun ax => Fin.ext
      (match ax with | ⟨0, _⟩ => rfl | ⟨1, _⟩ => rfl | ⟨2, _⟩ => rfl)))

/-- The sum of an `[a, b, c]` array over its middle axis reads, at `(i, r)`, the sum over `k` of the operand at
    `(i, k, r)`. At the ideal values. -/
theorem sum_middle_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (r : Fin c) :
    multiReduction .add [1] ⟨2, ![a, c]⟩ src acc h hφ hacc (ix2 i r) = ∑ k : Fin b, src (ix3 i k r) :=
  (Ideal.multiReduction_add_single src acc h hφ hacc (ix2 i r)).trans
    (Finset.sum_congr rfl fun k _ => congrArg src (funext fun ax => Fin.ext
      (match ax with | ⟨0, _⟩ => rfl | ⟨1, _⟩ => rfl | ⟨2, _⟩ => rfl)))

end Cert.LibKeepdims
-- ==== Proof.KRegion3.lean ====
/-
  The last kernel region: what it leaves in its output array, index by index.

  Grid point t reads rows 4000t … 4000t + 3999 of the collected sums X and of the per-node factor d, the whole bias row b,
  the whole 128×16 weight matrix W and the whole bias row b' of the 16 classes. It forms ELU(X · d + b) as the convolution
  bodies do, multiplies by W and adds b': the logits z(r, ·) of row r. Then it takes the row maximum m(r) over the 16
  classes, the sum s(r) of exp(z(r, k) − m(r)) over them, and writes z(r, q) − (m(r) + log s(r)): the log-softmax of the row,
  subtracting m + log Σ exp(z − m) at once. The 25 row blocks tile the 100000 rows.
-/
import proofs.«161114_j30794915512600_2_alg».proof.Proof.KRegionConv
import proofs.«161114_j30794915512600_2_alg».proof.Proof.LibKeepdims

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## Row statistics over the lanes -/

/-- The pattern of −∞ denotes the least extended real. -/
theorem ofBits_neg_inf : FloatOps.ofBits (F := Ideal) .f32 0xFF800000#32 = (⊥ : EReal) := by
  simp [Ideal.ofBits, Ideal.ieee]

/-- The maximum of an [a, b] array over its lanes, from −∞, reads at row p the largest of the row's entries. -/
theorem max_lanes_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = Cert.Gcn.rowMax (fun k : Fin b => src (ix2 p k)) := by
  refine (Ideal.multiReduction_maximumf_single src _ h hφ hacc (ix1 p)).trans ?_
  rw [ofBits_neg_inf]
  unfold Cert.Gcn.rowMax
  exact Finset.fold_congr fun k _ => congrArg src (funext fun ax => Fin.ext
    (match ax with | ⟨0, _⟩ => rfl | ⟨1, _⟩ => rfl))

/-! ## The head's arithmetic -/

/-- The 4000×128 by 128×16 product into the zero accumulator, at (p, q). -/
theorem matmul_head_apply (A : FVec Ideal S4000x128 .bf16) (B : FVec Ideal S128x16 .bf16) (p : Fin 4000) (q : Fin 16) :
    matmul dot_S4000x128_S128x16_S4000x16_1_0_0_1_n_n none A B (constant (F := Ideal) S4000x16 .f32 0x00000000#32) (ix2 p q)
      = ∑ k : Fin 128, A (ix2 p k) * B (ix2 k q) :=
  Cert.LibMatmulPlain.matmul_plain_zero_apply (m := 4000) (k := 128) (n := 16) none A B p q

/-- The logits of a block of rows, from the values the body loads. -/
def logitBlock (v0 : Vec Ideal S4000x128 .f32) (v2 : Vec Ideal S4000x1 .f32) (v6 : Vec Ideal S1x128 .f32)
    (v19 : Vec Ideal S128x16 .f32) (v22 : Vec Ideal S1x16 .f32) : FVec Ideal S4000x16 .f32 :=
  have v17 : FVec Ideal S4000x128 .f32 := actBlock v0 v2 v6
  have v18 : FVec Ideal S4000x128 .bf16 := truncf .bf16 v17 bitsLt_bf16_f32
  have v20 : FVec Ideal S128x16 .bf16 := truncf .bf16 v19 bitsLt_bf16_f32
  have cst_9 : FVec Ideal S4000x16 .f32 := constant S4000x16 .f32 0x00000000#32
  have v21 : FVec Ideal S4000x16 .f32 := matmul dot_S4000x128_S128x16_S4000x16_1_0_0_1_n_n none v18 v20 cst_9
  have v23 : FVec Ideal S1x16 .f32 := shapeCast S1x16 v22 shapeCasts_S1x16_S1x16
  have v24 : FVec Ideal S4000x16 .f32 := broadcastTo S4000x16 v23 broadcasts_S1x16_S4000x16
  have v25 : FVec Ideal S4000x16 .f32 := addf v21 v24
  v25

/-- The logit of row p and class k. -/
theorem logitBlock_apply (v0 : Vec Ideal S4000x128 .f32) (v2 : Vec Ideal S4000x1 .f32) (v6 : Vec Ideal S1x128 .f32)
    (v19 : Vec Ideal S128x16 .f32) (v22 : Vec Ideal S1x16 .f32) (p : Fin 4000) (k : Fin 16) :
    logitBlock v0 v2 v6 v19 v22 (ix2 p k)
      = (∑ j : Fin 128, Cert.Gcn.elu (v0 (ix2 p j) * v2 (ix2 p (0 : Fin 1)) + v6 (ix2 (0 : Fin 1) j)) * v19 (ix2 j k))
        + v22 (ix2 (0 : Fin 1) k) := by
  unfold logitBlock
  exact congrArg₂ (· + ·)
    ((matmul_head_apply _ _ p k).trans (Finset.sum_congr rfl fun j _ =>
      congrArg (· * v19 (ix2 j k)) (actBlock_apply v0 v2 v6 p j)))
    ((broadcastTo_1b_ab_apply _ broadcasts_S1x16_S4000x16 p k).trans
      (congrFun (shapeCast_self v22 shapeCasts_S1x16_S1x16) _))

/-- The row maxima of a block of logits, as a column. -/
def rowMaxCol (z : FVec Ideal S4000x16 .f32) : FVec Ideal S4000x1 .f32 :=
  shapeCast S4000x1 (multiReduction .maximumf [1] S4000 z 0xFF800000#32 reduces_S4000x16_S4000 (.inl rfl) rfl)
    shapeCasts_S4000_S4000x1

theorem rowMaxCol_apply (z : FVec Ideal S4000x16 .f32) (p : Fin 4000) :
    rowMaxCol z (ix2 p (0 : Fin 1)) = Cert.Gcn.rowMax (fun k : Fin 16 => z (ix2 p k)) := by
  unfold rowMaxCol
  exact (Cert.LibKeepdims.shapeCast_a_a1_apply _ shapeCasts_S4000_S4000x1 p (0 : Fin 1)).trans
    (max_lanes_apply z reduces_S4000x16_S4000 (.inl rfl) rfl p)

/-- The row sums of exp(z − m) for a column m, as a column. -/
def expSumCol (z : FVec Ideal S4000x16 .f32) (m : FVec Ideal S4000x1 .f32) : FVec Ideal S4000x1 .f32 :=
  shapeCast S4000x1
    (multiReduction .add [1] S4000 (exp (subf z (broadcastTo S4000x16 m broadcasts_S4000x1_S4000x16))) 0x00000000#32
      reduces_S4000x16_S4000 (.inl rfl) rfl)
    shapeCasts_S4000_S4000x1

theorem expSumCol_apply (z : FVec Ideal S4000x16 .f32) (m : FVec Ideal S4000x1 .f32) (p : Fin 4000) :
    expSumCol z m (ix2 p (0 : Fin 1)) = ∑ k : Fin 16, Ideal.exp (z (ix2 p k) - m (ix2 p (0 : Fin 1))) := by
  unfold expSumCol
  exact (Cert.LibKeepdims.shapeCast_a_a1_apply _ shapeCasts_S4000_S4000x1 p (0 : Fin 1)).trans
    ((Cert.LibRowStat.sum_lanes_apply _ _ reduces_S4000x16_S4000 (.inl rfl) rfl p).trans
      (Finset.sum_congr rfl fun k _ => congrArg (fun v : EReal => Ideal.exp (z (ix2 p k) - v))
        (Cert.LibRowStat.broadcastTo_a1_ab_apply m broadcasts_S4000x1_S4000x16 p k)))

/-- The log-softmax of a block of logits, as the body writes it. -/
def lsmBlock (v25 : FVec Ideal S4000x16 .f32) : FVec Ideal S4000x16 .f32 :=
  have v27 : FVec Ideal S4000x1 .f32 := rowMaxCol v25
  have v32 : FVec Ideal S4000x1 .f32 := expSumCol v25 v27
  have v33 : FVec Ideal S4000x1 .f32 := log v32
  have v34 : FVec Ideal S4000x1 .f32 := addf v27 v33
  have v35 : FVec Ideal S4000x16 .f32 := broadcastTo S4000x16 v34 broadcasts_S4000x1_S4000x16
  have v36 : FVec Ideal S4000x16 .f32 := subf v25 v35
  v36

/-- At (p, q) it is the log-softmax of row p at class q. -/
theorem lsmBlock_apply (z : FVec Ideal S4000x16 .f32) (p : Fin 4000) (q : Fin 16) :
    lsmBlock z (ix2 p q) = Cert.Gcn.lsmK (fun k : Fin 16 => z (ix2 p k)) q := by
  unfold lsmBlock Cert.Gcn.lsmK
  refine congrArg (fun v : EReal => z (ix2 p q) - v) ?_
  refine (Cert.LibRowStat.broadcastTo_a1_ab_apply _ broadcasts_S4000x1_S4000x16 p q).trans ?_
  refine congrArg₂ (· + ·) (rowMaxCol_apply z p) (congrArg Ideal.log ?_)
  refine (expSumCol_apply z (rowMaxCol z) p).trans ?_
  rw [rowMaxCol_apply z p]

/-- The head body's result from the values it loads. -/
def headBody (v0 : Vec Ideal S4000x128 .f32) (v2 : Vec Ideal S4000x1 .f32) (v6 : Vec Ideal S1x128 .f32)
    (v19 : Vec Ideal S128x16 .f32) (v22 : Vec Ideal S1x16 .f32) : FVec Ideal S4000x16 .f32 :=
  lsmBlock (logitBlock v0 v2 v6 v19 v22)

/-- The printed head body is this arithmetic. -/
theorem k3_pay1_eq (v0 : Vec Ideal S4000x128 .f32) (v2 : Vec Ideal S4000x1 .f32) (v6 : Vec Ideal S1x128 .f32)
    (v19 : Vec Ideal S128x16 .f32) (v22 : Vec Ideal S1x16 .f32) :
    k3_pay1 (F := Ideal) v0 v2 v6 v19 v22 = headBody v0 v2 v6 v19 v22 := rfl

/-! ## The head as a function of five arrays -/

/-- The log-softmax over the 16 classes of ELU(X · d + b) times W plus b'. -/
def headStep {a : ℕ} (X : (⟨2, ![a, 128]⟩ : Shape).Idx → EReal) (d : (⟨2, ![a, 1]⟩ : Shape).Idx → EReal)
    (b : (⟨2, ![1, 128]⟩ : Shape).Idx → EReal) (W : (⟨2, ![128, 16]⟩ : Shape).Idx → EReal)
    (b' : (⟨2, ![1, 16]⟩ : Shape).Idx → EReal) : (⟨2, ![a, 16]⟩ : Shape).Idx → EReal :=
  fun i => Cert.Gcn.lsmK (fun k : Fin 16 =>
    (∑ j : Fin 128, Cert.Gcn.elu (X (ix2 (i 0) j) * d (ix2 (i 0) (0 : Fin 1)) + b (ix2 (0 : Fin 1) j)) * W (ix2 j k))
      + b' (ix2 (0 : Fin 1) k)) (i 1)

/-- A block's row and an array's row give the same entry of the head when the rows agree entry by entry, the factors agree
    on the row, the other three arrays are the same and the two indices name the same class. -/
theorem headStep_congr {a a' : ℕ} (X' : (⟨2, ![a, 128]⟩ : Shape).Idx → EReal) (d' : (⟨2, ![a, 1]⟩ : Shape).Idx → EReal)
    (X : (⟨2, ![a', 128]⟩ : Shape).Idx → EReal) (d : (⟨2, ![a', 1]⟩ : Shape).Idx → EReal)
    (b : (⟨2, ![1, 128]⟩ : Shape).Idx → EReal) (W : (⟨2, ![128, 16]⟩ : Shape).Idx → EReal)
    (b' : (⟨2, ![1, 16]⟩ : Shape).Idx → EReal)
    (j : (⟨2, ![a, 16]⟩ : Shape).Idx) (i : (⟨2, ![a', 16]⟩ : Shape).Idx)
    (hX : ∀ k : Fin 128, X' (ix2 (j 0) k) = X (ix2 (i 0) k)) (hd : d' (ix2 (j 0) (0 : Fin 1)) = d (ix2 (i 0) (0 : Fin 1)))
    (h1 : (j 1 : Fin 16) = i 1) :
    headStep X' d' b W b' j = headStep X d b W b' i := by
  unfold headStep
  have hz : (fun k : Fin 16 =>
      (∑ l : Fin 128, Cert.Gcn.elu (X' (ix2 (j 0) l) * d' (ix2 (j 0) (0 : Fin 1)) + b (ix2 (0 : Fin 1) l)) * W (ix2 l k))
        + b' (ix2 (0 : Fin 1) k))
      = fun k : Fin 16 =>
      (∑ l : Fin 128, Cert.Gcn.elu (X (ix2 (i 0) l) * d (ix2 (i 0) (0 : Fin 1)) + b (ix2 (0 : Fin 1) l)) * W (ix2 l k))
        + b' (ix2 (0 : Fin 1) k) := by
    funext k
    rw [hd]
    exact congrArg (· + b' (ix2 (0 : Fin 1) k)) (Finset.sum_congr rfl fun l _ => by rw [hX l])
  exact (congrArg (fun z : Fin 16 → EReal => Cert.Gcn.lsmK z (j 1)) hz).trans (congrArg (Cert.Gcn.lsmK _) h1)

/-- The head body's result is the head of the blocks it loads. -/
theorem headBody_eq (v0 : Vec Ideal S4000x128 .f32) (v2 : Vec Ideal S4000x1 .f32) (v6 : Vec Ideal S1x128 .f32)
    (v19 : Vec Ideal S128x16 .f32) (v22 : Vec Ideal S1x16 .f32) :
    headBody v0 v2 v6 v19 v22 = headStep (a := 4000) v0 v2 v6 v19 v22 := by
  funext j
  obtain ⟨p, q, rfl⟩ : ∃ (p : Fin 4000) (q : Fin 16), j = ix2 p q := ⟨j 0, j 1, eq_ix2 j⟩
  unfold headBody headStep
  refine (lsmBlock_apply _ p q).trans ?_
  exact congrArg (fun z : Fin 16 → EReal => Cert.Gcn.lsmK z q) (funext fun k => logitBlock_apply v0 v2 v6 v19 v22 p k)

/-! ## The windows' blocks as rows of the arrays -/

/-- The printed index maps over the grid: the three row-blocked windows are at block (t, 0), the others at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section Blocks

variable (V : (c : Dev nD) → (b : Ref sig .tc) → Buf (Elt Ideal) ((c : Thread nD τ).loc b))

/-- The first window's block at point t holds rows 4000t … of the collected sums. -/
theorem iblk3_0_apply (c : Dev nD) (t : Fin cfg3.N) (x : S4000x128.Idx) (i : S100000x128.Idx)
    (h0 : (i 0).val = 4000 * t.val + (x 0).val) (h1 : (i 1).val = (x 1).val) :
    (iblk3 V c 0 t : Vec Ideal S4000x128 .f32) x = (V c main_v50 : S100000x128.Idx → EReal) i := by
  obtain ⟨e0, e1, -⟩ := idx_facts3 t
  unfold iblk3
  rw [View.read_apply]
  show V c main_v50 _ = V c main_v50 _
  congr 1
  funext a
  apply Fin.ext
  match a with
  | ⟨0, _⟩ => show win3_0.index t (0 : Fin 2) * 4000 + 1 * (x 0).val = (i 0).val; rw [e0, h0]; omega
  | ⟨1, _⟩ => show win3_0.index t (1 : Fin 2) * 128 + 1 * (x 1).val = (i 1).val; rw [e1, h1]; omega

/-- The factor window's block at point t holds rows 4000t … of the factor column. -/
theorem iblk3_1_apply (c : Dev nD) (t : Fin cfg3.N) (x : S4000x1.Idx) (i : S100000x1.Idx)
    (h0 : (i 0).val = 4000 * t.val + (x 0).val) (h1 : (i 1).val = (x 1).val) :
    (iblk3 V c 1 t : Vec Ideal S4000x1 .f32) x = (V c main_v12 : S100000x1.Idx → EReal) i := by
  obtain ⟨-, -, e0, e1, -⟩ := idx_facts3 t
  unfold iblk3
  rw [View.read_apply]
  show V c main_v12 _ = V c main_v12 _
  congr 1
  funext a
  apply Fin.ext
  match a with
  | ⟨0, _⟩ => show win3_1.index t (0 : Fin 2) * 4000 + 1 * (x 0).val = (i 0).val; rw [e0, h0]; omega
  | ⟨1, _⟩ => show win3_1.index t (1 : Fin 2) * 1 + 1 * (x 1).val = (i 1).val; rw [e1, h1]; omega

/-- The bias window's block is the bias row at every point. -/
theorem iblk3_2_eq (c : Dev nD) (t : Fin cfg3.N) :
    (iblk3 V c 2 t : Vec Ideal S1x128 .f32) = (V c main_v51 : S1x128.Idx → EReal) := by
  obtain ⟨-, -, -, -, e0, e1, -⟩ := idx_facts3 t
  funext x
  unfold iblk3
  rw [View.read_apply]
  show V c main_v51 _ = V c main_v51 _
  congr 1
  funext a
  apply Fin.ext
  match a with
  | ⟨0, _⟩ => show win3_2.index t (0 : Fin 2) * 1 + 1 * (x 0).val = (x 0).val; rw [e0]; omega
  | ⟨1, _⟩ => show win3_2.index t (1 : Fin 2) * 128 + 1 * (x 1).val = (x 1).val; rw [e1]; omega

/-- The weight window's block is the weight array at every point. -/
theorem iblk3_3_eq (c : Dev nD) (t : Fin cfg3.N) :
    (iblk3 V c 3 t : Vec Ideal S128x16 .f32) = (V c main_arg8 : S128x16.Idx → EReal) := by
  obtain ⟨-, -, -, -, -, -, e0, e1, -⟩ := idx_facts3 t
  funext x
  unfold iblk3
  rw [View.read_apply]
  show V c main_arg8 _ = V c main_arg8 _
  congr 1
  funext a
  apply Fin.ext
  match a with
  | ⟨0, _⟩ => show win3_3.index t (0 : Fin 2) * 128 + 1 * (x 0).val = (x 0).val; rw [e0]; omega
  | ⟨1, _⟩ => show win3_3.index t (1 : Fin 2) * 16 + 1 * (x 1).val = (x 1).val; rw [e1]; omega

/-- The class-bias window's block is the class-bias row at every point. -/
theorem iblk3_4_eq (c : Dev nD) (t : Fin cfg3.N) :
    (iblk3 V c 4 t : Vec Ideal S1x16 .f32) = (V c main_v52 : S1x16.Idx → EReal) := by
  obtain ⟨-, -, -, -, -, -, -, -, e0, e1, -⟩ := idx_facts3 t
  funext x
  unfold iblk3
  rw [View.read_apply]
  show V c main_v52 _ = V c main_v52 _
  congr 1
  funext a
  apply Fin.ext
  match a with
  | ⟨0, _⟩ => show win3_4.index t (0 : Fin 2) * 1 + 1 * (x 0).val = (x 0).val; rw [e0]; omega
  | ⟨1, _⟩ => show win3_4.index t (1 : Fin 2) * 16 + 1 * (x 1).val = (x 1).val; rw [e1]; omega

/-! ## From blocks to the array -/

/-- What point t writes back is block t of the head of the five arrays the region finds. -/
theorem flushed3_eq (c : Dev nD) (t : Fin cfg3.N) :
    (dat3 (F := Ideal) V c).flushed 5 t
      = ((cfg3.win 5).blk t).view.read (Elt Ideal)
          (headStep (a := 100000) (V c main_v50) (V c main_v12) (V c main_v51) (V c main_arg8) (V c main_v52)) := by
  show (cfg3.win 5).cut (grid3.coords t) ((dat3 V c).after 5 t) = _
  rw [after3_5]
  unfold out3_5
  rw [View.canon_unit_zero zero_offsets2]
  simp only [View.ld_unit_zero (S := S4000x128) zero_offsets2, View.ld_unit_zero (S := S4000x1) zero_offsets2,
    View.ld_unit_zero (S := S1x128) zero_offsets2, View.ld_unit_zero (S := S128x16) zero_offsets2,
    View.ld_unit_zero (S := S1x16) zero_offsets2]
  refine (congrArg ((cfg3.win 5).cut (grid3.coords t))
    ((k3_pay1_eq (iblk3 V c 0 t) (iblk3 V c 1 t) (iblk3 V c 2 t) (iblk3 V c 3 t) (iblk3 V c 4 t)).trans
      (headBody_eq (iblk3 V c 0 t) (iblk3 V c 1 t) (iblk3 V c 2 t) (iblk3 V c 3 t) (iblk3 V c 4 t)))).trans ?_
  obtain ⟨-, -, -, -, -, -, -, -, -, -, e0, e1⟩ := idx_facts3 t
  funext j
  have hj0 : (j 0).val < 4000 := (j 0).isLt
  have hj1 : (j 1).val < 16 := (j 1).isLt
  have E0 : ((((cfg3.win 5).blk t).view.emb j) 0).val = 4000 * t.val + (j 0).val := by
    show win3_5.index t (0 : Fin 2) * 4000 + 1 * (j 0).val = _; rw [e0]; omega
  have E1 : ((((cfg3.win 5).blk t).view.emb j) 1).val = (j 1).val := by
    show win3_5.index t (1 : Fin 2) * 16 + 1 * (j 1).val = _; rw [e1]; omega
  show headStep (a := 4000) (iblk3 V c 0 t) (iblk3 V c 1 t) (iblk3 V c 2 t) (iblk3 V c 3 t) (iblk3 V c 4 t) j
    = headStep (a := 100000) (V c main_v50) (V c main_v12) (V c main_v51) (V c main_arg8) (V c main_v52)
        (((cfg3.win 5).blk t).view.emb j)
  rw [iblk3_2_eq V c t, iblk3_3_eq V c t, iblk3_4_eq V c t]
  exact headStep_congr (a := 4000) (a' := 100000) (iblk3 V c 0 t) (iblk3 V c 1 t) (V c main_v50) (V c main_v12)
    (V c main_v51) (V c main_arg8) (V c main_v52) j (((cfg3.win 5).blk t).view.emb j)
    (fun k => iblk3_0_apply V c t _ _ E0 rfl) (iblk3_1_apply V c t _ _ E0 rfl) (Fin.ext E1.symm)

/-- An index of the output array is in point t's block iff each coordinate is in the block's range on its axis. -/
theorem mem_blk3 (t : Fin cfg3.N) (i : S100000x16.Idx) :
    i ∈ ((cfg3.win 5).blk t).view.set ↔ ∀ a : Fin 2, win3_5.index t a * S4000x16.size a ≤ (i a).val
      ∧ (i a).val < win3_5.index t a * S4000x16.size a + S4000x16.size a := by
  show i ∈ ((View.whole main_v53).slice (win3_5.rect t)).set ↔ _
  rw [View.set_slice_whole, Rect.mem_set_unit]
  exact Iff.rfl

/-- Row r of the output array is written by point r / 4000. -/
theorem cover3 (i : S100000x16.Idx) :
    ∃ t : Fin cfg3.N, (cfg3.win 5).flush t = true ∧ i ∈ ((cfg3.win 5).blk t).view.set := by
  have hi0 : (i 0).val < 100000 := (i 0).isLt
  have hi1 : (i 1).val < 16 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ => show win3_5.index t (0 : Fin 2) * 4000 ≤ (i 0).val ∧ (i 0).val < win3_5.index t (0 : Fin 2) * 4000 + 4000; rw [e0, ht]; omega
  | ⟨1, _⟩ => show win3_5.index t (1 : Fin 2) * 16 ≤ (i 1).val ∧ (i 1).val < win3_5.index t (1 : Fin 2) * 16 + 16; rw [e1]; omega

/-- The output array after the region is the head of the five arrays the region finds. -/
theorem final3 (c : Dev nD) :
    (dat3 (F := Ideal) V c).arrAt 5 cfg3.N
      = headStep (a := 100000) (V c main_v50) (V c main_v12) (V c main_v51) (V c main_arg8) (V c main_v52) :=
  (dat3 (F := Ideal) V c).arrAt_eq_of_cover 5 _ (fun t _ => flushed3_eq V c t) cover3

/-- The region's output array, index by index: the log-softmax over the 16 classes of ELU(X · d + b) times W plus b';
    X, d, b, W, b' are the five arrays the region finds. -/
theorem region3 (c : Dev nD) (X : S100000x128.Idx → EReal) (d : S100000x1.Idx → EReal) (b : S1x128.Idx → EReal)
    (W : S128x16.Idx → EReal) (b' : S1x16.Idx → EReal)
    (hX : (V c main_v50 : S100000x128.Idx → EReal) = X) (hd : (V c main_v12 : S100000x1.Idx → EReal) = d)
    (hb : (V c main_v51 : S1x128.Idx → EReal) = b) (hW : (V c main_arg8 : S128x16.Idx → EReal) = W)
    (hb' : (V c main_v52 : S1x16.Idx → EReal) = b') (p : Fin 100000) (q : Fin 16) :
    ((dat3 (F := Ideal) V c).arrAt 5 cfg3.N : S100000x16.Idx → EReal) (ix2 p q)
      = Cert.Gcn.lsmK (fun k : Fin 16 =>
          (∑ j : Fin 128, Cert.Gcn.elu (X (ix2 p j) * d (ix2 p (0 : Fin 1)) + b (ix2 (0 : Fin 1) j)) * W (ix2 j k))
            + b' (ix2 (0 : Fin 1) k)) q := by
  subst hX hd hb hW hb'
  exact congrFun (final3 V c) (ix2 p q)

end Blocks

end Cert.KernelIdeal.KVal

end
-- ==== Proof.KChain.lean ====
/-
  The kernel program's result, index by index, as the graph network with the factors applied at the nodes.

  Launch 0 leaves (x·W1) with row r scaled by dinv(r). Each host stretch gathers the previous launch's rows at the sources and
  adds them up by destination; launch 1 and launch 2 scale the collected sum by dinv, add the bias, apply ELU, multiply by the
  next weight matrix and scale by dinv again; launch 3 does the same up to ELU, multiplies by the head's weights, adds its bias
  and takes log-softmax. The edge arrays, the node factor and the arguments hold at every boundary what they held when written,
  so the whole chain is `netK` of the arguments.
-/
import proofs.«161114_j30794915512600_2_alg».proof.Proof.KStable
import proofs.«161114_j30794915512600_2_alg».proof.Proof.KLayer
import proofs.«161114_j30794915512600_2_alg».proof.Proof.KRegion0
import proofs.«161114_j30794915512600_2_alg».proof.Proof.KRegion1
import proofs.«161114_j30794915512600_2_alg».proof.Proof.KRegion2
import proofs.«161114_j30794915512600_2_alg».proof.Proof.KRegion3

set_option maxRecDepth 16384

noncomputable section

namespace Cert.KernelIdeal.KChain

open Idealize.ShloMosaic Idealize.ShloMosaic.TcCoe Idealize.ShloMosaic.ValueIdx
open Idealize.SL Idealize.SL.Sem
open Cert.KernelIdeal Cert.KernelIdeal.Gen Cert.KernelIdeal.KKeep Cert.KernelIdeal.KHost Cert.KernelIdeal.KStable
open Cert.KernelIdeal.KLayer Cert.Gcn
open scoped BigOperators

variable (m : (ℓ : Loc nD τ sig) → Buf (Elt Ideal) ℓ) (ρ : Dev nD → PrngReg) (c : Dev nD)

/-! ## The arguments, typed -/

def aX : S100000x128.Idx → EReal := m ((c : Thread nD τ).loc main_arg0)
def aE : IVec S2x1600000 32 := m ((c : Thread nD τ).loc main_arg1)
def aW1 : S128x128.Idx → EReal := m ((c : Thread nD τ).loc main_arg2)
def aB1 : S128.Idx → EReal := m ((c : Thread nD τ).loc main_arg3)
def aW2 : S128x128.Idx → EReal := m ((c : Thread nD τ).loc main_arg4)
def aB2 : S128.Idx → EReal := m ((c : Thread nD τ).loc main_arg5)
def aW3 : S128x128.Idx → EReal := m ((c : Thread nD τ).loc main_arg6)
def aB3 : S128.Idx → EReal := m ((c : Thread nD τ).loc main_arg7)
def aWf : S128x16.Idx → EReal := m ((c : Thread nD τ).loc main_arg8)
def aBf : S16.Idx → EReal := m ((c : Thread nD τ).loc main_arg9)

/-- The node factor of the program's edge list. -/
def dinvF (ei : IVec S2x1600000 32) : Fin 100000 → EReal := fun r => Ideal.rsqrt (degV (dstV ei) (ix1 r))

/-- A table as a function of row and lane; a vector as a function of its entry. -/
def tab {a b : ℕ} (X : (⟨2, ![a, b]⟩ : Shape).Idx → EReal) : Fin a → Fin b → EReal := fun r k => X (ix2 r k)
def vec {a : ℕ} (v : (⟨1, ![a]⟩ : Shape).Idx → EReal) : Fin a → EReal := fun k => v (ix1 k)

/-! ## The node factor and the edge arrays at the launches' entries -/

theorem d1 : (V1 m ρ c main_v12 : S100000x1.Idx → EReal) = dcolV (dstV (aE m c)) := W1_v12 m ρ c
theorem d3 : (V3 m ρ c main_v12 : S100000x1.Idx → EReal) = dcolV (dstV (aE m c)) := (v12_const m ρ c).2.1.trans (W1_v12 m ρ c)
theorem d5 : (V5 m ρ c main_v12 : S100000x1.Idx → EReal) = dcolV (dstV (aE m c)) := (v12_const m ρ c).2.2.2.1.trans (W1_v12 m ρ c)
theorem d7 : (V7 m ρ c main_v12 : S100000x1.Idx → EReal) = dcolV (dstV (aE m c)) := (v12_const m ρ c).2.2.2.2.2.trans (W1_v12 m ρ c)

theorem s2 : (W2 m ρ c (Proc.devRef .tc main_v3) : IVec S1700000 32) = srcV (aE m c) := (v3_const m ρ c).1.trans (W1_v3 m ρ c)
theorem s4 : (W4 m ρ c (Proc.devRef .tc main_v3) : IVec S1700000 32) = srcV (aE m c) := (v3_const m ρ c).2.2.1.trans (W1_v3 m ρ c)
theorem s6 : (W6 m ρ c (Proc.devRef .tc main_v3) : IVec S1700000 32) = srcV (aE m c) := (v3_const m ρ c).2.2.2.2.1.trans (W1_v3 m ρ c)
theorem t2 : (W2 m ρ c (Proc.devRef .tc main_v6) : IVec S1700000 32) = dstV (aE m c) := (v6_const m ρ c).1.trans (W1_v6 m ρ c)
theorem t4 : (W4 m ρ c (Proc.devRef .tc main_v6) : IVec S1700000 32) = dstV (aE m c) := (v6_const m ρ c).2.2.1.trans (W1_v6 m ρ c)
theorem t6 : (W6 m ρ c (Proc.devRef .tc main_v6) : IVec S1700000 32) = dstV (aE m c) := (v6_const m ρ c).2.2.2.2.1.trans (W1_v6 m ρ c)

/-! ## Launch 0 -/

/-- Launch 0's output: what the first layer sends. -/
theorem out0 (r : Fin 100000) (j : Fin 128) :
    (W2 m ρ c (Proc.devRef .tc main_v13) : S100000x128.Idx → EReal) (ix2 r j)
      = sendK (dinvF (aE m c)) (tab (aX m c)) (tab (aW1 m c)) r j := by
  refine (congrArg (fun f : S100000x128.Idx → EReal => f (ix2 r j)) (W2_arr m ρ c 3)).trans ?_
  refine (KVal.region0 (V1 m ρ) c (aX m c) (aW1 m c) (dcolV (dstV (aE m c)))
    (arg0_const m ρ c).1 (arg2_const m ρ c).1 (d1 m ρ c) r j).trans ?_
  rw [dcolV_apply]
  rfl

/-- What the nodes collect after launch 0. -/
theorem agg1 (p : Fin 100000) (j : Fin 128) :
    (V3 m ρ c main_v24 : S100000x128.Idx → EReal) (ix2 p j)
      = aggK (wrapI (srcV (aE m c))) (colI (dstV (aE m c))) (sendK (dinvF (aE m c)) (tab (aX m c)) (tab (aW1 m c))) p j := by
  refine (congrArg (fun f : S100000x128.Idx → EReal => f (ix2 p j)) (W3_v24 m ρ c)).trans ?_
  rw [s2, t2, aggV_apply]
  exact congrArg (fun h => aggK _ _ h p j) (funext fun r => funext fun k => out0 m ρ c r k)

/-! ## Launch 1 -/

local notation "DI" => dinvF (aE m c)
local notation "SI" => wrapI (srcV (aE m c))
local notation "TI" => colI (dstV (aE m c))

/-- The bias rows at the launches' entries. -/
theorem b3 : (V3 m ρ c main_v25 : S1x128.Idx → EReal) = shapeCast S1x128 (aB1 m c) shapeCasts_S128_S1x128 :=
  (W3_v25 m ρ c).trans (congrArg (fun v : S128.Idx → EReal => shapeCast S1x128 v shapeCasts_S128_S1x128) (arg3_const m ρ c).2.1)
theorem b5 : (V5 m ρ c main_v38 : S1x128.Idx → EReal) = shapeCast S1x128 (aB2 m c) shapeCasts_S128_S1x128 :=
  (W5_v38 m ρ c).trans (congrArg (fun v : S128.Idx → EReal => shapeCast S1x128 v shapeCasts_S128_S1x128) (arg5_const m ρ c).2.2.2.1)
theorem b7 : (V7 m ρ c main_v51 : S1x128.Idx → EReal) = shapeCast S1x128 (aB3 m c) shapeCasts_S128_S1x128 :=
  (W7_v51 m ρ c).trans (congrArg (fun v : S128.Idx → EReal => shapeCast S1x128 v shapeCasts_S128_S1x128) (arg7_const m ρ c).2.2.2.2.2.1)
theorem bf7 : (V7 m ρ c main_v52 : S1x16.Idx → EReal) = shapeCast S1x16 (aBf m c) shapeCasts_S16_S1x16 :=
  (W7_v52 m ρ c).trans (congrArg (fun v : S16.Idx → EReal => shapeCast S1x16 v shapeCasts_S16_S1x16) (arg9_const m ρ c).2.2.2.2.2.1)

/-- Launch 1's output: what the second layer sends. -/
theorem out1 (r : Fin 100000) (j : Fin 128) :
    (W4 m ρ c (Proc.devRef .tc main_v26) : S100000x128.Idx → EReal) (ix2 r j)
      = sendK DI (actK DI (aggK SI TI (sendK DI (tab (aX m c)) (tab (aW1 m c)))) (vec (aB1 m c))) (tab (aW2 m c)) r j := by
  refine (congrArg (fun f : S100000x128.Idx → EReal => f (ix2 r j)) (W4_arr m ρ c 4)).trans ?_
  refine (KVal.region1 (V3 m ρ) c (V3 m ρ c main_v24) (dcolV (dstV (aE m c))) (shapeCast S1x128 (aB1 m c) shapeCasts_S128_S1x128) (aW2 m c)
    rfl (d3 m ρ c) (b3 m ρ c) (arg4_const m ρ c).2.2.1 r j).trans ?_
  simp only [dcolV_apply, shapeCast_b_1b_apply, agg1 m ρ c]
  rfl

/-- What the nodes collect after launch 1. -/
theorem agg2 (p : Fin 100000) (j : Fin 128) :
    (V5 m ρ c main_v37 : S100000x128.Idx → EReal) (ix2 p j)
      = aggK SI TI (sendK DI (actK DI (aggK SI TI (sendK DI (tab (aX m c)) (tab (aW1 m c)))) (vec (aB1 m c))) (tab (aW2 m c))) p j := by
  refine (congrArg (fun f : S100000x128.Idx → EReal => f (ix2 p j)) (W5_v37 m ρ c)).trans ?_
  rw [s4, t4, aggV_apply]
  exact congrArg (fun h => aggK _ _ h p j) (funext fun r => funext fun k => out1 m ρ c r k)

/-! ## Launch 2 -/

/-- Launch 2's output: what the third layer sends. -/
theorem out2 (r : Fin 100000) (j : Fin 128) :
    (W6 m ρ c (Proc.devRef .tc main_v39) : S100000x128.Idx → EReal) (ix2 r j)
      = sendK DI (actK DI (aggK SI TI (sendK DI (actK DI (aggK SI TI (sendK DI (tab (aX m c)) (tab (aW1 m c)))) (vec (aB1 m c)))
          (tab (aW2 m c)))) (vec (aB2 m c))) (tab (aW3 m c)) r j := by
  refine (congrArg (fun f : S100000x128.Idx → EReal => f (ix2 r j)) (W6_arr m ρ c 4)).trans ?_
  refine (KVal.region2 (V5 m ρ) c (V5 m ρ c main_v37) (dcolV (dstV (aE m c))) (shapeCast S1x128 (aB2 m c) shapeCasts_S128_S1x128) (aW3 m c)
    rfl (d5 m ρ c) (b5 m ρ c) (arg6_const m ρ c).2.2.2.2.1 r j).trans ?_
  simp only [dcolV_apply, shapeCast_b_1b_apply, agg2 m ρ c]
  rfl

/-- What the nodes collect after launch 2. -/
theorem agg3 (p : Fin 100000) (j : Fin 128) :
    (V7 m ρ c main_v50 : S100000x128.Idx → EReal) (ix2 p j)
      = aggK SI TI (sendK DI (actK DI (aggK SI TI (sendK DI (actK DI (aggK SI TI (sendK DI (tab (aX m c)) (tab (aW1 m c)))) (vec (aB1 m c)))
          (tab (aW2 m c)))) (vec (aB2 m c))) (tab (aW3 m c))) p j := by
  refine (congrArg (fun f : S100000x128.Idx → EReal => f (ix2 p j)) (W7_v50 m ρ c)).trans ?_
  rw [s6, t6, aggV_apply]
  exact congrArg (fun h => aggK _ _ h p j) (funext fun r => funext fun k => out2 m ρ c r k)

/-! ## Launch 3: the result -/

/-- The program's result buffer, at (p, q): the network with the factors applied at the nodes. -/
theorem result_apply (p : Fin 100000) (q : Fin 16) :
    (W8 m ρ c (Proc.devRef .tc main_v53) : S100000x16.Idx → EReal) (ix2 p q)
      = netK SI TI DI (tab (aX m c)) (tab (aW1 m c)) (vec (aB1 m c)) (tab (aW2 m c)) (vec (aB2 m c)) (tab (aW3 m c)) (vec (aB3 m c))
          (tab (aWf m c)) (vec (aBf m c)) p q := by
  refine (congrArg (fun f : S100000x16.Idx → EReal => f (ix2 p q)) (W8_arr m ρ c 5)).trans ?_
  refine (KVal.region3 (V7 m ρ) c (V7 m ρ c main_v50) (dcolV (dstV (aE m c))) (shapeCast S1x128 (aB3 m c) shapeCasts_S128_S1x128) (aWf m c)
    (shapeCast S1x16 (aBf m c) shapeCasts_S16_S1x16)
    rfl (d7 m ρ c) (b7 m ρ c) (arg8_const m ρ c).2.2.2.2.2.2 (bf7 m ρ c) p q).trans ?_
  simp only [dcolV_apply, shapeCast_b_1b_apply, agg3 m ρ c]
  rfl

end Cert.KernelIdeal.KChain

end
-- ==== Proof.LibRealValued.lean ====
/-
  Real-valued extended reals. An extended real is REAL when it is neither infinity. The reals among the extended
  reals are closed under sum, difference, product, negation, maximum, finite sums, the quotient by a NONZERO real,
  the guarded reciprocal (1 / z where z > 0, else 0) of a real z, and contain the value of every unsigned integer.
-/
import Idealize.ShloMosaic.PureOps.Ideal

noncomputable section

open scoped BigOperators

namespace Cert.LibRealValued

open Idealize.ShloMosaic

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases le_total x y with h | h
  · rw [max_eq_right h]; exact hy
  · rw [max_eq_left h]; exact hx

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The quotient of a real by a nonzero real is real. -/
theorem IsReal.div {x : EReal} (hx : IsReal x) {b : ℝ} (hb : b ≠ 0) : IsReal (Ideal.div x (b : EReal)) := by
  rw [Ideal.div_coe hb]; exact hx.mul (IsReal.coe _)

/-- The guarded reciprocal of a real — 1 / z where z > 0, else 0 — is real. -/
theorem IsReal.guardedRecip {z : EReal} (hz : IsReal z) :
    IsReal (Scalar.select (Ideal.cmp .ogt z 0) (Ideal.div 1 z) 0) := by
  obtain ⟨r, rfl⟩ := hz
  show IsReal (if BitVec.ofBool (decide ((0 : EReal) < (r : EReal))) = 1#1 then Ideal.div 1 (r : EReal) else 0)
  by_cases h : (0 : EReal) < (r : EReal)
  · have hr : r ≠ 0 := by
      have : (0 : ℝ) < r := by exact_mod_cast h
      exact ne_of_gt this
    rw [decide_eq_true h, if_pos (show BitVec.ofBool true = 1#1 by decide)]
    exact IsReal.one.div hr
  · rw [decide_eq_false h, if_neg (show ¬ BitVec.ofBool false = 1#1 by decide)]
    exact IsReal.zero

/-- The value of an unsigned integer is real. -/
theorem IsReal.uitofp {w : Nat} (b : BitVec w) : IsReal (FloatOps.uitofp (F := Ideal) .f32 b) :=
  ⟨(b.toNat : ℝ), rfl⟩

end Cert.LibRealValued

end
-- ==== Proof.LibDegree.lean ====
/-
  A degree count by an accumulating scatter into a vector, and its inverse square root.

  Scattering the entries of a length-R vector of updates into a length-N vector at an [R, 1] column of numbers lands update e —
  when its stored number, read signed, is a valid entry p — on entry p. Started from zeros and fed ones, the scatter counts at
  every entry the updates that land on it: an entry that at least one update lands on holds a natural number ≥ 1, and the
  inverse square root of such a number is a non-negative real.
-/
import Idealize.ShloMosaic.PureOps.Ideal
import Idealize.ShloMosaic.Lib.ValueIdx
import proofs.«161114_j30794915512600_2_alg».proof.Proof.LibRealValued

noncomputable section

namespace Cert.LibDegree

open Idealize.ShloMosaic Idealize.ShloMosaic.ValueIdx Cert.LibRealValued
open scoped BigOperators

/-! ## Where a scatter into a vector lands -/

/-- The dimension numbers of scattering entries into a vector: the operand's one axis is inserted and indexed by the one
    component of each scatter index; an update has no window axis. -/
abbrev vecScatterDims (N R : ℕ) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

private theorem vec_not_kept : (0 : Fin 1) ∉ (List.finRange 1).filter (fun a : Fin 1 => a ∉ ([0] : List (Fin 1))) := by decide

/-- An update whose stored number is the valid entry p lands on p. -/
theorem vec_lands {N R w : ℕ} (wf : ScatterDims.WF ⟨1, ![N]⟩ ⟨2, ![R, 1]⟩ ⟨1, ![R]⟩ [] [0] [0] 1)
    (idx : IVec ⟨2, ![R, 1]⟩ w) (e : Fin R) (p : Fin N) (h : (idx (ix2 e (0 : Fin 1))).toInt = (p.val : ℤ)) :
    (vecScatterDims N R wf).resultIdx? (ix1 e) idx = some (ix1 p) := by
  have hst : (vecScatterDims N R wf).start (ix1 e) idx (0 : Fin 1) = (idx (ix2 e (0 : Fin 1))).toInt := by
    unfold ScatterDims.start
    rw [dif_pos (show (0 : Fin 1) ∈ (vecScatterDims N R wf).scatterDimsToOperandDims from List.mem_singleton.mpr rfl)]
    have hsi : (vecScatterDims N R wf).siIdx (ix1 e) ⟨List.idxOf (0 : Fin 1) (vecScatterDims N R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (vecScatterDims N R wf).window (ix1 e) (0 : Fin 1) = 0 := by
    unfold ScatterDims.window
    rw [dif_neg (show (0 : Fin 1) ∉ (vecScatterDims N R wf).sKept from vec_not_kept)]
  have hin : ∀ a, 0 ≤ (vecScatterDims N R wf).start (ix1 e) idx a + (vecScatterDims N R wf).window (ix1 e) a
      ∧ (vecScatterDims N R wf).start (ix1 e) idx a + (vecScatterDims N R wf).window (ix1 e) a
        < (⟨1, ![N]⟩ : Shape).size a := by
    intro a
    match a with
    | ⟨0, _⟩ =>
      show 0 ≤ (vecScatterDims N R wf).start (ix1 e) idx (0 : Fin 1) + (vecScatterDims N R wf).window (ix1 e) (0 : Fin 1)
        ∧ (vecScatterDims N R wf).start (ix1 e) idx (0 : Fin 1) + (vecScatterDims N R wf).window (ix1 e) (0 : Fin 1) < (N : ℤ)
      rw [hst, hw, h]
      have := p.isLt
      omega
  unfold ScatterDims.resultIdx?
  rw [dif_pos hin]
  refine congrArg some ?_
  funext a
  refine Fin.ext ?_
  match a with
  | ⟨0, _⟩ =>
    show ((vecScatterDims N R wf).start (ix1 e) idx (0 : Fin 1) + (vecScatterDims N R wf).window (ix1 e) (0 : Fin 1)).toNat = p.val
    rw [hst, hw, h]
    omega

/-! ## The degree and the factor -/

/-- A sum of ones over a finite set is its number of elements. -/
theorem sum_ones {ι : Type} (S : Finset ι) : ∑ _j ∈ S, (1 : EReal) = ((S.card : ℝ) : EReal) := by
  classical
  induction S using Finset.induction_on with
  | empty => simp
  | insert a s ha ih =>
    rw [Finset.sum_insert ha, ih, Finset.card_insert_of_notMem ha, ← EReal.coe_one, ← EReal.coe_add]
    exact congrArg Real.toEReal (by push_cast; ring)

/-- The degree of a node that some slot lands on — ones added up from zero over the slots landing on it — is a natural number ≥ 1. -/
theorem deg_pos {N R w : ℕ} (wf : ScatterDims.WF ⟨1, ![N]⟩ ⟨2, ![R, 1]⟩ ⟨1, ![R]⟩ [] [0] [0] 1)
    (idx : IVec ⟨2, ![R, 1]⟩ w) (z : (⟨1, ![N]⟩ : Shape).Idx → EReal) (hz : ∀ i, z i = 0)
    (u : (⟨1, ![R]⟩ : Shape).Idx → EReal) (hu : ∀ j, u j = 1)
    (p : Fin N) (e : Fin R) (h : (idx (ix2 e (0 : Fin 1))).toInt = (p.val : ℤ)) :
    ∃ n : ℕ, 1 ≤ n ∧ Ideal.hostScatterAdd (vecScatterDims N R wf) z idx u (ix1 p) = ((n : ℝ) : EReal) := by
  classical
  refine ⟨(Finset.univ.filter (fun j => (vecScatterDims N R wf).resultIdx? j idx = some (ix1 p))).card, ?_, ?_⟩
  · exact Finset.card_pos.mpr ⟨ix1 e, Finset.mem_filter.mpr ⟨Finset.mem_univ _, vec_lands wf idx e p h⟩⟩
  · unfold Ideal.hostScatterAdd
    rw [hz, zero_add, ← sum_ones]
    exact Finset.sum_congr rfl (fun j _ => hu j)

/-- The same for the host operation. -/
theorem host_deg_pos {N R w : ℕ} (wf : ScatterDims.WF ⟨1, ![N]⟩ ⟨2, ![R, 1]⟩ ⟨1, ![R]⟩ [] [0] [0] 1)
    (idx : IVec ⟨2, ![R, 1]⟩ w) (z : FVec Ideal ⟨1, ![N]⟩ .f32) (hz : ∀ i, z i = 0)
    (u : FVec Ideal ⟨1, ![R]⟩ .f32) (hu : ∀ j, u j = 1)
    (p : Fin N) (e : Fin R) (h : (idx (ix2 e (0 : Fin 1))).toInt = (p.val : ℤ)) :
    ∃ n : ℕ, 1 ≤ n ∧ Host.scatterAdd (F := Ideal) (φ := .f32) (vecScatterDims N R wf) z idx u (ix1 p) = ((n : ℝ) : EReal) :=
  deg_pos wf idx z hz u hu p e h

/-- The inverse square root of a natural number ≥ 1 is a non-negative real. -/
theorem rsqrt_nat {n : ℕ} (hn : 1 ≤ n) : 0 ≤ Ideal.rsqrt ((n : ℝ) : EReal) ∧ IsReal (Ideal.rsqrt ((n : ℝ) : EReal)) := by
  have hpos : (0 : ℝ) < (n : ℝ) := by exact_mod_cast hn
  rw [Ideal.rsqrt_coe, if_neg (not_lt.mpr hpos.le), if_neg hpos.ne']
  exact ⟨by exact_mod_cast inv_nonneg.mpr (Real.sqrt_nonneg _), IsReal.coe _⟩

end Cert.LibDegree

end
-- ==== Proof.GcnPrefix.lean ====
/-
  The edge arrays of the graph network and the node factor dinv.

  The destination array is the given destinations followed by the node counter 0, 1, …, 99999 (one self-loop per node), so slot
  1600000 + p stores p: every node p has at least one slot landing on it, its degree — a sum of ones over those slots — is a
  natural number ≥ 1, and dinv(p) = 1/√deg(p) is a positive real. A slot that lands on p stores the valid row p, which jnp's
  wrap of negative row numbers leaves alone, so the row a gather reads at the wrapped number is p.
-/
import Idealize.ShloMosaic.PureOps.Ideal
import Idealize.ShloMosaic.Lib.ValueIdx
import Idealize.ShloMosaic.Lib.Pipeline.Value
import proofs.«161114_j30794915512600_2_alg».proof.Proof.GcnDefs
import proofs.«161114_j30794915512600_2_alg».proof.Proof.LibRowIndex
import proofs.«161114_j30794915512600_2_alg».proof.Proof.LibColRow
import proofs.«161114_j30794915512600_2_alg».proof.Proof.LibRealValued
import proofs.«161114_j30794915512600_2_alg».proof.Proof.LibDegree
import proofs.«161114_j30794915512600_2_alg».proof.Proof.LibF32Literals

noncomputable section

namespace Cert.Gcn.Prefix

open Idealize.ShloMosaic Idealize.ShloMosaic.ValueIdx Cert.LibGatherRows Cert.LibRowIndex Cert.LibRowAggLinear Cert.LibRealValued
open scoped BigOperators

/-! ## The self-loops -/

/-- Slot 1600000 + p of "the given numbers followed by the counter", as a column, stores p. -/
theorem selfloop_toInt (a : IVec ⟨1, ![1600000]⟩ 32)
    (hc : Shape.Concatenates [(⟨1, ![1600000]⟩ : Shape), ⟨1, ![100000]⟩] ⟨1, ![1700000]⟩ (0 : Fin 1))
    (hb : (⟨1, ![1700000]⟩ : Shape).BroadcastsInDim ⟨2, ![1700000, 1]⟩ (![0] : Fin 1 → Fin 2))
    (p : Fin 100000) (e : Fin 1700000) (he : e.val = 1600000 + p.val) :
    (broadcastInDim ⟨2, ![1700000, 1]⟩ (![0] : Fin 1 → Fin 2) hb
      (concatenate ⟨1, ![1700000]⟩ (0 : Fin 1) [⟨⟨1, ![1600000]⟩, a⟩, ⟨⟨1, ![100000]⟩, iotaInDim ⟨1, ![100000]⟩ 32 (0 : Fin 1)⟩] hc)
      (ix2 e (0 : Fin 1))).toInt = (p.val : ℤ) := by
  rw [Cert.LibColRow.bcast_a_a1_apply]
  rw [concatenate_pair_apply_right (0 : Fin 1) a (iotaInDim ⟨1, ![100000]⟩ 32 (0 : Fin 1)) hc (ix1 e) rfl rfl (ix1 p)
    (fun b hb => absurd (Subsingleton.elim _ _) hb) (by show p.val + 1600000 = e.val; omega)]
  show (BitVec.ofNat 32 p.val).toInt = (p.val : ℤ)
  have := p.isLt
  have hmod : p.val % 2 ^ 32 = p.val := Nat.mod_eq_of_lt (by omega)
  rw [BitVec.toInt_eq_toNat_cond, BitVec.toNat_ofNat, hmod]
  have h32 : (2 : ℕ) ^ 32 = 4294967296 := by norm_num
  rw [h32]
  split <;> omega

/-! ## The wrapped destination -/

/-- On a slot that lands on node p, the gather at the wrapped destination number reads row p. -/
theorem wrapped_row (dst : IVec ⟨1, ![1700000]⟩ 32) (c0 c1 : IVec ⟨1, ![1700000]⟩ 32)
    (h0 : ∀ i, c0 i = 0#32)
    (hb : (⟨1, ![1700000]⟩ : Shape).BroadcastsInDim ⟨2, ![1700000, 1]⟩ (![0] : Fin 1 → Fin 2))
    (p : Fin 100000) (e : Fin 1700000)
    (he : e ∈ landsOn (broadcastInDim ⟨2, ![1700000, 1]⟩ (![0] : Fin 1 → Fin 2) hb dst) p) :
    rowOf n_pos (broadcastInDim ⟨2, ![1700000, 1]⟩ (![0] : Fin 1 → Fin 2) hb
      (select (cmpi .slt dst c0) (addi dst c1) dst)) e = p := by
  have hl := (mem_landsOn _ p e).mp he
  rw [Cert.LibColRow.bcast_a_a1_apply] at hl
  refine rowOf_of_toInt n_pos _ e p ?_
  rw [Cert.LibColRow.bcast_a_a1_apply]
  show (Scalar.select (IntOp.cmpi .slt (dst (ix1 e)) (c0 (ix1 e))) (IntOp.addi (dst (ix1 e)) (c1 (ix1 e))) (dst (ix1 e))).toInt = _
  rw [h0, wrap_of_nonneg _ _ (by rw [hl]; exact Int.natCast_nonneg _)]
  exact hl

end Cert.Gcn.Prefix

end
-- ==== Proof.KDinv.lean ====
/-
  The node factor of the kernel program's edge arrays is a non-negative real, and the wrapped destination of a slot that
  lands on a node is that node.
-/
import proofs.«161114_j30794915512600_2_alg».proof.Proof.KHost
import proofs.«161114_j30794915512600_2_alg».proof.Proof.GcnPrefix
import proofs.«161114_j30794915512600_2_alg».proof.Proof.LibF32Literals

noncomputable section

namespace Cert.KernelIdeal.KDinv

open Idealize.ShloMosaic Idealize.ShloMosaic.ValueIdx
open Cert.KernelIdeal Cert.KernelIdeal.Gen Cert.KernelIdeal.KHost Cert.LibGatherRows Cert.LibRowIndex Cert.LibRowAggLinear
open Cert.LibRealValued Cert.LibDegree Cert.Gcn Cert.Gcn.Prefix

/-- The printed vector-scatter record is the one of "entries added into the entries named by a column of numbers". -/
theorem vec_scatter_eq : scatter_S100000_S1700000x1_S1700000_n_0_0_1
    = vecScatterDims 100000 1700000 Facts₀.scatter_S100000_S1700000x1_S1700000_n_0_0_1_wf := rfl

/-- Slot 1600000 + r of the destination column stores r. -/
theorem dst_selfloop (ei : IVec S2x1600000 32) (r : Fin 100000) (e : Fin 1700000) (he : e.val = 1600000 + r.val) :
    (colI (dstV ei) (ix2 e (0 : Fin 1))).toInt = (r.val : ℤ) := by
  unfold colI dstV endsV
  have := selfloop_toInt
    (shapeCast S1600000 (extractStridedSlice S1x1600000 ![1, 0] ei slices_S2x1600000_S1x1600000_1_0) shapeCasts_S1x1600000_S1600000)
    concatenates_S1600000_S100000_S1700000_d0 bcast_S1700000_S1700000x1_0 r e he
  exact this

/-- The degree of node r is a natural number ≥ 1. -/
theorem deg_nat (ei : IVec S2x1600000 32) (r : Fin 100000) :
    ∃ n : ℕ, 1 ≤ n ∧ degV (dstV ei) (ix1 r) = ((n : ℝ) : EReal) := by
  have hr := r.isLt
  have hsl := dst_selfloop ei r ⟨1600000 + r.val, by omega⟩ rfl
  unfold degV
  rw [vec_scatter_eq]
  generalize colI (dstV ei) = idx at hsl ⊢
  have := host_deg_pos Facts₀.scatter_S100000_S1700000x1_S1700000_n_0_0_1_wf idx
    (broadcastInDim S100000 ![] bcast_S_S100000 (constant (F := Ideal) S_ .f32 0x00000000#32)) (fun i => Cert.LibF32Literals.ofBits_zero)
    (broadcastInDim S1700000 ![] bcast_S_S1700000 (constant (F := Ideal) S_ .f32 0x3F800000#32)) (fun j => Cert.LibF32Literals.ofBits_one)
    r ⟨1600000 + r.val, by omega⟩ hsl
  exact this

/-- The node factor is a non-negative real. -/
theorem dinv_facts (ei : IVec S2x1600000 32) (r : Fin 100000) :
    0 ≤ Ideal.rsqrt (degV (dstV ei) (ix1 r)) ∧ IsReal (Ideal.rsqrt (degV (dstV ei) (ix1 r))) := by
  obtain ⟨n, hn, h⟩ := deg_nat ei r
  rw [h]
  exact rsqrt_nat hn

/-- On a slot that lands on node p, the gather at the wrapped destination reads row p. -/
theorem wrapped_dst (ei : IVec S2x1600000 32) (p : Fin 100000) (e : Fin 1700000)
    (he : e ∈ landsOn (colI (dstV ei)) p) : rowOf n_pos (wrapI (dstV ei)) e = p := by
  generalize dstV ei = dst at he ⊢
  unfold colI at he
  unfold wrapI
  have := wrapped_row dst (broadcastInDim S1700000 ![] bcast_S_S1700000 (constantI S_ 32 0#32))
    (broadcastInDim S1700000 ![] bcast_S_S1700000 (constantI S_ 32 100000#32)) (fun _ => rfl) bcast_S1700000_S1700000x1_0 p e he
  exact this

end Cert.KernelIdeal.KDinv

end
-- ==== Proof.LibScatterScale.lean ====
/-
  Scaling the result of an accumulating scatter by a non-negative finite factor.

  Over the extended reals multiplication by a factor x distributes over a sum as soon as 0 ≤ x < ⊤, whatever the summands
  (infinite ones included). An accumulating scatter from the zero array puts at each element the sum of the updates that land
  on it. So if every update landing on element i is, in a second array of updates, multiplied by one factor x (that may depend
  on i), the second scatter's element i is the first one's times x: (∑ u) · x = ∑ (u · x).

  Also here: the inverse square root of a count, guarded against zero as  select(d > 0, rsqrt d, 0),  is non-negative and
  finite for every extended real d (at ⊥ and at d ≤ 0 it is 0, at ⊤ it is 0, at a positive real it is 1/√d).
-/
import Idealize.ShloMosaic.PureOps.Ideal

namespace Cert.LibScatterScale

open Idealize.ShloMosaic

/-- A finite sum of extended reals times a non-negative finite factor is the sum of the products. -/
theorem sum_mul_of_nonneg_of_ne_top {ι : Type} (S : Finset ι) (f : ι → EReal) {x : EReal} (h0 : 0 ≤ x) (ht : x ≠ ⊤) :
    (∑ j ∈ S, f j) * x = ∑ j ∈ S, f j * x := by
  classical
  induction S using Finset.induction_on with
  | empty => simp
  | insert a s ha ih =>
    rw [Finset.sum_insert ha, Finset.sum_insert ha, EReal.right_distrib_of_nonneg_of_ne_top h0 ht, ih]

/-- An accumulating scatter from the zero array: if each update that lands on element `i` is, in `upd'`, the one of `upd`
    times `x`, then element `i` of the scatter of `upd'` is element `i` of the scatter of `upd`, times `x`. -/
theorem hostScatterAdd_zero_mul {s si su : Shape} (d : ScatterDims s si su) {w : ℕ} (idx : IVec si w)
    (upd upd' : su.Idx → EReal) (i : s.Idx) {x : EReal} (h0 : 0 ≤ x) (ht : x ≠ ⊤)
    (h : ∀ j, d.resultIdx? j idx = some i → upd' j = upd j * x) :
    Ideal.hostScatterAdd d (fun _ => 0) idx upd' i = Ideal.hostScatterAdd d (fun _ => 0) idx upd i * x := by
  unfold Ideal.hostScatterAdd
  rw [EReal.right_distrib_of_nonneg_of_ne_top h0 ht, zero_mul, sum_mul_of_nonneg_of_ne_top _ _ h0 ht]
  congr 1
  exact Finset.sum_congr rfl (fun j hj => h j (Finset.mem_filter.mp hj).2)

/-- The same for the host operation, started from an array that is zero everywhere. -/
theorem host_scatterAdd_zero_mul {φ : FTy} {s si su : Shape} (d : ScatterDims s si su) {w : ℕ}
    (z : s.Idx → EReal) (hz : z = fun _ => 0) (idx : IVec si w)
    (upd upd' : su.Idx → EReal) (i : s.Idx) {x : EReal} (h0 : 0 ≤ x) (ht : x ≠ ⊤)
    (h : ∀ j, d.resultIdx? j idx = some i → upd' j = upd j * x) :
    Host.scatterAdd (F := Ideal) (φ := φ) d z idx upd' i = Host.scatterAdd (F := Ideal) (φ := φ) d z idx upd i * x := by
  subst hz
  exact hostScatterAdd_zero_mul d idx upd upd' i h0 ht h

/-- The guarded inverse square root `select(d > 0, rsqrt d, 0)` is non-negative and finite at every extended real. -/
theorem guarded_rsqrt_nonneg_ne_top (d : EReal) :
    0 ≤ Scalar.select (Ideal.cmp .ogt d 0) (Ideal.rsqrt d) 0 ∧ Scalar.select (Ideal.cmp .ogt d 0) (Ideal.rsqrt d) 0 ≠ ⊤ := by
  induction d using EReal.rec with
  | bot => simp [Scalar.select, Ideal.cmp]
  | top => simp [Scalar.select, Ideal.cmp]
  | coe r =>
    by_cases hr : 0 < r
    · have h1 : Ideal.cmp .ogt (r : EReal) 0 = 1 := by simp [Ideal.cmp, hr]
      have h2 : Ideal.rsqrt (r : EReal) = (((Real.sqrt r)⁻¹ : ℝ) : EReal) := by
        rw [Ideal.rsqrt_coe, if_neg (not_lt.mpr hr.le), if_neg hr.ne']
      rw [Scalar.select, if_pos h1, h2]
      exact ⟨by exact_mod_cast inv_nonneg.mpr (Real.sqrt_nonneg r), EReal.coe_ne_top _⟩
    · have h1 : Ideal.cmp .ogt (r : EReal) 0 ≠ 1 := by simp [Ideal.cmp, hr]
      rw [Scalar.select, if_neg h1]
      exact ⟨le_refl _, EReal.zero_ne_top⟩

end Cert.LibScatterScale
-- ==== Proof.GcnAlgebra.lean ====
/-
  The two arrangements of the graph network compute the same numbers.

  One layer. With s(e) the source row of edge slot e and L(p) the slots that land on node p,
      (Σ_{e ∈ L(p)} h(s e)·dinv(s e)) · dinv(p)  =  Σ_{e ∈ L(p)} h(s e)·(dinv(s e)·dinv(p)),
  because multiplication by a factor 0 ≤ dinv(p) < ∞ distributes over a finite sum of extended reals whatever the summands
  are, and on a slot that lands on p the destination factor read through the wrapped row number is dinv(p) itself. So after
  the bias and ELU a layer is the same in both arrangements, for arbitrary extended-real features.

  The head. For real logits z with maximum m and ℓ = log Σ exp(z − m), both real,  z − (m + ℓ) = (z − m) − ℓ.  The logits are
  real because every quantity of the network is: features, weights and biases are real by hypothesis, dinv is real, and sums,
  products and ELU of reals are real.
-/
import proofs.«161114_j30794915512600_2_alg».proof.Proof.GcnDefs
import proofs.«161114_j30794915512600_2_alg».proof.Proof.LibScatterScale
import proofs.«161114_j30794915512600_2_alg».proof.Proof.LibRealValued

noncomputable section

namespace Cert.Gcn

open Idealize.ShloMosaic Idealize.ShloMosaic.ValueIdx Cert.LibGatherRows Cert.LibRowAggLinear Cert.LibRealValued
open scoped BigOperators

/-! ## ELU and log-softmax on real numbers -/

theorem isReal_elu {v : EReal} (hv : IsReal v) : IsReal (elu v) := by
  obtain ⟨r, rfl⟩ := hv
  unfold elu
  split
  · exact IsReal.coe r
  · rw [Ideal.exp_coe]; exact (IsReal.coe _).sub IsReal.one

/-- The largest of finitely many reals, at least one of them, is real. -/
theorem isReal_rowMax {n : ℕ} (z : Fin n → EReal) (hz : ∀ k, IsReal (z k)) (q : Fin n) : IsReal (rowMax z) := by
  unfold rowMax
  have key : ∀ s : Finset (Fin n), s.Nonempty → IsReal (s.fold max ⊥ z) := by
    intro s hs
    induction hs using Finset.Nonempty.cons_induction with
    | singleton a => rw [Finset.fold_singleton, max_bot_right]; exact hz a
    | cons a s ha hs ih => rw [Finset.fold_cons]; exact (hz a).max ih
  exact key Finset.univ ⟨q, Finset.mem_univ q⟩

/-- A sum of exponentials of reals, at least one of them, is a positive real. -/
theorem sum_exp_pos {n : ℕ} (y : Fin n → EReal) (hy : ∀ k, IsReal (y k)) (q : Fin n) :
    ∃ r : ℝ, 0 < r ∧ ∑ k, Ideal.exp (y k) = (r : EReal) := by
  choose y' hy' using hy
  refine ⟨∑ k, Real.exp (y' k), Finset.sum_pos (fun k _ => Real.exp_pos _) ⟨q, Finset.mem_univ q⟩, ?_⟩
  rw [coe_sum]
  exact Finset.sum_congr rfl (fun k _ => by rw [hy' k, Ideal.exp_coe])

/-- On real logits the two log-softmax spellings agree. -/
theorem lsmK_eq_lsmR {n : ℕ} (z : Fin n → EReal) (hz : ∀ k, IsReal (z k)) (q : Fin n) : lsmK z q = lsmR z q := by
  unfold lsmK lsmR
  obtain ⟨mm, hm⟩ := isReal_rowMax z hz q
  obtain ⟨s, hs0, hs⟩ := sum_exp_pos (fun k => z k - rowMax z) (fun k => (hz k).sub ⟨mm, hm⟩) q
  obtain ⟨a, ha⟩ := hz q
  rw [hs, Ideal.log_coe, if_neg (not_le.mpr hs0), hm, ha]
  rw [← EReal.coe_add, ← EReal.coe_sub, ← EReal.coe_sub, ← EReal.coe_sub]
  congr 1
  ring

/-! ## One layer -/

section Layer

variable (sI dI dwI : IVec ⟨2, ![1700000, 1]⟩ 32) (dinv : Fin 100000 → EReal)

/-- One layer is the same in both arrangements, whatever the features. -/
theorem actK_eq_elu_convR {C : ℕ} (hd0 : ∀ p, 0 ≤ dinv p) (hdt : ∀ p, dinv p ≠ ⊤)
    (hdw : ∀ p e, e ∈ landsOn dI p → rowOf n_pos dwI e = p)
    (Y : Fin 100000 → Fin 128 → EReal) (W : Fin 128 → Fin C → EReal) (b : Fin C → EReal) (p : Fin 100000) (c : Fin C) :
    actK dinv (aggK sI dI (sendK dinv Y W)) b p c = elu (convR sI dI dwI dinv Y W b p c) := by
  unfold actK aggK sendK convR
  refine congrArg elu (congrArg (· + b c) ?_)
  rw [Cert.LibScatterScale.sum_mul_of_nonneg_of_ne_top _ _ (hd0 p) (hdt p)]
  refine Finset.sum_congr rfl (fun e he => ?_)
  rw [hdw p e he, mul_assoc]

/-- What is sent, collected and activated is real when the features, weights, bias and factors are. -/
theorem isReal_actK {C : ℕ} (hdr : ∀ p, IsReal (dinv p))
    (Y : Fin 100000 → Fin 128 → EReal) (hY : ∀ p c, IsReal (Y p c)) (W : Fin 128 → Fin C → EReal) (hW : ∀ j c, IsReal (W j c))
    (b : Fin C → EReal) (hb : ∀ c, IsReal (b c)) (p : Fin 100000) (c : Fin C) :
    IsReal (actK dinv (aggK sI dI (sendK dinv Y W)) b p c) := by
  unfold actK aggK sendK
  refine isReal_elu (((IsReal.sum _ _ fun e _ => ?_).mul (hdr p)).add (hb c))
  exact (IsReal.sum _ _ fun j _ => (hY _ j).mul (hW j c)).mul (hdr _)

end Layer

/-! ## The network -/

/-- The two arrangements of the whole network agree on real inputs. -/
theorem netK_eq_netR (sI dI dwI : IVec ⟨2, ![1700000, 1]⟩ 32) (dinv : Fin 100000 → EReal)
    (hd0 : ∀ p, 0 ≤ dinv p) (hdr : ∀ p, IsReal (dinv p))
    (hdw : ∀ p e, e ∈ landsOn dI p → rowOf n_pos dwI e = p)
    (x : Fin 100000 → Fin 128 → EReal) (W1 : Fin 128 → Fin 128 → EReal) (b1 : Fin 128 → EReal)
    (W2 : Fin 128 → Fin 128 → EReal) (b2 : Fin 128 → EReal) (W3 : Fin 128 → Fin 128 → EReal) (b3 : Fin 128 → EReal)
    (Wfc : Fin 128 → Fin 16 → EReal) (bfc : Fin 16 → EReal)
    (hx : ∀ p c, IsReal (x p c)) (hW1 : ∀ j c, IsReal (W1 j c)) (hb1 : ∀ c, IsReal (b1 c))
    (hW2 : ∀ j c, IsReal (W2 j c)) (hb2 : ∀ c, IsReal (b2 c)) (hW3 : ∀ j c, IsReal (W3 j c)) (hb3 : ∀ c, IsReal (b3 c))
    (hWfc : ∀ j c, IsReal (Wfc j c)) (hbfc : ∀ c, IsReal (bfc c)) (p : Fin 100000) (q : Fin 16) :
    netK sI dI dinv x W1 b1 W2 b2 W3 b3 Wfc bfc p q = netR sI dI dwI dinv x W1 b1 W2 b2 W3 b3 Wfc bfc p q := by
  have hdt : ∀ p, dinv p ≠ ⊤ := fun p => by obtain ⟨r, hr⟩ := hdr p; rw [hr]; exact EReal.coe_ne_top r
  unfold netK netR
  -- the three layers, as functions of the node and the lane
  have e1 : actK dinv (aggK sI dI (sendK dinv x W1)) b1 = fun p c => elu (convR sI dI dwI dinv x W1 b1 p c) :=
    funext fun p => funext fun c => actK_eq_elu_convR sI dI dwI dinv hd0 hdt hdw x W1 b1 p c
  have r1 : ∀ p c, IsReal (actK dinv (aggK sI dI (sendK dinv x W1)) b1 p c) :=
    fun p c => isReal_actK sI dI dinv hdr x hx W1 hW1 b1 hb1 p c
  generalize actK dinv (aggK sI dI (sendK dinv x W1)) b1 = Y1 at e1 r1 ⊢
  have e2 : actK dinv (aggK sI dI (sendK dinv Y1 W2)) b2 = fun p c => elu (convR sI dI dwI dinv Y1 W2 b2 p c) :=
    funext fun p => funext fun c => actK_eq_elu_convR sI dI dwI dinv hd0 hdt hdw Y1 W2 b2 p c
  have r2 : ∀ p c, IsReal (actK dinv (aggK sI dI (sendK dinv Y1 W2)) b2 p c) :=
    fun p c => isReal_actK sI dI dinv hdr Y1 r1 W2 hW2 b2 hb2 p c
  generalize actK dinv (aggK sI dI (sendK dinv Y1 W2)) b2 = Y2 at e2 r2 ⊢
  have e3 : actK dinv (aggK sI dI (sendK dinv Y2 W3)) b3 = fun p c => elu (convR sI dI dwI dinv Y2 W3 b3 p c) :=
    funext fun p => funext fun c => actK_eq_elu_convR sI dI dwI dinv hd0 hdt hdw Y2 W3 b3 p c
  have r3 : ∀ p c, IsReal (actK dinv (aggK sI dI (sendK dinv Y2 W3)) b3 p c) :=
    fun p c => isReal_actK sI dI dinv hdr Y2 r2 W3 hW3 b3 hb3 p c
  generalize actK dinv (aggK sI dI (sendK dinv Y2 W3)) b3 = Y3 at e3 r3 ⊢
  rw [lsmK_eq_lsmR _ (fun k => (IsReal.sum _ _ fun c _ => (r3 p c).mul (hWfc c k)).add (hbfc k)) q]
  subst e1
  subst e2
  subst e3
  rfl

end Cert.Gcn

end
-- ==== Proof.KValue.lean ====
/-
  The kernel program's result as the graph network with messages scaled on the edge slots, for real arguments.
-/
import proofs.«161114_j30794915512600_2_alg».proof.Proof.KChain
import proofs.«161114_j30794915512600_2_alg».proof.Proof.KDinv
import proofs.«161114_j30794915512600_2_alg».proof.Proof.GcnAlgebra

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KHost Cert.KernelIdeal.KChain Cert.KernelIdeal.KDinv
open Cert.Gcn Cert.LibRealValued

variable (m : (ℓ : Loc nD τ sig) → Buf (Elt Ideal) ℓ) (ρ : Dev nD → PrngReg) (c : Dev nD)

/-- With real features, weights and biases, the result buffer holds the network in the arrangement that scales every message
    on its edge slot: the node factor is a non-negative real and a slot's wrapped destination is the node it lands on, so
    the two arrangements agree. -/
theorem result_netR
    (hx : ∀ i, IsReal (aX m c i)) (hW1 : ∀ i, IsReal (aW1 m c i)) (hb1 : ∀ i, IsReal (aB1 m c i))
    (hW2 : ∀ i, IsReal (aW2 m c i)) (hb2 : ∀ i, IsReal (aB2 m c i)) (hW3 : ∀ i, IsReal (aW3 m c i)) (hb3 : ∀ i, IsReal (aB3 m c i))
    (hWf : ∀ i, IsReal (aWf m c i)) (hbf : ∀ i, IsReal (aBf m c i)) (p : Fin 100000) (q : Fin 16) :
    (W8 m ρ c (Proc.devRef .tc main_v53) : S100000x16.Idx → EReal) (ix2 p q)
      = netR (wrapI (srcV (aE m c))) (colI (dstV (aE m c))) (wrapI (dstV (aE m c))) (dinvF (aE m c))
          (tab (aX m c)) (tab (aW1 m c)) (vec (aB1 m c)) (tab (aW2 m c)) (vec (aB2 m c)) (tab (aW3 m c)) (vec (aB3 m c))
          (tab (aWf m c)) (vec (aBf m c)) p q :=
  (result_apply m ρ c p q).trans
    (netK_eq_netR _ _ (wrapI (dstV (aE m c))) (dinvF (aE m c))
      (fun r => (dinv_facts (aE m c) r).1) (fun r => (dinv_facts (aE m c) r).2)
      (fun p e he => wrapped_dst (aE m c) p e he)
      _ _ _ _ _ _ _ _ _
      (fun r k => hx _) (fun j k => hW1 _) (fun k => hb1 _) (fun j k => hW2 _) (fun k => hb2 _) (fun j k => hW3 _) (fun k => hb3 _)
      (fun j k => hWf _) (fun k => hbf _) p q)

end Cert.KernelIdeal.KValue

end
-- ==== Proof.RefDefs.lean ====
/-
  The reference program's result as a composed term of its ten argument arrays, stage by stage.

  An index prelude builds, from the edge list, the source and destination row of every edge slot (the given edges followed by
  one self-loop per node), the per-node factor 1/sqrt(degree) and the per-slot product of the two factors. A layer is a matrix
  product, its rows gathered along the slots, scaled on the slot, added up at the destination rows, plus a bias, through the
  activation. The head is a matrix product, a bias and log-softmax.
-/
import proofs.«161114_j30794915512600_2_alg».proof.Proof.Gen.ReferenceIdeal
import Idealize.ShloMosaic.PureOps.Ideal

noncomputable section

namespace Cert.ReferenceIdeal.RefRun

open Cert.ReferenceIdeal Cert.ReferenceIdeal.Gen Idealize.ShloMosaic

variable {F : FTy → Type} [FloatOps F]

/-! ## What the stretches compute -/

/-- Every edge slot's stored source row: the given edges' first row, then one slot per node holding the node's own number. -/
def srcIdx (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩, ⟨S100000, iotaInDim S100000 32 0⟩]
    concatenates_S1600000_S100000_S1700000_d0

/-- Every edge slot's stored destination row: the given edges' second row, then the nodes' own numbers. -/
def dstIdx (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩, ⟨S100000, iotaInDim S100000 32 0⟩]
    concatenates_S1600000_S100000_S1700000_d0

/-- Row numbers as a one-column array of start indices. -/
def colIdx (v : IVec S1700000 32) : IVec S1700000x1 32 :=
  broadcastInDim S1700000x1 ![0] bcast_S1700000_S1700000x1_0 v

/-- Row numbers with the negative ones moved up by the number of nodes, as a one-column array of start indices. -/
def wrapIdx (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- The source rows the gathers read. -/
def srcW (ei : IVec S2x1600000 32) : IVec S1700000x1 32 := wrapIdx (srcIdx ei)
/-- The destination rows the scatters read. -/
def dstRaw (ei : IVec S2x1600000 32) : IVec S1700000x1 32 := colIdx (dstIdx ei)
/-- The destination rows the gather of the per-node factor reads. -/
def dstW (ei : IVec S2x1600000 32) : IVec S1700000x1 32 := wrapIdx (dstIdx ei)

/-- The per-node factor: one over the square root of the number of slots that land on the node. -/
def dinvOf (d : IVec S1700000 32) : FVec F S100000 .f32 :=
  Host.rsqrt (Host.scatterAdd scatter_S100000_S1700000x1_S1700000_n_0_0_1
    (broadcastInDim S100000 ![] bcast_S_S100000 (constant S_ .f32 0x00000000#32)) (colIdx d)
    (broadcastInDim S1700000 ![] bcast_S_S1700000 (constant S_ .f32 0x3F800000#32)))

/-- The per-node factor of the edge list. -/
def dinvV (ei : IVec S2x1600000 32) : FVec F S100000 .f32 := dinvOf (dstIdx ei)

/-- The per-slot factor: the source node's factor times the destination node's. -/
def normOf (s d : IVec S1700000 32) : FVec F S1700000 .f32 :=
  mulf (Host.gather gather_S100000_S1700000x1_S1700000_n_0_n_n_0_1_1 (dinvOf d) (wrapIdx s))
    (Host.gather gather_S100000_S1700000x1_S1700000_n_0_n_n_0_1_1 (dinvOf d) (wrapIdx d))

/-- The per-slot factor of the edge list. -/
def normV (ei : IVec S2x1600000 32) : FVec F S1700000 .f32 := normOf (srcIdx ei) (dstIdx ei)

/-- One layer before its activation: the features times the weights, rows gathered along the slots' sources, scaled by the
    per-slot factor, added up at the slots' destinations, plus the bias. -/
def convT (h : FVec F S100000x128 .f32) (W : FVec F S128x128 .f32) (b : FVec F S128 .f32) (s d : IVec S1700000 32)
    (nrm : FVec F S1700000 .f32) : FVec F S100000x128 .f32 :=
  addf
    (Host.scatterAdd scatter_S100000x128_S1700000x1_S1700000x128_1_0_0_1
      (broadcastInDim S100000x128 ![] bcast_S_S100000x128 (constant S_ .f32 0x00000000#32)) (colIdx d)
      (mulf
        (Host.gather gather_S100000x128_S1700000x1_S1700000x128_1_0_n_n_0_1_1128
          (Host.dotGeneral dot_S100000x128_S128x128_S100000x128_1_0_0_1_n_n none h W) (wrapIdx s))
        (broadcastInDim S1700000x128 ![0, 1] bcast_S1700000x1_S1700000x128_0_1
          (broadcastInDim S1700000x1 ![0] bcast_S1700000_S1700000x1_0 nrm))))
    (broadcastInDim S100000x128 ![0, 1] bcast_S1x128_S100000x128_0_1 (broadcastInDim S1x128 ![1] bcast_S128_S1x128_1 b))

/-- The activation as the program spells it: where the entry is positive the entry, elsewhere one times exp − 1 of the entry
    (of zero where the entry is positive, a value the outer choice discards). -/
def eluT (x : FVec F S100000x128 .f32) : FVec F S100000x128 .f32 :=
  select (cmpf .ogt x (broadcastInDim S100000x128 ![] bcast_S_S100000x128 (constant S_ .f32 0x00000000#32))) x
    (mulf (broadcastInDim S100000x128 ![] bcast_S_S100000x128 (constant S_ .f32 0x3F800000#32))
      (Host.expm1
        (select (cmpf .ogt x (broadcastInDim S100000x128 ![] bcast_S_S100000x128 (constant S_ .f32 0x00000000#32)))
          (broadcastInDim S100000x128 ![] bcast_S_S100000x128 (constant S_ .f32 0x00000000#32)) x)))

/-- One layer with its activation. -/
def layerT (h : FVec F S100000x128 .f32) (W : FVec F S128x128 .f32) (b : FVec F S128 .f32) (s d : IVec S1700000 32)
    (nrm : FVec F S1700000 .f32) : FVec F S100000x128 .f32 :=
  eluT (convT h W b s d nrm)

/-- The logits: the features times the head's weights, plus its bias. -/
def logitsT (h : FVec F S100000x128 .f32) (Wfc : FVec F S128x16 .f32) (bfc : FVec F S16 .f32) : FVec F S100000x16 .f32 :=
  addf (Host.dotGeneral dot_S100000x128_S128x16_S100000x16_1_0_0_1_n_n none h Wfc)
    (broadcastInDim S100000x16 ![0, 1] bcast_S1x16_S100000x16_0_1 (broadcastInDim S1x16 ![1] bcast_S16_S1x16_1 bfc))

/-- The logits minus their row maximum. -/
def lsmShift (z : FVec F S100000x16 .f32) : FVec F S100000x16 .f32 :=
  subf z
    (broadcastInDim S100000x16 ![0, 1] bcast_S100000x1_S100000x16_0_1
      (broadcastInDim S100000x1 ![0] bcast_S100000_S100000x1_0
        (maximumf (broadcastInDim S100000 ![] bcast_S_S100000 (constant S_ .f32 0xFF800000#32))
          (Host.reduce FloatOps.maximumf z (constant S_ .f32 0xFF800000#32) reducesTo_S100000x16_S100000_d1 h_S_))))

/-- log-softmax along the classes: the shifted logits minus the logarithm of the row sum of their exponentials. -/
def lsmT (z : FVec F S100000x16 .f32) : FVec F S100000x16 .f32 :=
  subf (lsmShift z)
    (broadcastInDim S100000x16 ![0, 1] bcast_S100000x1_S100000x16_0_1
      (Host.log
        (broadcastInDim S100000x1 ![0] bcast_S100000_S100000x1_0
          (Host.reduceAdd (Host.exp (lsmShift z)) (constant S_ .f32 0x00000000#32) reducesTo_S100000x16_S100000_d1 h_S_))))

/-- The head. -/
def headT (h : FVec F S100000x128 .f32) (Wfc : FVec F S128x16 .f32) (bfc : FVec F S16 .f32) : FVec F S100000x16 .f32 :=
  lsmT (logitsT h Wfc bfc)

/-- The whole network as the program composes it, of the ten argument arrays. -/
def res (x : FVec F S100000x128 .f32) (ei : IVec S2x1600000 32) (W1 : FVec F S128x128 .f32) (b1 : FVec F S128 .f32)
    (W2 : FVec F S128x128 .f32) (b2 : FVec F S128 .f32) (W3 : FVec F S128x128 .f32) (b3 : FVec F S128 .f32)
    (Wfc : FVec F S128x16 .f32) (bfc : FVec F S16 .f32) : FVec F S100000x16 .f32 :=
  headT
    (layerT
      (layerT (layerT x W1 b1 (srcIdx ei) (dstIdx ei) (normV ei)) W2 b2 (srcIdx ei) (dstIdx ei) (normV ei))
      W3 b3 (srcIdx ei) (dstIdx ei) (normV ei))
    Wfc bfc

end Cert.ReferenceIdeal.RefRun

end
-- ==== Proof.Bridge.lean ====
/-
  The two programs build the same edge arrays and the same node factor from the edge list.

  Both programs start with the same operations on the edge list: the sources and the destinations (the given numbers followed
  by the node counter), the wrapped columns the gathers read, the raw column the scatters read, the degree and its inverse
  square root. Written as terms over the edge list the two texts coincide operation by operation.
-/
import proofs.«161114_j30794915512600_2_alg».proof.Proof.RefDefs
import proofs.«161114_j30794915512600_2_alg».proof.Proof.KChain

noncomputable section

namespace Cert.Bridge

open Idealize.ShloMosaic Idealize.ShloMosaic.ValueIdx

theorem src_eq (ei : IVec Cert.KernelIdeal.S2x1600000 32) :
    Cert.ReferenceIdeal.RefRun.srcW ei = Cert.KernelIdeal.KHost.wrapI (Cert.KernelIdeal.KHost.srcV ei) := by
  unfold Cert.ReferenceIdeal.RefRun.srcW Cert.ReferenceIdeal.RefRun.wrapIdx Cert.ReferenceIdeal.RefRun.srcIdx
    Cert.KernelIdeal.KHost.wrapI Cert.KernelIdeal.KHost.srcV Cert.KernelIdeal.KHost.endsV
  rfl

theorem dstRaw_eq (ei : IVec Cert.KernelIdeal.S2x1600000 32) :
    Cert.ReferenceIdeal.RefRun.dstRaw ei = Cert.KernelIdeal.KHost.colI (Cert.KernelIdeal.KHost.dstV ei) := by
  unfold Cert.ReferenceIdeal.RefRun.dstRaw Cert.ReferenceIdeal.RefRun.colIdx Cert.ReferenceIdeal.RefRun.dstIdx
    Cert.KernelIdeal.KHost.colI Cert.KernelIdeal.KHost.dstV Cert.KernelIdeal.KHost.endsV
  rfl

theorem dstW_eq (ei : IVec Cert.KernelIdeal.S2x1600000 32) :
    Cert.ReferenceIdeal.RefRun.dstW ei = Cert.KernelIdeal.KHost.wrapI (Cert.KernelIdeal.KHost.dstV ei) := by
  unfold Cert.ReferenceIdeal.RefRun.dstW Cert.ReferenceIdeal.RefRun.wrapIdx Cert.ReferenceIdeal.RefRun.dstIdx
    Cert.KernelIdeal.KHost.wrapI Cert.KernelIdeal.KHost.dstV Cert.KernelIdeal.KHost.endsV
  rfl

theorem scatter_eq : Cert.ReferenceIdeal.scatter_S100000_S1700000x1_S1700000_n_0_0_1
    = Cert.KernelIdeal.scatter_S100000_S1700000x1_S1700000_n_0_0_1 := rfl

theorem zeros_eq : (broadcastInDim Cert.ReferenceIdeal.S100000 ![] Cert.ReferenceIdeal.Gen.bcast_S_S100000 (constant (F := Ideal) Cert.ReferenceIdeal.S_ .f32 0x00000000#32))
    = (broadcastInDim Cert.KernelIdeal.S100000 ![] Cert.KernelIdeal.Gen.bcast_S_S100000 (constant (F := Ideal) Cert.KernelIdeal.S_ .f32 0x00000000#32)) := rfl

theorem ones_eq : (broadcastInDim Cert.ReferenceIdeal.S1700000 ![] Cert.ReferenceIdeal.Gen.bcast_S_S1700000 (constant (F := Ideal) Cert.ReferenceIdeal.S_ .f32 0x3F800000#32))
    = (broadcastInDim Cert.KernelIdeal.S1700000 ![] Cert.KernelIdeal.Gen.bcast_S_S1700000 (constant (F := Ideal) Cert.KernelIdeal.S_ .f32 0x3F800000#32)) := rfl

theorem deg_eq (ei : IVec Cert.KernelIdeal.S2x1600000 32) :
    (Host.scatterAdd (F := Ideal) Cert.ReferenceIdeal.scatter_S100000_S1700000x1_S1700000_n_0_0_1
      (broadcastInDim Cert.ReferenceIdeal.S100000 ![] Cert.ReferenceIdeal.Gen.bcast_S_S100000 (constant (F := Ideal) Cert.ReferenceIdeal.S_ .f32 0x00000000#32))
      (Cert.ReferenceIdeal.RefRun.colIdx (Cert.ReferenceIdeal.RefRun.dstIdx ei))
      (broadcastInDim Cert.ReferenceIdeal.S1700000 ![] Cert.ReferenceIdeal.Gen.bcast_S_S1700000 (constant (F := Ideal) Cert.ReferenceIdeal.S_ .f32 0x3F800000#32)))
    = Cert.KernelIdeal.KHost.degV (Cert.KernelIdeal.KHost.dstV ei) := by
  have hd := dstRaw_eq ei
  unfold Cert.ReferenceIdeal.RefRun.dstRaw at hd
  unfold Cert.KernelIdeal.KHost.degV
  rw [hd, scatter_eq, zeros_eq, ones_eq]

theorem dinv_eq (ei : IVec Cert.KernelIdeal.S2x1600000 32) :
    (fun r : Fin 100000 => Cert.ReferenceIdeal.RefRun.dinvV (F := Ideal) ei (ix1 r)) = Cert.KernelIdeal.KChain.dinvF ei := by
  funext r
  unfold Cert.ReferenceIdeal.RefRun.dinvV Cert.ReferenceIdeal.RefRun.dinvOf Cert.KernelIdeal.KChain.dinvF
  rw [deg_eq]
  generalize Cert.KernelIdeal.KHost.degV (Cert.KernelIdeal.KHost.dstV ei) = d
  exact Cert.KernelIdeal.KLayer.host_rsqrt_apply d (ix1 r)

end Cert.Bridge

end
-- ==== Proof.RefValue.lean ====
/-
  The reference program's result, index by index, as the graph network with messages scaled on the edge slots.

  Stage by stage. The per-slot factor at slot e is dinv at the source row of e times dinv at the row the wrapped destination
  of e reads. A layer before its activation, at (p, q), is the sum over the slots landing on p of (row "source of e" of the
  features times column q of the weights) times the slot's factor, plus the bias at q. The activation as the program spells
  it — where the entry is positive the entry, elsewhere 1 · (exp − 1) of the entry — is ELU entry by entry. The head: the
  row maximum folded from −∞ (the outer maximum against −∞ changes nothing), the shifted logits, the row sum of their
  exponentials from 0, its logarithm.
-/
import proofs.«161114_j30794915512600_2_alg».proof.Proof.RefDefs
import proofs.«161114_j30794915512600_2_alg».proof.Proof.GcnDefs
import proofs.«161114_j30794915512600_2_alg».proof.Proof.LibRowIndex
import proofs.«161114_j30794915512600_2_alg».proof.Proof.LibColRow
import proofs.«161114_j30794915512600_2_alg».proof.Proof.LibF32Literals
import Idealize.ShloMosaic.PureOps.Ideal.Laws
import Idealize.ShloMosaic.Lib.StackMember
import Idealize.ShloMosaic.Lib.Pipeline.Value

noncomputable section

namespace Cert.ReferenceIdeal.RefValue

open Idealize.ShloMosaic Idealize.ShloMosaic.ValueIdx
open Cert.ReferenceIdeal Cert.ReferenceIdeal.Gen Cert.ReferenceIdeal.RefRun
open Cert.LibGatherRows Cert.LibRowIndex Cert.LibRowAggLinear Cert.Gcn
open scoped BigOperators

/-! ## The printed records -/

theorem gather_rows_eq : gather_S100000x128_S1700000x1_S1700000x128_1_0_n_n_0_1_1128
    = rowDims 100000 1700000 128 Facts₀.gather_S100000x128_S1700000x1_S1700000x128_1_0_n_n_0_1_1128_wf := rfl
theorem scatter_rows_eq : scatter_S100000x128_S1700000x1_S1700000x128_1_0_0_1
    = rowScatterDims 100000 1700000 128 Facts₀.scatter_S100000x128_S1700000x1_S1700000x128_1_0_0_1_wf := rfl
theorem gather_vec_eq : gather_S100000_S1700000x1_S1700000_n_0_n_n_0_1_1
    = vecDims 100000 1700000 Facts₀.gather_S100000_S1700000x1_S1700000_n_0_n_n_0_1_1_wf := rfl
theorem dot128_eq : dot_S100000x128_S128x128_S100000x128_1_0_0_1_n_n = DotDims.plain 100000 128 128 := rfl
theorem dot16_eq : dot_S100000x128_S128x16_S100000x16_1_0_0_1_n_n = DotDims.plain 100000 128 16 := rfl

/-! ## The activation -/

/-- The program's spelling of the activation on one extended real is ELU. -/
theorem elu_word (v : EReal) :
    Scalar.select (Ideal.cmp .ogt v (Ideal.ofBits .f32 0x00000000#32)) v
      (Ideal.ofBits .f32 0x3F800000#32 * (Ideal.exp
        (Scalar.select (Ideal.cmp .ogt v (Ideal.ofBits .f32 0x00000000#32)) (Ideal.ofBits .f32 0x00000000#32) v) - 1)) = elu v := by
  rw [Cert.LibF32Literals.ofBits_zero, Cert.LibF32Literals.ofBits_one, one_mul]
  unfold elu
  by_cases h : (0 : EReal) < v
  · have h1 : Ideal.cmp .ogt v 0 = 1#1 := by simp [Ideal.cmp, h]
    rw [h1, select_one, if_pos h]
  · have h1 : Ideal.cmp .ogt v 0 = 0#1 := by simp [Ideal.cmp, h]
    rw [h1, select_zero, select_zero, if_neg h]

/-- The activation, entry by entry. -/
theorem eluT_apply (x : FVec Ideal S100000x128 .f32) (i : S100000x128.Idx) : eluT x i = elu (x i) := by
  unfold eluT
  exact elu_word (x i)

/-! ## The per-slot factor -/

theorem normOf_apply (s d : IVec S1700000 32) (e : Fin 1700000) :
    normOf (F := Ideal) s d (ix1 e)
      = dinvOf (F := Ideal) d (ix1 (rowOf n_pos (wrapIdx s) e)) * dinvOf (F := Ideal) d (ix1 (rowOf n_pos (wrapIdx d) e)) := by
  unfold normOf
  generalize dinvOf (F := Ideal) d = dv
  rw [gather_vec_eq]
  refine (mulf_apply _ _ _).trans ?_
  have h1 := gather_vec_apply n_pos Facts₀.gather_S100000_S1700000x1_S1700000_n_0_n_n_0_1_1_wf dv (wrapIdx s) e
  have h2 := gather_vec_apply n_pos Facts₀.gather_S100000_S1700000x1_S1700000_n_0_n_n_0_1_1_wf dv (wrapIdx d) e
  rw [h1, h2]

/-! ## One layer -/

theorem convT_apply (h : FVec Ideal S100000x128 .f32) (W : FVec Ideal S128x128 .f32) (b : FVec Ideal S128 .f32)
    (s d : IVec S1700000 32) (nrm : FVec Ideal S1700000 .f32) (p : Fin 100000) (q : Fin 128) :
    convT h W b s d nrm (ix2 p q)
      = (∑ e ∈ landsOn (colIdx d) p, (∑ j : Fin 128, h (ix2 (rowOf n_pos (wrapIdx s) e) j) * W (ix2 j q)) * nrm (ix1 e))
        + b (ix1 q) := by
  unfold convT
  rw [scatter_rows_eq, gather_rows_eq, dot128_eq]
  refine (addf_apply _ _ _).trans ?_
  rw [host_scatterAdd_rows_zero_apply _ _ (funext fun i => (show broadcastInDim S100000x128 ![] bcast_S_S100000x128 (constant (F := Ideal) S_ .f32 0x00000000#32) i = 0 from Cert.LibF32Literals.ofBits_zero))]
  rw [Cert.LibColRow.bcast_1b_ab_apply, Cert.LibColRow.bcast_b_1b_apply]
  refine congrArg (· + b (ix1 q)) (Finset.sum_congr rfl fun e _ => ?_)
  refine (mulf_apply _ _ _).trans ?_
  rw [gather_rows_apply n_pos, StackMember.dotGeneral_plain_apply, Cert.LibColRow.bcast_a1_ab_apply, Cert.LibColRow.bcast_a_a1_apply]

/-! ## The layers, with their activation -/

/-- One layer of the program is one layer of the network, when its input array holds the network's previous features. -/
theorem layer_eq (ei : IVec S2x1600000 32) (Y : Fin 100000 → Fin 128 → EReal) (h : FVec Ideal S100000x128 .f32)
    (hY : ∀ r j, h (ix2 r j) = Y r j) (W : FVec Ideal S128x128 .f32) (b : FVec Ideal S128 .f32) (p : Fin 100000) (q : Fin 128) :
    layerT h W b (srcIdx ei) (dstIdx ei) (normV ei) (ix2 p q)
      = elu (convR (srcW ei) (dstRaw ei) (dstW ei) (fun r => dinvV (F := Ideal) ei (ix1 r)) Y
          (fun j c => W (ix2 j c)) (fun c => b (ix1 c)) p q) := by
  unfold layerT
  rw [eluT_apply, convT_apply]
  unfold convR srcRow normV srcW dstRaw dstW dinvV
  refine congrArg elu (congrArg (· + b (ix1 q)) (Finset.sum_congr rfl fun e _ => ?_))
  rw [normOf_apply]
  simp only [hY]

/-! ## The head -/

theorem reduces16 : S100000x16.Reduces [1] S100000 := by decide

theorem ofBits_neg_inf : Ideal.ofBits .f32 0xFF800000#32 = (⊥ : EReal) := by
  simp [Ideal.ofBits, Ideal.ieee]

/-- The host's logarithm and exponential act entry by entry. -/
theorem host_log_apply {s : Shape} (x : FVec Ideal s .f32) (i : s.Idx) : Host.log (F := Ideal) x i = Ideal.log (x i) := rfl
theorem host_exp_apply {s : Shape} (x : FVec Ideal s .f32) (i : s.Idx) : Host.exp (F := Ideal) x i = Ideal.exp (x i) := rfl

/-- The logits at (p, k). -/
theorem logitsT_apply (h : FVec Ideal S100000x128 .f32) (Wfc : FVec Ideal S128x16 .f32) (bfc : FVec Ideal S16 .f32)
    (p : Fin 100000) (k : Fin 16) :
    logitsT h Wfc bfc (ix2 p k) = (∑ c : Fin 128, h (ix2 p c) * Wfc (ix2 c k)) + bfc (ix1 k) := by
  unfold logitsT
  rw [dot16_eq]
  refine (addf_apply _ _ _).trans ?_
  rw [StackMember.dotGeneral_plain_apply, Cert.LibColRow.bcast_1b_ab_apply, Cert.LibColRow.bcast_b_1b_apply]

/-- The row maximum from −∞. -/
theorem rowmax_apply (z : FVec Ideal S100000x16 .f32) (p : Fin 100000) :
    Host.reduce FloatOps.maximumf z (constant (F := Ideal) S_ .f32 0xFF800000#32) reducesTo_S100000x16_S100000_d1 h_S_ (ix1 p)
      = rowMax (fun k : Fin 16 => z (ix2 p k)) := by
  refine (Host.reduce_eq_fold_single FloatOps.maximumf z _ reducesTo_S100000x16_S100000_d1 reduces16 h_S_ (ix1 p)).trans ?_
  unfold rowMax
  have hb : (constant (F := Ideal) S_ .f32 0xFF800000#32) (Shape.Idx.first h_S_) = (⊥ : EReal) := ofBits_neg_inf
  rw [hb]
  exact Finset.fold_congr fun k _ => congrArg z (funext fun ax => Fin.ext
    (match ax with | ⟨0, _⟩ => rfl | ⟨1, _⟩ => rfl))

/-- The row sum from 0. -/
theorem rowsum_apply (y : FVec Ideal S100000x16 .f32) (p : Fin 100000) :
    Host.reduceAdd y (constant (F := Ideal) S_ .f32 0x00000000#32) reducesTo_S100000x16_S100000_d1 h_S_ (ix1 p)
      = ∑ k : Fin 16, y (ix2 p k) := by
  unfold Host.reduceAdd
  rw [Ideal.hostReduceAdd_def, Ideal.hostReduceAdd_single _ reduces16]
  have hz : (constant (F := Ideal) S_ .f32 0x00000000#32) (Shape.Idx.first h_S_) = (0 : EReal) := Cert.LibF32Literals.ofBits_zero
  rw [hz, zero_add]
  exact Finset.sum_congr rfl fun k _ => congrArg y (funext fun ax => Fin.ext
    (match ax with | ⟨0, _⟩ => rfl | ⟨1, _⟩ => rfl))

/-- The shifted logits at (p, k). -/
theorem lsmShift_apply (z : FVec Ideal S100000x16 .f32) (p : Fin 100000) (k : Fin 16) :
    lsmShift z (ix2 p k) = z (ix2 p k) - rowMax (fun j : Fin 16 => z (ix2 p j)) := by
  unfold lsmShift
  refine (subf_apply _ _ _).trans ?_
  rw [Cert.LibColRow.bcast_a1_ab_apply, Cert.LibColRow.bcast_a_a1_apply]
  refine congrArg (z (ix2 p k) - ·) ?_
  refine (maximumf_apply _ _ _).trans ?_
  rw [rowmax_apply]
  have hb : broadcastInDim S100000 ![] bcast_S_S100000 (constant (F := Ideal) S_ .f32 0xFF800000#32) (ix1 p) = (⊥ : EReal) :=
    ofBits_neg_inf
  rw [hb, max_bot_left]

/-- log-softmax at (p, q). -/
theorem lsmT_apply (z : FVec Ideal S100000x16 .f32) (p : Fin 100000) (q : Fin 16) :
    lsmT z (ix2 p q) = lsmR (fun k : Fin 16 => z (ix2 p k)) q := by
  unfold lsmT lsmR
  refine (subf_apply _ _ _).trans ?_
  rw [lsmShift_apply, Cert.LibColRow.bcast_a1_ab_apply, host_log_apply, Cert.LibColRow.bcast_a_a1_apply, rowsum_apply]
  refine congrArg (fun s => z (ix2 p q) - rowMax (fun k : Fin 16 => z (ix2 p k)) - Ideal.log s) ?_
  exact Finset.sum_congr rfl fun k _ => (host_exp_apply _ _).trans (congrArg Ideal.exp (lsmShift_apply z p k))

/-! ## The whole network -/

/-- The program's result at (p, q) is the network with messages scaled on the edge slots. -/
theorem res_apply (x : FVec Ideal S100000x128 .f32) (ei : IVec S2x1600000 32) (W1 : FVec Ideal S128x128 .f32) (b1 : FVec Ideal S128 .f32)
    (W2 : FVec Ideal S128x128 .f32) (b2 : FVec Ideal S128 .f32) (W3 : FVec Ideal S128x128 .f32) (b3 : FVec Ideal S128 .f32)
    (Wfc : FVec Ideal S128x16 .f32) (bfc : FVec Ideal S16 .f32) (p : Fin 100000) (q : Fin 16) :
    res x ei W1 b1 W2 b2 W3 b3 Wfc bfc (ix2 p q)
      = netR (srcW ei) (dstRaw ei) (dstW ei) (fun r => dinvV (F := Ideal) ei (ix1 r)) (fun r c => x (ix2 r c))
          (fun j c => W1 (ix2 j c)) (fun c => b1 (ix1 c)) (fun j c => W2 (ix2 j c)) (fun c => b2 (ix1 c))
          (fun j c => W3 (ix2 j c)) (fun c => b3 (ix1 c)) (fun j c => Wfc (ix2 j c)) (fun c => bfc (ix1 c)) p q := by
  unfold res headT netR
  rw [lsmT_apply]
  refine congrArg (fun z => lsmR z q) (funext fun k => ?_)
  rw [logitsT_apply]
  refine congrArg (· + bfc (ix1 k)) (Finset.sum_congr rfl fun c _ => congrArg (· * Wfc (ix2 c k)) ?_)
  have L1 := fun r j => layer_eq ei (fun r j => x (ix2 r j)) x (fun _ _ => rfl) W1 b1 r j
  have L2 := fun r j => layer_eq ei _ _ L1 W2 b2 r j
  have L3 := fun r j => layer_eq ei _ _ L2 W3 b3 r j
  exact L3 p c

end Cert.ReferenceIdeal.RefValue

end
-- ==== Proof.FiniteInputs.lean ====
/-
  From the finiteness precondition to real-valued inputs. The precondition tests, for each float argument array,
  every entry x by |x| < +∞, takes the conjunction over the array, and then the conjunction of the nine results.
  Read at the extended reals, |x| is max x (-x) and the pattern 0x7F800000 denotes +∞; of the three kinds of
  extended real, -∞ and +∞ both have absolute value +∞ and fail the test, so an entry that passes is a real number.
  Hence, when the precondition holds, every entry of every float argument is a real number.
-/
import proofs.«161114_j30794915512600_2_alg».proof.Proof.Gen.Pre_finite_inputs
import proofs.«161114_j30794915512600_2_alg».proof.Proof.LibRealValued
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.LibRealValued

/-- The binary32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) lies strictly below +∞ is a real number:
    at -∞ and at +∞ the maximum is +∞. -/
theorem isReal_of_abs_lt_top (x : EReal) (h : max x (-x) < ⊤) : IsReal x := by
  induction x using EReal.rec with
  | bot => exact absurd h (by simp)
  | coe r => exact ⟨r, rfl⟩
  | top => exact absurd h (by simp)

/-- The entry test: the comparison |x| < (the value of 0x7F800000), read at the extended reals, answers 1
    only at a real number. -/
theorem isReal_of_test (x : EReal)
    (h : Ideal.cmp .olt (max x (-x)) (Ideal.ofBits .f32 0x7F800000#32) = 1#1) : IsReal x := by
  rw [ofBits_inf] at h
  refine isReal_of_abs_lt_top x ?_
  by_contra hn
  have h0 : Ideal.cmp .olt (max x (-x)) ⊤ = 0#1 := by
    show BitVec.ofBool (decide (max x (-x) < ⊤)) = 0#1
    rw [decide_eq_false hn]; rfl
  rw [h0] at h
  exact absurd h (by decide)

/-- The one index of the rank-0 shape. -/
instance : Subsingleton S_.Idx := ⟨fun a b => funext fun d => d.elim0⟩

/-- An array of any shape all of whose entries pass the test |x| < +∞ — the conjunction over the whole
    array, started from 1, comes out 1 — is real-valued. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : IsReal (x i) := by
  have hi := Host.reduce_andi_all _ _ hr hu j e i
  exact isReal_of_test (x i) hi

/-- The precondition makes every entry of every float argument a real number. -/
theorem real_of_pre (x0 : FVec Ideal S100000x128 .f32) (ei : IVec S2x1600000 32) (x2 : FVec Ideal S128x128 .f32)
    (x3 : FVec Ideal S128 .f32) (x4 : FVec Ideal S128x128 .f32) (x5 : FVec Ideal S128 .f32)
    (x6 : FVec Ideal S128x128 .f32) (x7 : FVec Ideal S128 .f32) (x8 : FVec Ideal S128x16 .f32)
    (x9 : FVec Ideal S16 .f32)
    (h : Cert.Pre_finite_inputs.fn (F := Ideal) x0 ei x2 x3 x4 x5 x6 x7 x8 x9 = fun _ => 1#1) :
    (∀ i, IsReal (x0 i)) ∧ (∀ i, IsReal (x2 i)) ∧ (∀ i, IsReal (x3 i)) ∧ (∀ i, IsReal (x4 i)) ∧
    (∀ i, IsReal (x5 i)) ∧ (∀ i, IsReal (x6 i)) ∧ (∀ i, IsReal (x7 i)) ∧ (∀ i, IsReal (x8 i)) ∧
    (∀ i, IsReal (x9 i)) := by
  have h0 := congrFun h ValueIdx.ix0
  dsimp only [fn, fn_part1, fn_part2] at h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e0, e2⟩ := IntOp.andi_eq_one.1 h0
  exact ⟨real_of_all x0 _ _ _ _ e0, real_of_all x2 _ _ _ _ e2, real_of_all x3 _ _ _ _ e3,
    real_of_all x4 _ _ _ _ e4, real_of_all x5 _ _ _ _ e5, real_of_all x6 _ _ _ _ e6,
    real_of_all x7 _ _ _ _ e7, real_of_all x8 _ _ _ _ e8, real_of_all x9 _ _ _ _ e9⟩

end Cert.FiniteInputs

end
-- ==== Proof.RefRun.lean ====
/-
  The reference program's run, read back as a composed term of its ten argument arrays.

  The program is a straight line of 157 array operations once its four calls (three of the activation, one of the
  log-softmax) are written out at their call sites: an index prelude that builds, from the edge list, the source and
  destination row of every edge slot (the given edges followed by one self-loop per node), the per-node factor
  1/sqrt(degree) and the per-slot product of the two factors; three layers (matrix product, rows gathered along the
  slots, scaled on the slot, added up at the destination rows, bias, activation); and a head (matrix product, bias,
  log-softmax). It is cut here into those stretches, the head into six. Each stretch is read from ANY contents of the buffers: what
  its last buffer holds afterwards is a named function of what a few earlier buffers held, and the buffers it does not
  write keep their contents. Chaining the readings gives the result buffer as `res` of the arguments (the named functions are the imported module's).
-/
import proofs.«161114_j30794915512600_2_alg».proof.Proof.Gen.ReferenceIdeal
import proofs.«161114_j30794915512600_2_alg».proof.Proof.RefDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, stretch by stretch -/

/-- The index prelude: the slots' source and destination rows, the per-node factor, the per-slot product of factors. -/
abbrev opsA : List (HloOp τ sig (Elt F)) :=
  [ StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1700000 ![] bcast_S_S1700000 : (⟨S_, .i32⟩ : BufTy).Contents (Elt F) → (⟨S1700000, .i32⟩ : BufTy).Contents (Elt F)),
    StableHlo.binary main_v3 main_v12 main_v13 (cmpi .slt : (⟨S1700000, .i32⟩ : BufTy).Contents (Elt F) → (⟨S1700000, .i32⟩ : BufTy).Contents (Elt F) → (⟨S1700000, .i1⟩ : BufTy).Contents (Elt F)),
    StableHlo.nullary main_c_1 (constantI S_ 32 100000#32),
    StableHlo.unary main_c_1 main_v14 (broadcastInDim S1700000 ![] bcast_S_S1700000 : (⟨S_, .i32⟩ : BufTy).Contents (Elt F) → (⟨S1700000, .i32⟩ : BufTy).Contents (Elt F)),
    StableHlo.binary main_v3 main_v14 main_v15 (addi : (⟨S1700000, .i32⟩ : BufTy).Contents (Elt F) → (⟨S1700000, .i32⟩ : BufTy).Contents (Elt F) → (⟨S1700000, .i32⟩ : BufTy).Contents (Elt F)),
    StableHlo.ternary main_v13 main_v15 main_v3 main_v16 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v16 main_v17 (broadcastInDim S1700000x1 ![0] bcast_S1700000_S1700000x1_0 : (⟨S1700000, .i32⟩ : BufTy).Contents (Elt F) → (⟨S1700000x1, .i32⟩ : BufTy).Contents (Elt F)),
    StableHlo.binary main_v11 main_v17 main_v18 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_2 (constantI S_ 32 0#32),
    StableHlo.unary main_c_2 main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v11 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v18 main_v25 main_v26 (mulf : (⟨S1700000, .f32⟩ : BufTy).Contents (Elt F) → (⟨S1700000, .f32⟩ : BufTy).Contents (Elt F) → (⟨S1700000, .f32⟩ : BufTy).Contents (Elt F)) ]

/-- The first layer, its activation's operations written out. -/
abbrev opsL1 : List (HloOp τ sig (Elt F)) :=
  [ StableHlo.binary main_arg0 main_arg2 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_4 (constantI S_ 32 0#32),
    StableHlo.unary main_c_4 main_v28 (broadcastInDim S1700000 ![] bcast_S_S1700000 : (⟨S_, .i32⟩ : BufTy).Contents (Elt F) → (⟨S1700000, .i32⟩ : BufTy).Contents (Elt F)),
    StableHlo.binary main_v3 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v30 (broadcastInDim S1700000 ![] bcast_S_S1700000 : (⟨S_, .i32⟩ : BufTy).Contents (Elt F) → (⟨S1700000, .i32⟩ : BufTy).Contents (Elt F)),
    StableHlo.binary main_v3 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v3 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v27 main_v33 main_v34 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v35 (broadcastInDim S1700000x1 ![0] bcast_S1700000_S1700000x1_0 : (⟨S1700000, .f32⟩ : BufTy).Contents (Elt F) → (⟨S1700000x1, .f32⟩ : BufTy).Contents (Elt F)),
    StableHlo.unary main_v35 main_v36 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v34 main_v36 main_v37 (mulf : (⟨S1700000x128, .f32⟩ : BufTy).Contents (Elt F) → (⟨S1700000x128, .f32⟩ : BufTy).Contents (Elt F) → (⟨S1700000x128, .f32⟩ : BufTy).Contents (Elt F)),
    StableHlo.nullary main_cst_6 (constant S_ .f32 0x00000000#32),
    StableHlo.unary main_cst_6 main_v38 (broadcastInDim S100000x128 ![] bcast_S_S100000x128 : (⟨S_, .f32⟩ : BufTy).Contents (Elt F) → (⟨S100000x128, .f32⟩ : BufTy).Contents (Elt F)),
    StableHlo.unary main_v6 main_v39 (broadcastInDim S1700000x1 ![0] bcast_S1700000_S1700000x1_0 : (⟨S1700000, .i32⟩ : BufTy).Contents (Elt F) → (⟨S1700000x1, .i32⟩ : BufTy).Contents (Elt F)),
    StableHlo.ternary main_v38 main_v39 main_v37 main_v40 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg3 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v40 main_v42 main_v43 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (TRef.of main_v43 : TRef sig ⟨S100000x128, .f32⟩) main_call0.v0 main_call0.v1 (cmpf .ogt),
    StableHlo.TRef.nullary main_call0.cst_0 (constant S_ .f32 0x00000000#32),
    StableHlo.TRef.unary main_call0.cst_0 main_call0.v2 (broadcastInDim S100000x128 ![] bcast_S_S100000x128),
    StableHlo.TRef.binary (TRef.of main_v43 : TRef sig ⟨S100000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x128 ![] bcast_S_S100000x128),
    StableHlo.TRef.ternary main_call0.v3 main_call0.call0.v1 (TRef.of main_v43 : TRef sig ⟨S100000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x128 ![] bcast_S_S100000x128),
    StableHlo.TRef.binary main_call0.v6 main_call0.v5 main_call0.v7 mulf,
    StableHlo.TRef.ternary main_call0.v1 (TRef.of main_v43 : TRef sig ⟨S100000x128, .f32⟩) main_call0.v7 main_call0.call1.v0 select ]

/-- The second layer. -/
abbrev opsL2 : List (HloOp τ sig (Elt F)) :=
  [ StableHlo.binary main_v44 main_arg4 main_v45 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_7 (constantI S_ 32 0#32),
    StableHlo.unary main_c_7 main_v46 (broadcastInDim S1700000 ![] bcast_S_S1700000 : (⟨S_, .i32⟩ : BufTy).Contents (Elt F) → (⟨S1700000, .i32⟩ : BufTy).Contents (Elt F)),
    StableHlo.binary main_v3 main_v46 main_v47 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v48 (broadcastInDim S1700000 ![] bcast_S_S1700000 : (⟨S_, .i32⟩ : BufTy).Contents (Elt F) → (⟨S1700000, .i32⟩ : BufTy).Contents (Elt F)),
    StableHlo.binary main_v3 main_v48 main_v49 (addi : (⟨S1700000, .i32⟩ : BufTy).Contents (Elt F) → (⟨S1700000, .i32⟩ : BufTy).Contents (Elt F) → (⟨S1700000, .i32⟩ : BufTy).Contents (Elt F)),
    StableHlo.ternary main_v47 main_v49 main_v3 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v50 main_v51 (broadcastInDim S1700000x1 ![0] bcast_S1700000_S1700000x1_0 : (⟨S1700000, .i32⟩ : BufTy).Contents (Elt F) → (⟨S1700000x1, .i32⟩ : BufTy).Contents (Elt F)),
    StableHlo.binary main_v45 main_v51 main_v52 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v53 (broadcastInDim S1700000x1 ![0] bcast_S1700000_S1700000x1_0 : (⟨S1700000, .f32⟩ : BufTy).Contents (Elt F) → (⟨S1700000x1, .f32⟩ : BufTy).Contents (Elt F)),
    StableHlo.unary main_v53 main_v54 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v52 main_v54 main_v55 (mulf : (⟨S1700000x128, .f32⟩ : BufTy).Contents (Elt F) → (⟨S1700000x128, .f32⟩ : BufTy).Contents (Elt F) → (⟨S1700000x128, .f32⟩ : BufTy).Contents (Elt F)),
    StableHlo.nullary main_cst_9 (constant S_ .f32 0x00000000#32),
    StableHlo.unary main_cst_9 main_v56 (broadcastInDim S100000x128 ![] bcast_S_S100000x128 : (⟨S_, .f32⟩ : BufTy).Contents (Elt F) → (⟨S100000x128, .f32⟩ : BufTy).Contents (Elt F)),
    StableHlo.unary main_v6 main_v57 (broadcastInDim S1700000x1 ![0] bcast_S1700000_S1700000x1_0 : (⟨S1700000, .i32⟩ : BufTy).Contents (Elt F) → (⟨S1700000x1, .i32⟩ : BufTy).Contents (Elt F)),
    StableHlo.ternary main_v56 main_v57 main_v55 main_v58 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg5 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (TRef.of main_v61 : TRef sig ⟨S100000x128, .f32⟩) main_call1.v0 main_call1.v1 (cmpf .ogt),
    StableHlo.TRef.nullary main_call1.cst_0 (constant S_ .f32 0x00000000#32),
    StableHlo.TRef.unary main_call1.cst_0 main_call1.v2 (broadcastInDim S100000x128 ![] bcast_S_S100000x128),
    StableHlo.TRef.binary (TRef.of main_v61 : TRef sig ⟨S100000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S100000x128 ![] bcast_S_S100000x128),
    StableHlo.TRef.ternary main_call1.v3 main_call1.call0.v1 (TRef.of main_v61 : TRef sig ⟨S100000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S100000x128 ![] bcast_S_S100000x128),
    StableHlo.TRef.binary main_call1.v6 main_call1.v5 main_call1.v7 mulf,
    StableHlo.TRef.ternary main_call1.v1 (TRef.of main_v61 : TRef sig ⟨S100000x128, .f32⟩) main_call1.v7 main_call1.call1.v0 select ]

/-- The third layer. -/
abbrev opsL3 : List (HloOp τ sig (Elt F)) :=
  [ StableHlo.binary main_v62 main_arg6 main_v63 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_10 (constantI S_ 32 0#32),
    StableHlo.unary main_c_10 main_v64 (broadcastInDim S1700000 ![] bcast_S_S1700000 : (⟨S_, .i32⟩ : BufTy).Contents (Elt F) → (⟨S1700000, .i32⟩ : BufTy).Contents (Elt F)),
    StableHlo.binary main_v3 main_v64 main_v65 (cmpi .slt : (⟨S1700000, .i32⟩ : BufTy).Contents (Elt F) → (⟨S1700000, .i32⟩ : BufTy).Contents (Elt F) → (⟨S1700000, .i1⟩ : BufTy).Contents (Elt F)),
    StableHlo.nullary main_c_11 (constantI S_ 32 100000#32),
    StableHlo.unary main_c_11 main_v66 (broadcastInDim S1700000 ![] bcast_S_S1700000 : (⟨S_, .i32⟩ : BufTy).Contents (Elt F) → (⟨S1700000, .i32⟩ : BufTy).Contents (Elt F)),
    StableHlo.binary main_v3 main_v66 main_v67 (addi : (⟨S1700000, .i32⟩ : BufTy).Contents (Elt F) → (⟨S1700000, .i32⟩ : BufTy).Contents (Elt F) → (⟨S1700000, .i32⟩ : BufTy).Contents (Elt F)),
    StableHlo.ternary main_v65 main_v67 main_v3 main_v68 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v68 main_v69 (broadcastInDim S1700000x1 ![0] bcast_S1700000_S1700000x1_0 : (⟨S1700000, .i32⟩ : BufTy).Contents (Elt F) → (⟨S1700000x1, .i32⟩ : BufTy).Contents (Elt F)),
    StableHlo.binary main_v63 main_v69 main_v70 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v26 main_v71 (broadcastInDim S1700000x1 ![0] bcast_S1700000_S1700000x1_0 : (⟨S1700000, .f32⟩ : BufTy).Contents (Elt F) → (⟨S1700000x1, .f32⟩ : BufTy).Contents (Elt F)),
    StableHlo.unary main_v71 main_v72 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v70 main_v72 main_v73 (mulf : (⟨S1700000x128, .f32⟩ : BufTy).Contents (Elt F) → (⟨S1700000x128, .f32⟩ : BufTy).Contents (Elt F) → (⟨S1700000x128, .f32⟩ : BufTy).Contents (Elt F)),
    StableHlo.nullary main_cst_12 (constant S_ .f32 0x00000000#32),
    StableHlo.unary main_cst_12 main_v74 (broadcastInDim S100000x128 ![] bcast_S_S100000x128 : (⟨S_, .f32⟩ : BufTy).Contents (Elt F) → (⟨S100000x128, .f32⟩ : BufTy).Contents (Elt F)),
    StableHlo.unary main_v6 main_v75 (broadcastInDim S1700000x1 ![0] bcast_S1700000_S1700000x1_0 : (⟨S1700000, .i32⟩ : BufTy).Contents (Elt F) → (⟨S1700000x1, .i32⟩ : BufTy).Contents (Elt F)),
    StableHlo.ternary main_v74 main_v75 main_v73 main_v76 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg7 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S100000x128 ![0, 1] bcast_S1x128_S100000x128_0_1 : (⟨S1x128, .f32⟩ : BufTy).Contents (Elt F) → (⟨S100000x128, .f32⟩ : BufTy).Contents (Elt F)),
    StableHlo.binary main_v76 main_v78 main_v79 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (TRef.of main_v79 : TRef sig ⟨S100000x128, .f32⟩) main_call2.v0 main_call2.v1 (cmpf .ogt),
    StableHlo.TRef.nullary main_call2.cst_0 (constant S_ .f32 0x00000000#32),
    StableHlo.TRef.unary main_call2.cst_0 main_call2.v2 (broadcastInDim S100000x128 ![] bcast_S_S100000x128),
    StableHlo.TRef.binary (TRef.of main_v79 : TRef sig ⟨S100000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S100000x128 ![] bcast_S_S100000x128),
    StableHlo.TRef.ternary main_call2.v3 main_call2.call0.v1 (TRef.of main_v79 : TRef sig ⟨S100000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S100000x128 ![] bcast_S_S100000x128),
    StableHlo.TRef.binary main_call2.v6 main_call2.v5 main_call2.v7 mulf,
    StableHlo.TRef.ternary main_call2.v1 (TRef.of main_v79 : TRef sig ⟨S100000x128, .f32⟩) main_call2.v7 main_call2.call1.v0 select ]

/-- The logits: matrix product and bias. -/
abbrev opsH1 : List (HloOp τ sig (Elt F)) :=
  [ StableHlo.binary main_v80 main_arg8 main_v81 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    StableHlo.unary main_arg9 main_v82 (broadcastInDim S1x16 ![1] bcast_S16_S1x16_1 : (⟨S16, .f32⟩ : BufTy).Contents (Elt F) → (⟨S1x16, .f32⟩ : BufTy).Contents (Elt F)),
    StableHlo.unary main_v82 main_v83 (broadcastInDim S100000x16 ![0, 1] bcast_S1x16_S100000x16_0_1 : (⟨S1x16, .f32⟩ : BufTy).Contents (Elt F) → (⟨S100000x16, .f32⟩ : BufTy).Contents (Elt F)),
    StableHlo.binary main_v81 main_v83 main_v84 (addf : (⟨S100000x16, .f32⟩ : BufTy).Contents (Elt F) → (⟨S100000x16, .f32⟩ : BufTy).Contents (Elt F) → (⟨S100000x16, .f32⟩ : BufTy).Contents (Elt F)) ]

/-- The log-softmax's row maximum. -/
abbrev opsHa : List (HloOp τ sig (Elt F)) :=
  [ StableHlo.TRef.nullary main_call3.cst (constant S_ .f32 0xFF800000#32),
    StableHlo.TRef.binary (TRef.of main_v84 : TRef sig ⟨S100000x16, .f32⟩) main_call3.cst main_call3.v0 (fun x v => Host.reduce FloatOps.maximumf x v reducesTo_S100000x16_S100000_d1 h_S_) ]

/-- Its maximum with −∞. -/
abbrev opsHb : List (HloOp τ sig (Elt F)) :=
  [ StableHlo.TRef.nullary main_call3.cst_0 (constant S_ .f32 0xFF800000#32),
    StableHlo.TRef.unary main_call3.cst_0 main_call3.v1 (broadcastInDim S100000 ![] bcast_S_S100000),
    StableHlo.TRef.binary main_call3.v1 main_call3.v0 main_call3.v2 maximumf ]

/-- The logits shifted by it. -/
abbrev opsHc : List (HloOp τ sig (Elt F)) :=
  [ StableHlo.TRef.unary main_call3.v2 main_call3.v3 (broadcastInDim S100000x1 ![0] bcast_S100000_S100000x1_0),
    StableHlo.TRef.unary main_call3.v3 main_call3.v4 (broadcastInDim S100000x16 ![0, 1] bcast_S100000x1_S100000x16_0_1),
    StableHlo.TRef.binary (TRef.of main_v84 : TRef sig ⟨S100000x16, .f32⟩) main_call3.v4 main_call3.v5 subf ]

/-- The row sum of the exponentials. -/
abbrev opsHd : List (HloOp τ sig (Elt F)) :=
  [ StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S100000x16_S100000_d1 h_S_) ]

/-- Its logarithm, subtracted. -/
abbrev opsHe : List (HloOp τ sig (Elt F)) :=
  [ StableHlo.TRef.unary main_call3.v7 main_call3.v8 (broadcastInDim S100000x1 ![0] bcast_S100000_S100000x1_0),
    StableHlo.TRef.unary main_call3.v8 main_call3.v9 Host.log,
    StableHlo.TRef.unary main_call3.v9 main_call3.v10 (broadcastInDim S100000x16 ![0, 1] bcast_S100000x1_S100000x16_0_1),
    StableHlo.TRef.binary main_call3.v5 main_call3.v10 main_call3.v11 subf ]

/-- @main's operations, in order. -/
abbrev ops : List (HloOp τ sig (Elt F)) :=
  opsA ++ (opsL1 ++ (opsL2 ++ (opsL3 ++ (opsH1 ++ (opsHa ++ (opsHb ++ (opsHc ++ (opsHd ++ opsHe))))))))

set_option maxRecDepth 16384 in
set_option maxHeartbeats 4000000 in
/-- @main is that straight line: the two windows in a row, the called functions' bodies unfolded at their calls, and the
    sequencing reassociated. -/
theorem main_eq (c : Dev nD) : main (F := F) c = seq ops := by
  simp only [main, main_part0, main_part1, fn_elu.body, fn_where.body, fn_where_0.body, fn_log_softmax.body, ops, opsA, opsL1, opsL2,
    opsL3, opsH1, opsHa, opsHb, opsHc, opsHd, opsHe, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! ## The run's side conditions -/

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩

theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

theorem opsH1_sub : (opsH1 : List (HloOp τ sig (Elt F))).Forall fun op => op.bufs ⊆ tcRefs τ sig :=
  ⟨binary_bufs_sub .., unary_bufs_sub .., unary_bufs_sub .., binary_bufs_sub ..⟩

theorem opsHa_sub : (opsHa : List (HloOp τ sig (Elt F))).Forall fun op => op.bufs ⊆ tcRefs τ sig :=
  ⟨nullary_bufs_sub .., binary_bufs_sub ..⟩

theorem opsHb_sub : (opsHb : List (HloOp τ sig (Elt F))).Forall fun op => op.bufs ⊆ tcRefs τ sig :=
  ⟨nullary_bufs_sub .., unary_bufs_sub .., binary_bufs_sub ..⟩

theorem opsHc_sub : (opsHc : List (HloOp τ sig (Elt F))).Forall fun op => op.bufs ⊆ tcRefs τ sig :=
  ⟨unary_bufs_sub .., unary_bufs_sub .., binary_bufs_sub ..⟩

theorem opsHd_sub : (opsHd : List (HloOp τ sig (Elt F))).Forall fun op => op.bufs ⊆ tcRefs τ sig :=
  ⟨unary_bufs_sub .., nullary_bufs_sub .., binary_bufs_sub ..⟩

theorem opsHe_sub : (opsHe : List (HloOp τ sig (Elt F))).Forall fun op => op.bufs ⊆ tcRefs τ sig :=
  ⟨unary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h
    · exact List.forall_iff_forall_mem.mp opsA_sub op h
    · exact List.forall_iff_forall_mem.mp opsL1_sub op h
    · exact List.forall_iff_forall_mem.mp opsL2_sub op h
    · exact List.forall_iff_forall_mem.mp opsL3_sub op h
    · exact List.forall_iff_forall_mem.mp opsH1_sub op h
    · exact List.forall_iff_forall_mem.mp opsHa_sub op h
    · exact List.forall_iff_forall_mem.mp opsHb_sub op h
    · exact List.forall_iff_forall_mem.mp opsHc_sub op h
    · exact List.forall_iff_forall_mem.mp opsHd_sub op h
    · exact List.forall_iff_forall_mem.mp opsHe_sub op h

theorem opsA_fresh : ∀ op ∈ (opsA : List (HloOp τ sig (Elt F))), op.fresh = ∅ := by
  intro _ h; (repeat (cases h with | head => rfl | tail _ h => ?_)); exact nomatch h

theorem opsL1_fresh : ∀ op ∈ (opsL1 : List (HloOp τ sig (Elt F))), op.fresh = ∅ := by
  intro _ h; (repeat (cases h with | head => rfl | tail _ h => ?_)); exact nomatch h

theorem opsL2_fresh : ∀ op ∈ (opsL2 : List (HloOp τ sig (Elt F))), op.fresh = ∅ := by
  intro _ h; (repeat (cases h with | head => rfl | tail _ h => ?_)); exact nomatch h

theorem opsL3_fresh : ∀ op ∈ (opsL3 : List (HloOp τ sig (Elt F))), op.fresh = ∅ := by
  intro _ h; (repeat (cases h with | head => rfl | tail _ h => ?_)); exact nomatch h

theorem opsH1_fresh : ∀ op ∈ (opsH1 : List (HloOp τ sig (Elt F))), op.fresh = ∅ := by
  intro _ h; (repeat (cases h with | head => rfl | tail _ h => ?_)); exact nomatch h

theorem opsHa_fresh : ∀ op ∈ (opsHa : List (HloOp τ sig (Elt F))), op.fresh = ∅ := by
  intro _ h; (repeat (cases h with | head => rfl | tail _ h => ?_)); exact nomatch h

theorem opsHb_fresh : ∀ op ∈ (opsHb : List (HloOp τ sig (Elt F))), op.fresh = ∅ := by
  intro _ h; (repeat (cases h with | head => rfl | tail _ h => ?_)); exact nomatch h

theorem opsHc_fresh : ∀ op ∈ (opsHc : List (HloOp τ sig (Elt F))), op.fresh = ∅ := by
  intro _ h; (repeat (cases h with | head => rfl | tail _ h => ?_)); exact nomatch h

theorem opsHd_fresh : ∀ op ∈ (opsHd : List (HloOp τ sig (Elt F))), op.fresh = ∅ := by
  intro _ h; (repeat (cases h with | head => rfl | tail _ h => ?_)); exact nomatch h

theorem opsHe_fresh : ∀ op ∈ (opsHe : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  simp only [ops, List.mem_append] at h
  rcases h with h | h | h | h | h | h | h | h | h | h
  · exact opsA_fresh op h
  · exact opsL1_fresh op h
  · exact opsL2_fresh op h
  · exact opsL3_fresh op h
  · exact opsH1_fresh op h
  · exact opsHa_fresh op h
  · exact opsHb_fresh op h
  · exact opsHc_fresh op h
  · exact opsHd_fresh op h
  · exact opsHe_fresh op h

/-- Two stretches in a row. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole line is the ten stretches in a row. -/
theorem after_ops (V : Valuation τ sig (Elt F)) :
    after ops V = after opsHe (after opsHd (after opsHc (after opsHb (after opsHa (after opsH1 (after opsL3 (after opsL2
      (after opsL1 (after opsA V))))))))) := by
  show after (opsA ++ (opsL1 ++ (opsL2 ++ (opsL3 ++ (opsH1 ++ (opsHa ++ (opsHb ++ (opsHc ++ (opsHd ++ opsHe))))))))) V = _
  rw [after_app, after_app, after_app, after_app, after_app, after_app, after_app, after_app, after_app]

/-! ## What each stretch leaves alone -/

/-- The buffers the stretch writes. -/
abbrev opsA_W : List (Ref sig .tc) :=
  [main_v0, main_v1, main_v2, main_v3, main_v4, main_v5, main_v6, main_cst, main_v7, main_cst_0, main_v8, main_v9, main_v10, main_v11,
    main_c, main_v12, main_v13, main_c_1, main_v14, main_v15, main_v16, main_v17, main_v18, main_c_2, main_v19, main_v20, main_c_3,
    main_v21, main_v22, main_v23, main_v24, main_v25, main_v26]

theorem opsA_writes : (opsA : List (HloOp τ sig (Elt F))).Forall fun op =>
    op.writes ⊆ (opsA_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

/-- The buffers the stretch writes. -/
abbrev opsL1_W : List (Ref sig .tc) :=
  [main_v27, main_c_4, main_v28, main_v29, main_c_5, main_v30, main_v31, main_v32, main_v33, main_v34, main_v35, main_v36, main_v37,
    main_cst_6, main_v38, main_v39, main_v40, main_v41, main_v42, main_v43, main_call0.cst.ref, main_call0.v0.ref, main_call0.v1.ref,
    main_call0.cst_0.ref, main_call0.v2.ref, main_call0.v3.ref, main_call0.cst_1.ref, main_call0.call0.v0.ref, main_call0.call0.v1.ref,
    main_call0.call0.v2.ref, main_call0.v5.ref, main_call0.cst_2.ref, main_call0.v6.ref, main_call0.v7.ref, main_call0.call1.v0.ref]

theorem opsL1_writes : (opsL1 : List (HloOp τ sig (Elt F))).Forall fun op =>
    op.writes ⊆ (opsL1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsL1_keep (V : Valuation τ sig (Elt F)) (r : Ref sig .tc) (h : r ∉ opsL1_W) :
    after opsL1 V (Proc.devRef .tc r) = V (Proc.devRef .tc r) :=
  after_of_writes_sub opsL1 V opsL1_writes h

/-- The buffers the stretch writes. -/
abbrev opsL2_W : List (Ref sig .tc) :=
  [main_v45, main_c_7, main_v46, main_v47, main_c_8, main_v48, main_v49, main_v50, main_v51, main_v52, main_v53, main_v54, main_v55,
    main_cst_9, main_v56, main_v57, main_v58, main_v59, main_v60, main_v61, main_call1.cst.ref, main_call1.v0.ref, main_call1.v1.ref,
    main_call1.cst_0.ref, main_call1.v2.ref, main_call1.v3.ref, main_call1.cst_1.ref, main_call1.call0.v0.ref, main_call1.call0.v1.ref,
    main_call1.call0.v2.ref, main_call1.v5.ref, main_call1.cst_2.ref, main_call1.v6.ref, main_call1.v7.ref, main_call1.call1.v0.ref]

theorem opsL2_writes : (opsL2 : List (HloOp τ sig (Elt F))).Forall fun op =>
    op.writes ⊆ (opsL2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsL2_keep (V : Valuation τ sig (Elt F)) (r : Ref sig .tc) (h : r ∉ opsL2_W) :
    after opsL2 V (Proc.devRef .tc r) = V (Proc.devRef .tc r) :=
  after_of_writes_sub opsL2 V opsL2_writes h

/-- The buffers the stretch writes. -/
abbrev opsL3_W : List (Ref sig .tc) :=
  [main_v63, main_c_10, main_v64, main_v65, main_c_11, main_v66, main_v67, main_v68, main_v69, main_v70, main_v71, main_v72, main_v73,
    main_cst_12, main_v74, main_v75, main_v76, main_v77, main_v78, main_v79, main_call2.cst.ref, main_call2.v0.ref, main_call2.v1.ref,
    main_call2.cst_0.ref, main_call2.v2.ref, main_call2.v3.ref, main_call2.cst_1.ref, main_call2.call0.v0.ref, main_call2.call0.v1.ref,
    main_call2.call0.v2.ref, main_call2.v5.ref, main_call2.cst_2.ref, main_call2.v6.ref, main_call2.v7.ref, main_call2.call1.v0.ref]

theorem opsL3_writes : (opsL3 : List (HloOp τ sig (Elt F))).Forall fun op =>
    op.writes ⊆ (opsL3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsL3_keep (V : Valuation τ sig (Elt F)) (r : Ref sig .tc) (h : r ∉ opsL3_W) :
    after opsL3 V (Proc.devRef .tc r) = V (Proc.devRef .tc r) :=
  after_of_writes_sub opsL3 V opsL3_writes h

/-- The buffers the stretch writes. -/
abbrev opsH1_W : List (Ref sig .tc) :=
  [main_v81, main_v82, main_v83, main_v84]

theorem opsH1_writes : (opsH1 : List (HloOp τ sig (Elt F))).Forall fun op =>
    op.writes ⊆ (opsH1_W.map (Proc.devRef (τ := τ) .tc)).toFinset := by
  simp only [List.Forall]
  refine ⟨?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsH1_keep (V : Valuation τ sig (Elt F)) (r : Ref sig .tc) (h : r ∉ opsH1_W) :
    after opsH1 V (Proc.devRef .tc r) = V (Proc.devRef .tc r) :=
  after_of_writes_sub opsH1 V opsH1_writes h

/-- The buffers the stretch writes. -/
abbrev opsHa_W : List (Ref sig .tc) :=
  [main_call3.cst.ref, main_call3.v0.ref]

theorem opsHa_writes : (opsHa : List (HloOp τ sig (Elt F))).Forall fun op =>
    op.writes ⊆ (opsHa_W.map (Proc.devRef (τ := τ) .tc)).toFinset := by
  simp only [List.Forall]
  refine ⟨?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsHa_keep (V : Valuation τ sig (Elt F)) (r : Ref sig .tc) (h : r ∉ opsHa_W) :
    after opsHa V (Proc.devRef .tc r) = V (Proc.devRef .tc r) :=
  after_of_writes_sub opsHa V opsHa_writes h

/-- The buffers the stretch writes. -/
abbrev opsHb_W : List (Ref sig .tc) :=
  [main_call3.cst_0.ref, main_call3.v1.ref, main_call3.v2.ref]

theorem opsHb_writes : (opsHb : List (HloOp τ sig (Elt F))).Forall fun op =>
    op.writes ⊆ (opsHb_W.map (Proc.devRef (τ := τ) .tc)).toFinset := by
  simp only [List.Forall]
  refine ⟨?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsHb_keep (V : Valuation τ sig (Elt F)) (r : Ref sig .tc) (h : r ∉ opsHb_W) :
    after opsHb V (Proc.devRef .tc r) = V (Proc.devRef .tc r) :=
  after_of_writes_sub opsHb V opsHb_writes h

/-- The buffers the stretch writes. -/
abbrev opsHc_W : List (Ref sig .tc) :=
  [main_call3.v3.ref, main_call3.v4.ref, main_call3.v5.ref]

theorem opsHc_writes : (opsHc : List (HloOp τ sig (Elt F))).Forall fun op =>
    op.writes ⊆ (opsHc_W.map (Proc.devRef (τ := τ) .tc)).toFinset := by
  simp only [List.Forall]
  refine ⟨?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsHc_keep (V : Valuation τ sig (Elt F)) (r : Ref sig .tc) (h : r ∉ opsHc_W) :
    after opsHc V (Proc.devRef .tc r) = V (Proc.devRef .tc r) :=
  after_of_writes_sub opsHc V opsHc_writes h

/-- The buffers the stretch writes. -/
abbrev opsHd_W : List (Ref sig .tc) :=
  [main_call3.v6.ref, main_call3.cst_1.ref, main_call3.v7.ref]

theorem opsHd_writes : (opsHd : List (HloOp τ sig (Elt F))).Forall fun op =>
    op.writes ⊆ (opsHd_W.map (Proc.devRef (τ := τ) .tc)).toFinset := by
  simp only [List.Forall]
  refine ⟨?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsHd_keep (V : Valuation τ sig (Elt F)) (r : Ref sig .tc) (h : r ∉ opsHd_W) :
    after opsHd V (Proc.devRef .tc r) = V (Proc.devRef .tc r) :=
  after_of_writes_sub opsHd V opsHd_writes h

/-- The buffers the stretch writes. -/
abbrev opsHe_W : List (Ref sig .tc) :=
  [main_call3.v8.ref, main_call3.v9.ref, main_call3.v10.ref, main_call3.v11.ref]

theorem opsHe_writes : (opsHe : List (HloOp τ sig (Elt F))).Forall fun op =>
    op.writes ⊆ (opsHe_W.map (Proc.devRef (τ := τ) .tc)).toFinset := by
  simp only [List.Forall]
  refine ⟨?_, ?_, ?_, ?_⟩ <;>
    (simp only [nullary_writes, unary_writes, binary_writes, ternary_writes, reshape_writes, Finset.singleton_subset_iff,
      List.mem_toFinset]; exact List.mem_map_of_mem (by decide))

/-- A buffer the stretch does not write keeps its contents through it. -/
theorem opsHe_keep (V : Valuation τ sig (Elt F)) (r : Ref sig .tc) (h : r ∉ opsHe_W) :
    after opsHe V (Proc.devRef .tc r) = V (Proc.devRef .tc r) :=
  after_of_writes_sub opsHe V opsHe_writes h

/-! ## What each stretch computes, from any contents -/

set_option maxRecDepth 16384 in
set_option maxHeartbeats 4000000 in
theorem opsA_v3 (V : Valuation τ sig (Elt F)) : after opsA V (main_v3 : DevRef τ sig) = srcIdx (V (main_arg1 : DevRef τ sig)) := by
  simp only [opsA]
  after_results_simp
  rfl

set_option maxRecDepth 16384 in
set_option maxHeartbeats 4000000 in
theorem opsA_v6 (V : Valuation τ sig (Elt F)) : after opsA V (main_v6 : DevRef τ sig) = dstIdx (V (main_arg1 : DevRef τ sig)) := by
  simp only [opsA]
  after_results_simp
  rfl

set_option maxRecDepth 16384 in
set_option maxHeartbeats 4000000 in
theorem opsA_v26 (V : Valuation τ sig (Elt F)) : after opsA V (main_v26 : DevRef τ sig) = normV (F := F) (V (main_arg1 : DevRef τ sig)) := by
  simp only [opsA]
  after_results_simp
  rfl

set_option maxRecDepth 16384 in
set_option maxHeartbeats 4000000 in
/-- The first layer's output, from any contents. -/
theorem opsL1_out (V : Valuation τ sig (Elt F)) :
    after opsL1 V (main_v44 : DevRef τ sig)
      = layerT (V (main_arg0 : DevRef τ sig)) (V (main_arg2 : DevRef τ sig)) (V (main_arg3 : DevRef τ sig)) (V (main_v3 : DevRef τ sig)) (V (main_v6 : DevRef τ sig)) (V (main_v26 : DevRef τ sig)) := by
  simp only [opsL1]
  after_results_simp
  rfl

set_option maxRecDepth 16384 in
set_option maxHeartbeats 4000000 in
/-- The second layer's output, from any contents. -/
theorem opsL2_out (V : Valuation τ sig (Elt F)) :
    after opsL2 V (main_v62 : DevRef τ sig)
      = layerT (V (main_v44 : DevRef τ sig)) (V (main_arg4 : DevRef τ sig)) (V (main_arg5 : DevRef τ sig)) (V (main_v3 : DevRef τ sig)) (V (main_v6 : DevRef τ sig)) (V (main_v26 : DevRef τ sig)) := by
  simp only [opsL2]
  after_results_simp
  rfl

set_option maxRecDepth 16384 in
set_option maxHeartbeats 4000000 in
/-- The third layer's output, from any contents. -/
theorem opsL3_out (V : Valuation τ sig (Elt F)) :
    after opsL3 V (main_v80 : DevRef τ sig)
      = layerT (V (main_v62 : DevRef τ sig)) (V (main_arg6 : DevRef τ sig)) (V (main_arg7 : DevRef τ sig)) (V (main_v3 : DevRef τ sig)) (V (main_v6 : DevRef τ sig)) (V (main_v26 : DevRef τ sig)) := by
  simp only [opsL3]
  after_results_simp
  rfl

set_option maxRecDepth 16384 in
set_option maxHeartbeats 1000000 in
/-- The logits, from any contents. -/
theorem opsH1_out (V : Valuation τ sig (Elt F)) :
    after opsH1 V (main_v84 : DevRef τ sig)
      = logitsT (V (main_v80 : DevRef τ sig)) (V (main_arg8 : DevRef τ sig)) (V (main_arg9 : DevRef τ sig)) := by
  simp only [opsH1]
  after_results_simp
  rfl

attribute [local irreducible] Host.reduce in
set_option maxRecDepth 16384 in
set_option maxHeartbeats 1000000 in
/-- The row maximum, from any contents (the reduction stays folded: only its operands are compared). -/
theorem opsHa_out (V : Valuation τ sig (Elt F)) :
    after opsHa V (main_call3_v0 : DevRef τ sig)
      = Host.reduce FloatOps.maximumf (V (main_v84 : DevRef τ sig)) (constant S_ .f32 0xFF800000#32) reducesTo_S100000x16_S100000_d1 h_S_ := by
  simp only [opsHa]
  after_results_simp
  rfl

set_option maxRecDepth 16384 in
set_option maxHeartbeats 1000000 in
/-- Its maximum with −∞, from any contents. -/
theorem opsHb_out (V : Valuation τ sig (Elt F)) :
    after opsHb V (main_call3_v2 : DevRef τ sig)
      = maximumf (broadcastInDim S100000 ![] bcast_S_S100000 (constant S_ .f32 0xFF800000#32)) (V (main_call3_v0 : DevRef τ sig)) := by
  simp only [opsHb]
  after_results_simp
  rfl

set_option maxRecDepth 16384 in
set_option maxHeartbeats 1000000 in
/-- The shifted logits, from any contents. -/
theorem opsHc_out (V : Valuation τ sig (Elt F)) :
    after opsHc V (main_call3_v5 : DevRef τ sig)
      = subf (V (main_v84 : DevRef τ sig))
          (broadcastInDim S100000x16 ![0, 1] bcast_S100000x1_S100000x16_0_1
            (broadcastInDim S100000x1 ![0] bcast_S100000_S100000x1_0 (V (main_call3_v2 : DevRef τ sig)))) := by
  simp only [opsHc]
  after_results_simp
  rfl

set_option maxRecDepth 16384 in
set_option maxHeartbeats 1000000 in
/-- The row sum of the exponentials, from any contents. -/
theorem opsHd_out (V : Valuation τ sig (Elt F)) :
    after opsHd V (main_call3_v7 : DevRef τ sig)
      = Host.reduceAdd (Host.exp (V (main_call3_v5 : DevRef τ sig))) (constant S_ .f32 0x00000000#32) reducesTo_S100000x16_S100000_d1 h_S_ := by
  simp only [opsHd]
  after_results_simp
  rfl

set_option maxRecDepth 16384 in
set_option maxHeartbeats 1000000 in
/-- The result, from any contents. -/
theorem opsHe_out (V : Valuation τ sig (Elt F)) :
    after opsHe V (main_v85 : DevRef τ sig)
      = subf (V (main_call3_v5 : DevRef τ sig))
          (broadcastInDim S100000x16 ![0, 1] bcast_S100000x1_S100000x16_0_1
            (Host.log (broadcastInDim S100000x1 ![0] bcast_S100000_S100000x1_0 (V (main_call3_v7 : DevRef τ sig))))) := by
  simp only [opsHe]
  after_results_simp
  rfl

/-! ## The whole line -/

attribute [local irreducible] Host.reduce in
/-- The head's three reductions chained: the result from the logits. -/
theorem head_chain (V : Valuation τ sig (Elt F)) :
    after opsHe (after opsHd (after opsHc (after opsHb (after opsHa V)))) (main_v85 : DevRef τ sig) = lsmT (V (main_v84 : DevRef τ sig)) := by
  rw [opsHe_out, opsHd_out, opsHd_keep _ main_call3_v5 (by decide), opsHc_out, opsHb_out, opsHb_keep _ main_v84 (by decide), opsHa_out,
    opsHa_keep _ main_v84 (by decide)]
  rfl

set_option maxRecDepth 16384 in
set_option maxHeartbeats 4000000 in
/-- The result buffer after the whole line, from any contents: `res` of the ten arguments' contents. -/
theorem ops_v85 (V : Valuation τ sig (Elt F)) :
    after ops V (main_v85 : DevRef τ sig)
      = res (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) := by
  rw [after_ops, head_chain, opsH1_out, opsL3_out, opsL3_keep _ main_arg8 (by decide), opsL3_keep _ main_arg9 (by decide)]
  rw [opsL2_out, opsL2_keep _ main_arg6 (by decide), opsL2_keep _ main_arg7 (by decide), opsL2_keep _ main_v3 (by decide), opsL2_keep _ main_v6 (by decide), opsL2_keep _ main_v26 (by decide), opsL2_keep _ main_arg8 (by decide), opsL2_keep _ main_arg9 (by decide)]
  rw [opsL1_out, opsL1_keep _ main_arg4 (by decide), opsL1_keep _ main_arg5 (by decide), opsL1_keep _ main_v3 (by decide), opsL1_keep _ main_v6 (by decide), opsL1_keep _ main_v26 (by decide), opsL1_keep _ main_arg6 (by decide), opsL1_keep _ main_arg7 (by decide), opsL1_keep _ main_arg8 (by decide), opsL1_keep _ main_arg9 (by decide)]
  rw [opsA_v3, opsA_v6, opsA_v26, opsA_keep _ main_arg0 (by decide), opsA_keep _ main_arg2 (by decide), opsA_keep _ main_arg3 (by decide), opsA_keep _ main_arg4 (by decide), opsA_keep _ main_arg5 (by decide), opsA_keep _ main_arg6 (by decide), opsA_keep _ main_arg7 (by decide), opsA_keep _ main_arg8 (by decide), opsA_keep _ main_arg9 (by decide)]
  rfl

/-- A buffer no stretch writes keeps its contents through the whole line. -/
theorem ops_keep (V : Valuation τ sig (Elt F)) (r : Ref sig .tc) (hA : r ∉ opsA_W) (h1 : r ∉ opsL1_W) (h2 : r ∉ opsL2_W) (h3 : r ∉ opsL3_W)
    (hH1 : r ∉ opsH1_W) (hHa : r ∉ opsHa_W) (hHb : r ∉ opsHb_W) (hHc : r ∉ opsHc_W) (hHd : r ∉ opsHd_W) (hHe : r ∉ opsHe_W) :
    after ops V (Proc.devRef .tc r) = V (Proc.devRef .tc r) := by
  rw [after_ops, opsHe_keep _ r hHe, opsHd_keep _ r hHd, opsHc_keep _ r hHc, opsHb_keep _ r hHb, opsHa_keep _ r hHa,
    opsH1_keep _ r hH1, opsL3_keep _ r h3, opsL2_keep _ r h2, opsL1_keep _ r h1, opsA_keep _ r hA]

/-- On every device, for any float values, from any memory with zero counters: every weakly fair execution of @main
    terminates with the result buffer at `res` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85)
        = res (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v85).trans (ops_v85 _),
      (h c main_arg0).trans (ops_keep _ main_arg0 (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.lean ====
/-
  Equivalence of a three-layer graph convolution network kernel with its reference, over the extended reals.

  The kernel program applies the symmetric normalisation's two factors at the nodes: each of its four launches scales the rows
  it sends by the per-node factor dinv = 1/sqrt(degree), and the next launch scales the collected sums by dinv again before the
  bias and ELU. The reference scales every message on its edge slot by dinv(source) · dinv(destination). Because dinv is a
  non-negative real (every node has its self-loop, so its degree is at least one), the factor of the destination moves out of
  the sum over the slots landing on a node, whatever the summands; and a slot that lands on a node stores that node's number,
  which the wrap of negative numbers leaves alone. So the three layers agree for arbitrary features. The head is
  log-softmax, where the kernel subtracts  m + log Σ exp(z − m)  from the logits at once and the reference subtracts m and then
  the logarithm: the two agree on real logits, and the logits are real because the inputs are finite.

  The frames of the two kernel programs are their generated frame certificates; the reference's frame is its run with the
  result dropped; the idealization rewrote nothing, so there is nothing to preserve.
-/
import proofs.«161114_j30794915512600_2_alg».proof.Defs
import proofs.«161114_j30794915512600_2_alg».proof.Proof.Gen.Kernel
import proofs.«161114_j30794915512600_2_alg».proof.Proof.KernelFrameP
import proofs.«161114_j30794915512600_2_alg».proof.Proof.Gen.KernelIdeal
import proofs.«161114_j30794915512600_2_alg».proof.Proof.KernelIdealFrameP
import proofs.«161114_j30794915512600_2_alg».proof.Proof.Gen.ReferenceIdeal
import proofs.«161114_j30794915512600_2_alg».proof.Proof.Gen.Pre_finite_inputs
import proofs.«161114_j30794915512600_2_alg».proof.Proof.KRun
import proofs.«161114_j30794915512600_2_alg».proof.Proof.KValue
import proofs.«161114_j30794915512600_2_alg».proof.Proof.Bridge
import proofs.«161114_j30794915512600_2_alg».proof.Proof.RefValue
import proofs.«161114_j30794915512600_2_alg».proof.Proof.FiniteInputs
import proofs.«161114_j30794915512600_2_alg».proof.Proof.RefRun
import Idealize.ShloMosaic.Adequacy
import Idealize.ShloMosaic.Init

noncomputable section

namespace Cert.Proof

open Idealize.ShloMosaic Idealize.ShloMosaic.TcCoe Idealize.ShloMosaic.ValueIdx Idealize.SL.Sem
open Cert.LibRealValued

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- The reference's composed term of the kernel program's arguments is the kernel program's result buffer, on finite inputs. -/
theorem value_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.RefRun.res (F := Ideal)
        (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      = Cert.KernelIdeal.Gen.W8 m ρ c (Proc.devRef .tc Cert.KernelIdeal.main_v53) := by
  obtain ⟨r0, r2, r3, r4, r5, r6, r7, r8, r9⟩ := Cert.FiniteInputs.real_of_pre _ _ _ _ _ _ _ _ _ _ (hpre c)
  funext i
  obtain ⟨p, q, rfl⟩ : ∃ (p : Fin 100000) (q : Fin 16), i = ix2 p q := ⟨i 0, i 1, eq_ix2 i⟩
  have hk := Cert.KernelIdeal.KValue.result_netR m ρ c r0 r2 r3 r4 r5 r6 r7 r8 r9 p q
  have hr := Cert.ReferenceIdeal.RefValue.res_apply
    (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9)) p q
  rw [Cert.Bridge.src_eq, Cert.Bridge.dstRaw_eq, Cert.Bridge.dstW_eq, Cert.Bridge.dinv_eq] at hr
  exact hr.trans hk.symm

/-- From memories agreeing on the arguments both programs run, end with the same result and leave their arguments as
    launched. -/
theorem algebraic : Cert.algebraic_KernelIdeal_ReferenceIdeal := by
  intro m ρ m' ρ' hpre hagree
  refine ⟨fun c => Cert.KernelIdeal.Gen.W8 m ρ c (Proc.devRef .tc Cert.KernelIdeal.main_v53), Cert.KernelIdeal.KRun.run m ρ, ?_⟩
  refine (θ_run Cert.ReferenceIdeal.defs _ _).mono (fun _ h c => ⟨(h c).1.trans ?_, (h c).2⟩) (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact value_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
